-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2048x512 .f32 .bf16
  ∧ IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S8x2048x512 .f32) (main_arg1 : FVec F S8x2048x512 .f32) (main_arg2 : FVec F S8x2048x512 .f32) (main_arg3 : FVec F S512x512 .f32) (main_arg4 : FVec F S512x512 .f32) (main_arg5 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x2048x512 : Shape := ⟨3, ![8, 2048, 512]⟩
abbrev S512x512 : Shape := ⟨2, ![512, 512]⟩
abbrev S16384x512 : Shape := ⟨2, ![16384, 512]⟩
abbrev S2048x512 : Shape := ⟨2, ![2048, 512]⟩
abbrev S1x2048x512 : Shape := ⟨3, ![1, 2048, 512]⟩
abbrev S1x256x512 : Shape := ⟨3, ![1, 256, 512]⟩
abbrev S2048x1 : Shape := ⟨2, ![2048, 1]⟩
abbrev S256x512 : Shape := ⟨2, ![256, 512]⟩
abbrev S2048x256 : Shape := ⟨2, ![2048, 256]⟩
abbrev S2048 : Shape := ⟨1, ![2048]⟩

abbrev nBuf : Space → Nat
  | .hbm => 19
  | .vmem => 26
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S16384x512, .f32⟩
  | .hbm, ⟨8, _⟩ => ⟨S16384x512, .f32⟩
  | .hbm, ⟨9, _⟩ => ⟨S8x2048x512, .f32⟩
  | .hbm, ⟨10, _⟩ => ⟨S512x512, .f32⟩
  | .hbm, ⟨11, _⟩ => ⟨S16384x512, .f32⟩
  | .hbm, ⟨12, _⟩ => ⟨S16384x512, .f32⟩
  | .hbm, ⟨13, _⟩ => ⟨S8x2048x512, .f32⟩
  | .hbm, ⟨14, _⟩ => ⟨S512x512, .f32⟩
  | .hbm, ⟨15, _⟩ => ⟨S16384x512, .f32⟩
  | .hbm, ⟨16, _⟩ => ⟨S16384x512, .bf16⟩
  | .hbm, ⟨17, _⟩ => ⟨S8x2048x512, .bf16⟩
  | .hbm, ⟨18, _⟩ => ⟨S8x2048x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S512x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S512x512, .f32⟩
  | .local _ .vmem, ⟨13, _⟩ => ⟨S2048x512, .bf16⟩
  | .local _ .vmem, ⟨14, _⟩ => ⟨S2048x512, .bf16⟩
  | .local _ .vmem, ⟨15, _⟩ => ⟨S1x2048x512, .f32⟩
  | .local _ .vmem, ⟨16, _⟩ => ⟨S1x2048x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .bf16⟩
  | .local _ .vmem, ⟨20, _⟩ => ⟨S1x256x512, .bf16⟩
  | .local _ .vmem, ⟨21, _⟩ => ⟨S1x2048x512, .f32⟩
  | .local _ .vmem, ⟨22, _⟩ => ⟨S1x2048x512, .f32⟩
  | .local _ .vmem, ⟨23, _⟩ => ⟨S2048x1, .f32⟩
  | .local _ .vmem, ⟨24, _⟩ => ⟨S2048x1, .f32⟩
  | .local _ .vmem, ⟨25, _⟩ => ⟨S2048x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_28 : BitVec 32 := 0#32
  let v54 : BitVec 1 := Scalar.cmpi .ne v53 c0_i32_28
  v54

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  transposes_S512x512_S512x512_1_0 : S512x512.Transposes [1, 0] S512x512
  shapeCasts_S8x2048x512_S16384x512 : S8x2048x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S16384x512_S8x2048x512 : S16384x512.ShapeCasts S8x2048x512
  packedbf16_S2048x512_S2048x512_0_0 : (Rect.unit (s := S2048x512) ![0, 0] S2048x512.size inb_S2048x512_S2048x512_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S2048x256_S2048 : S2048x256.Reduces [1] S2048
  shapeCasts_S2048_S2048x1 : S2048.ShapeCasts S2048x1
  broadcasts_S2048x1_S2048x256 : S2048x1.Broadcasts S2048x256
  broadcasts_S2048x1_S2048x512 : S2048x1.Broadcasts S2048x512
  shapeCasts_S2048x512_S1x2048x512 : S2048x512.ShapeCasts S1x2048x512
  dot_S2048x512_S512x512_S2048x512_1_0_0_1_n_n_wf : DotDims.WF S2048x512 S512x512 S2048x512 [1] [0] [0] [1] [] []
  dot_S2048x512_S256x512_S2048x256_1_1_0_0_n_n_wf : DotDims.WF S2048x512 S256x512 S2048x256 [1] [1] [0] [0] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S16384x512.size a
  hwx1_2 : ∀ i : grid1.Coords, EltTy.bits .f32 = 32 ∨ (Rect.block (s := S16384x512) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S16384x512.size a
  hwx2_2 : ∀ i : grid2.Coords, EltTy.bits .bf16 = 32 ∨ (Rect.block (s := S16384x512) S2048x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x512.size a ≤ S8x2048x512.size a
  hwx3_0 : ∀ i : grid3.Coords, EltTy.bits .f32 = 32 ∨ (Rect.block (s := S8x2048x512) S1x2048x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x512.size a ≤ S8x2048x512.size a
  hwx3_1 : ∀ i : grid3.Coords, EltTy.bits .f32 = 32 ∨ (Rect.block (s := S8x2048x512) S1x256x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x512.size a ≤ S8x2048x512.size a
  hwx3_2 : ∀ i : grid3.Coords, EltTy.bits .bf16 = 32 ∨ (Rect.block (s := S8x2048x512) S1x256x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x512.size a ≤ S8x2048x512.size a
  hwx3_3 : ∀ i : grid3.Coords, EltTy.bits .f32 = 32 ∨ (Rect.block (s := S8x2048x512) S1x2048x512.size (cc3_transform_3 i) (hinb3_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S1x2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1x256x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x256x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  The specification both programs are compared with: single-head attention with a row softmax and no scaling,
  over three linear projections. For a batch `b`, a query position `n` and an output feature `e`:

    q = query · Wqᵀ,  k = key · Wkᵀ,  v = value · Wvᵀ            (`proj`: y[b,n,e] = Σ_d x[b,n,d] · W[e,d])
    s_j = Σ_d q[b,n,d] · k[b,j,d]                                 (`score`)
    w_j = exp (s_j − max_j' s_j')                                 (`wgt`)
    out[b,n,e] = Σ_j (w_j / Σ_j' w_j') · v[b,j,e]                 (`attn`)

  all on the extended reals, with the instance's own `exp` and quotient.
-/
import Idealize.ShloMosaic.PureOps.Ideal
import Idealize.ShloMosaic.Lib.ValueIdx

noncomputable section

namespace Cert.Attn

open Idealize.ShloMosaic Idealize.ShloMosaic.ValueIdx

/-- A [8, 2048, 512] array and a [512, 512] matrix of extended reals. -/
abbrev T3 : Shape := ⟨3, ![8, 2048, 512]⟩
abbrev T2 : Shape := ⟨2, ![512, 512]⟩

/-- An array read by its three coordinates. -/
abbrev Arr3 : Type := Fin 8 → Fin 2048 → Fin 512 → EReal

/-- The linear projection `x · Wᵀ` (the weight stored output-major). -/
def proj (x : T3.Idx → EReal) (W : T2.Idx → EReal) : Arr3 :=
  fun b n e => ∑ d : Fin 512, x (ix3 b n d) * W (ix2 e d)

/-- The unscaled attention logit of query position `n` against key position `j`. -/
def score (q k : Arr3) (b : Fin 8) (n j : Fin 2048) : EReal := ∑ d : Fin 512, q b n d * k b j d

/-- The largest logit of a query row. -/
def rowMax (q k : Arr3) (b : Fin 8) (n : Fin 2048) : EReal := Finset.univ.sup fun j : Fin 2048 => score q k b n j

/-- The unnormalised softmax weight. -/
def wgt (q k : Arr3) (b : Fin 8) (n j : Fin 2048) : EReal := Ideal.exp (score q k b n j - rowMax q k b n)

/-- Attention: the softmax-weighted mean of the value rows. -/
def attn (q k v : Arr3) (b : Fin 8) (n : Fin 2048) (e : Fin 512) : EReal :=
  ∑ j : Fin 2048, Ideal.div (wgt q k b n j) (∑ j' : Fin 2048, wgt q k b n j') * v b j e

/-- The whole function of the six argument arrays, as a [8, 2048, 512] array. -/
def G (x0 x1 x2 : T3.Idx → EReal) (W3 W4 W5 : T2.Idx → EReal) : T3.Idx → EReal :=
  fun i => attn (proj x0 W3) (proj x1 W4) (proj x2 W5) (i 0) (i 1) (i 2)

end Cert.Attn

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«171383_j9698036154819_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.RefValue.lean ====
/-
  The reference program's result is the specification `Cert.Attn.G`, entry by entry.

  The reference computes, in order: the three projections (sums over the 512 input features), the logits (sums over
  the 512 projected features), the row maximum of the logits (a maximum-reduction from −∞, then a maximum with a
  broadcast −∞, which changes nothing), the logits minus their row maximum, the exponential, the row sum of the
  exponentials (a sum started from the zero word), the quotient of each exponential by its row's sum, and the
  contraction of the quotients with the projected values. Read at an index, each stage is the corresponding function
  of Spec.lean: `proj`, `score`, `rowMax`, `wgt`, `∑ wgt`, `wgt / ∑ wgt`, `attn`.
-/
import proofs.«171383_j9698036154819_2_alg».proof.Proof.Gen.ReferenceIdeal.Read
import proofs.«171383_j9698036154819_2_alg».proof.Proof.Spec
import proofs.«171383_j9698036154819_2_alg».proof.Proof.LibHostMax

noncomputable section

namespace Cert.ReferenceIdeal.RefValue

open Cert.ReferenceIdeal Cert.ReferenceIdeal.Gen Cert.ReferenceIdeal.Read Cert.Attn
open Idealize.ShloMosaic Idealize.ShloMosaic.ValueIdx

/-- An [8, 2048, 512] argument array and a [512, 512] weight, at the ideal instance. -/
abbrev A3 : Type := (⟨S8x2048x512, .f32⟩ : BufTy).Contents (Elt Ideal)
abbrev A2 : Type := (⟨S512x512, .f32⟩ : BufTy).Contents (Elt Ideal)

/-! ## The projections -/

/-- The first projection at (b, n, e) is `proj` of its two arguments there. -/
theorem v0_at (x0 : A3) (x3 : A2) (b : Fin 8) (n : Fin 2048) (e : Fin 512) :
    val_main_v0 (F := Ideal) x0 x3 (ix3 b n e) = proj x0 x3 b n e := by
  rw [val_main_v0_apply]
  refine Finset.sum_congr rfl fun d _ => ?_
  have el : lidx_main_v0 (ix3 b n e) d = ix3 b n d :=
    funext fun a => Fin.ext (by match a with | ⟨0, _⟩ => rfl | ⟨1, _⟩ => rfl | ⟨2, _⟩ => rfl)
  have er : ridx_main_v0 (ix3 b n e) d = ix2 e d :=
    funext fun a => Fin.ext (by match a with | ⟨0, _⟩ => rfl | ⟨1, _⟩ => rfl)
  rw [el, er]

theorem v1_at (x1 : A3) (x4 : A2) (b : Fin 8) (n : Fin 2048) (e : Fin 512) :
    val_main_v1 (F := Ideal) x1 x4 (ix3 b n e) = proj x1 x4 b n e := by
  rw [val_main_v1_apply]
  refine Finset.sum_congr rfl fun d _ => ?_
  have el : lidx_main_v1 (ix3 b n e) d = ix3 b n d :=
    funext fun a => Fin.ext (by match a with | ⟨0, _⟩ => rfl | ⟨1, _⟩ => rfl | ⟨2, _⟩ => rfl)
  have er : ridx_main_v1 (ix3 b n e) d = ix2 e d :=
    funext fun a => Fin.ext (by match a with | ⟨0, _⟩ => rfl | ⟨1, _⟩ => rfl)
  rw [el, er]

theorem v2_at (x2 : A3) (x5 : A2) (b : Fin 8) (n : Fin 2048) (e : Fin 512) :
    val_main_v2 (F := Ideal) x2 x5 (ix3 b n e) = proj x2 x5 b n e := by
  rw [val_main_v2_apply]
  refine Finset.sum_congr rfl fun d _ => ?_
  have el : lidx_main_v2 (ix3 b n e) d = ix3 b n d :=
    funext fun a => Fin.ext (by match a with | ⟨0, _⟩ => rfl | ⟨1, _⟩ => rfl | ⟨2, _⟩ => rfl)
  have er : ridx_main_v2 (ix3 b n e) d = ix2 e d :=
    funext fun a => Fin.ext (by match a with | ⟨0, _⟩ => rfl | ⟨1, _⟩ => rfl)
  rw [el, er]

/-! ## The logits and their row maximum -/

/-- The logit of query position `n` against key position `j` of batch `b`. -/
theorem v3_at (x0 x1 : A3) (x3 x4 : A2) (b : Fin 8) (n j : Fin 2048) :
    val_main_v3 (F := Ideal) x0 x1 x3 x4 (ix3 b n j) = score (proj x0 x3) (proj x1 x4) b n j := by
  rw [val_main_v3_apply]
  refine Finset.sum_congr rfl fun d _ => ?_
  have el : lidx_main_v3 (ix3 b n j) d = ix3 b n d :=
    funext fun a => Fin.ext (by match a with | ⟨0, _⟩ => rfl | ⟨1, _⟩ => rfl | ⟨2, _⟩ => rfl)
  have er : ridx_main_v3 (ix3 b n j) d = ix3 b j d :=
    funext fun a => Fin.ext (by match a with | ⟨0, _⟩ => rfl | ⟨1, _⟩ => rfl | ⟨2, _⟩ => rfl)
  rw [el, er, v0_at, v1_at]

/-- The maximum-reduction of the logits over the key axis, from −∞, is the row's supremum. -/
theorem v4_at (x0 x1 : A3) (x3 x4 : A2) (b : Fin 8) (n : Fin 2048) :
    val_main_v4 (F := Ideal) x0 x1 x3 x4 (ix2 b n) = rowMax (proj x0 x3) (proj x1 x4) b n := by
  unfold val_main_v4
  refine (HostMax.reduce_groups (val_main_v3 (F := Ideal) x0 x1 x3 x4) (val_main_cst (F := Ideal))
    (fun _ => HostMax.ofBits_neg_inf) reducesTo_S8x2048x2048_S8x2048_d2 (by decide) h_S_ b n).trans ?_
  exact Finset.sup_congr rfl fun j _ => v3_at x0 x1 x3 x4 b n j

/-- A maximum with a broadcast −∞ changes nothing. -/
theorem v6_at (x0 x1 : A3) (x3 x4 : A2) (b : Fin 8) (n : Fin 2048) :
    val_main_v6 (F := Ideal) x0 x1 x3 x4 (ix2 b n) = rowMax (proj x0 x3) (proj x1 x4) b n := by
  rw [val_main_v6_apply, val_main_v5_apply, val_main_cst_0_apply, v4_at, Ideal.maximumf_def, Ideal.ofBits_def,
    HostMax.ofBits_neg_inf]
  exact max_bot_left _

/-- The row maximum broadcast back along the key axis. -/
theorem v8_at (x0 x1 : A3) (x3 x4 : A2) (b : Fin 8) (n j : Fin 2048) :
    val_main_v8 (F := Ideal) x0 x1 x3 x4 (ix3 b n j) = rowMax (proj x0 x3) (proj x1 x4) b n := by
  rw [val_main_v8_apply, val_main_v7_apply]
  have e : idx_main_v7 (idx_main_v8 (ix3 b n j)) = ix2 b n :=
    funext fun a => Fin.ext (by match a with | ⟨0, _⟩ => rfl | ⟨1, _⟩ => rfl)
  rw [e, v6_at]

/-! ## The weights, their row sum and the quotient -/

/-- The exponential of the logit minus its row's maximum. -/
theorem v10_at (x0 x1 : A3) (x3 x4 : A2) (b : Fin 8) (n j : Fin 2048) :
    val_main_v10 (F := Ideal) x0 x1 x3 x4 (ix3 b n j) = wgt (proj x0 x3) (proj x1 x4) b n j := by
  rw [val_main_v10_apply, val_main_v9_apply, v3_at, v8_at, Ideal.hostUnary_exp_def, Ideal.subf_def]
  rfl

/-- The row sum of the weights: the sum starts from the zero word, which adds nothing. -/
theorem v11_at (x0 x1 : A3) (x3 x4 : A2) (b : Fin 8) (n : Fin 2048) :
    val_main_v11 (F := Ideal) x0 x1 x3 x4 (ix2 b n) = ∑ j : Fin 2048, wgt (proj x0 x3) (proj x1 x4) b n j := by
  rw [val_main_v11_apply, val_main_cst_1_apply, Ideal.ofBits_def, Ideal.ofBits_zero_f32, zero_add]
  refine Finset.sum_congr rfl fun j _ => ?_
  have e : idx_main_v11 (ix2 b n) j = ix3 b n j :=
    funext fun a => Fin.ext (by match a with | ⟨0, _⟩ => rfl | ⟨1, _⟩ => rfl | ⟨2, _⟩ => rfl)
  rw [e, v10_at]

/-- The row sum broadcast back along the key axis. -/
theorem v13_at (x0 x1 : A3) (x3 x4 : A2) (b : Fin 8) (n j : Fin 2048) :
    val_main_v13 (F := Ideal) x0 x1 x3 x4 (ix3 b n j) = ∑ j' : Fin 2048, wgt (proj x0 x3) (proj x1 x4) b n j' := by
  rw [val_main_v13_apply, val_main_v12_apply]
  have e : idx_main_v12 (idx_main_v13 (ix3 b n j)) = ix2 b n :=
    funext fun a => Fin.ext (by match a with | ⟨0, _⟩ => rfl | ⟨1, _⟩ => rfl)
  rw [e, v11_at]

/-- The normalised weight. -/
theorem v14_at (x0 x1 : A3) (x3 x4 : A2) (b : Fin 8) (n j : Fin 2048) :
    val_main_v14 (F := Ideal) x0 x1 x3 x4 (ix3 b n j)
      = Ideal.div (wgt (proj x0 x3) (proj x1 x4) b n j) (∑ j' : Fin 2048, wgt (proj x0 x3) (proj x1 x4) b n j') := by
  rw [val_main_v14_apply, v10_at, v13_at, Ideal.hostDivf_def]

/-! ## The result -/

/-- The reference's last stage, composed over the earlier ones, is the specification. -/
theorem ref_eq (x0 x1 x2 : A3) (x3 x4 x5 : A2) :
    val_main_v15 (F := Ideal) x0 x1 x2 x3 x4 x5 = Cert.Attn.G x0 x1 x2 x3 x4 x5 := by
  funext i
  obtain ⟨b, n, e, rfl⟩ : ∃ (b : Fin 8) (n : Fin 2048) (e : Fin 512), i = ix3 b n e := ⟨i 0, i 1, i 2, eq_ix3 i⟩
  rw [val_main_v15_apply]
  show _ = attn (proj x0 x3) (proj x1 x4) (proj x2 x5) b n e
  unfold attn
  refine Finset.sum_congr rfl fun j _ => ?_
  have el : lidx_main_v15 (ix3 b n e) j = ix3 b n j :=
    funext fun a => Fin.ext (by match a with | ⟨0, _⟩ => rfl | ⟨1, _⟩ => rfl | ⟨2, _⟩ => rfl)
  have er : ridx_main_v15 (ix3 b n e) j = ix3 b j e :=
    funext fun a => Fin.ext (by match a with | ⟨0, _⟩ => rfl | ⟨1, _⟩ => rfl | ⟨2, _⟩ => rfl)
  rw [el, er, v14_at, v2_at]

end Cert.ReferenceIdeal.RefValue

end
-- ==== Proof.Finite.lean ====
/-
  From the precondition to real entries. The precondition `finite_inputs` says of each of the six argument arrays
  that every entry `x` has `|x| < +∞`, all six conjoined; the conjunction is a chain of one-bit `and`s and each
  "every entry" is an `and`-reduction over all axes, started from 1. On the extended reals `|x| = max x (-x)`, and
  `max x (-x) < ⊤` excludes both infinities (at `⊥` the negation is `⊤`): what is left is a real number.
-/
import proofs.«171383_j9698036154819_2_alg».proof.Pre_finite_inputs
import proofs.«171383_j9698036154819_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

/-- The shape with no axes has exactly one index. -/
instance subsingleton_scalar_idx : Subsingleton S_.Idx := ⟨fun a b => funext fun d => d.elim0⟩

/-- The pattern of +∞ denotes the top element of the extended reals. -/
theorem ofBits_pos_inf : Ideal.ofBits .f32 0x7F800000#32 = (⊤ : EReal) := by
  simp [Ideal.ofBits, Ideal.ieee]

/-- An extended real whose absolute value `max x (-x)` compares strictly below the pattern of +∞ is a real:
    `x = ⊤` makes the maximum `⊤`, and `x = ⊥` makes `-x = ⊤`. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => exact absurd h (by simp [Ideal.cmp])
  | coe r => exact ⟨r, rfl⟩
  | top => exact absurd h (by simp [Ideal.cmp])

/-- One conjunct of the precondition, for an array of any shape: if the `and` over all entries of
    "`|x| < +∞`" (the comparison against the broadcast pattern of +∞) is 1, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := fun i =>
  real_of_abs_lt (x i) (Host.reduce_andi_all _ _ hr hu ValueIdx.ix0 h i)

/-- The precondition gives: every entry of each of the six argument arrays is a real number. -/
theorem real_of_pre (x0 x1 x2 : (⟨S8x2048x512, .f32⟩ : BufTy).Contents (Elt Ideal))
    (x3 x4 x5 : (⟨S512x512, .f32⟩ : BufTy).Contents (Elt Ideal))
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ValueIdx.ix0
  dsimp only [Cert.Pre_finite_inputs.fn, Cert.Pre_finite_inputs.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real x0 _ _ _ h0, all_real x1 _ _ _ h1, all_real x2 _ _ _ h2,
    all_real x3 _ _ _ h3, all_real x4 _ _ _ h4, all_real x5 _ _ _ h5⟩

end Cert.Finite

end
-- ==== Proof.KI.Blocks.lean ====
/-
  The shared definitions of the four kernel regions of this program, each stated at a PARAMETER `V` — the
  TensorCore's buffer contents when the region is entered. Regions 0–2 are the three projections `x · Wᵀ`
  (one block of 2048 rows per grid point, the whole 512×512 weight resident). Region 3 is the attention
  itself over a grid (batch, key block): per batch it keeps, in three scratch buffers, the running row
  maximum `m`, the running denominator `l` and the running numerator `acc` of a softmax taken block by
  block, and at the batch's last key block writes `acc / l` to the output block.
-/
import proofs.«171383_j9698036154819_2_alg».proof.Proof.Gen.KernelIdeal.Launch
import proofs.«171383_j9698036154819_2_alg».proof.Proof.Gen.KernelIdeal.Skeleton
import proofs.«171383_j9698036154819_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the bodies load and store: always a whole buffer -/

abbrev rRows : Rect S2048x512 := Rect.unit (s := S2048x512) ![0, 0] S2048x512.size inb_S2048x512_S2048x512_0_0
abbrev rW : Rect S512x512 := Rect.unit (s := S512x512) ![0, 0] S512x512.size inb_S512x512_S512x512_0_0
abbrev rQ : Rect S1x2048x512 := Rect.unit (s := S1x2048x512) ![0, 0, 0] S1x2048x512.size inb_S1x2048x512_S1x2048x512_0_0_0
abbrev rK : Rect S1x256x512 := Rect.unit (s := S1x256x512) ![0, 0, 0] S1x256x512.size inb_S1x256x512_S1x256x512_0_0_0
abbrev rCol : Rect S2048x1 := Rect.unit (s := S2048x1) ![0, 0] S2048x1.size inb_S2048x1_S2048x1_0_0

section Regions
variable (V : (c : Dev nD) → (b : Ref sig .tc) → Buf (Elt F) ((c : Thread nD τ).loc b))

/-! ## Region 0: one row block of a projection, `x · Wᵀ` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: the one whole-block store of the product of the two input blocks. -/
def out0_2 (x0 : Vec F S2048x512 .f32) (x1 : Vec F S512x512 .f32) : Vec F S2048x512 .f32 :=
  View.canon [⟨rRows, k0_pay1 (View.ld x0 rRows) (View.ld x1 rW)⟩]

/-- The proof data of pipeline 0: arrays as found; inputs keep their blocks, the output holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: one row block of a projection, `x · Wᵀ` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: the one whole-block store of the product of the two input blocks. -/
def out1_2 (x0 : Vec F S2048x512 .f32) (x1 : Vec F S512x512 .f32) : Vec F S2048x512 .f32 :=
  View.canon [⟨rRows, k1_pay1 (View.ld x0 rRows) (View.ld x1 rW)⟩]

/-- The proof data of pipeline 1: arrays as found; inputs keep their blocks, the output holds the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: one row block of a projection, `x · Wᵀ` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after the body: the one whole-block store of the product of the two input blocks. -/
def out2_2 (x0 : Vec F S2048x512 .f32) (x1 : Vec F S512x512 .f32) : Vec F S2048x512 .bf16 :=
  View.canon [⟨rRows, k2_pay1 (View.ld x0 rRows) (View.ld x1 rW)⟩]

/-- The proof data of pipeline 2: arrays as found; inputs keep their blocks, the output holds the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: attention with a softmax accumulated over key blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The three scratch buffers' contents: running maximum, running denominator, running numerator. -/
abbrev Scr (F : FTy → Type) [FloatOps F] : Type := Vec F S2048x1 .f32 × Vec F S2048x1 .f32 × Vec F S2048x512 .f32

/-- What the first key block of a batch starts from: maximum `-∞`, denominator `0`, numerator `0`. -/
def scr0 : Scr F := (k3_pay5, k3_pay6, k3_pay7)

/-- One key block folded in: from the query block `q`, the key block `k`, the value block `v` and the scratch
    contents `s`, the new maximum, the rescaled denominator plus the block's row sums, the rescaled numerator plus
    the block's weighted values. -/
def scrStep (q : Vec F S1x2048x512 .f32) (k : Vec F S1x256x512 .f32) (v : Vec F S1x256x512 .bf16) (s : Scr F) : Scr F :=
  (k3_pay3 (k3_pay10 q k s.1),
   k3_pay1 (k3_pay13 q k s.1 s.1 s.2.1) (k3_pay14 q k s.1),
   k3_pay2 (k3_pay8 v) (k3_pay11 q k s.1 s.1) (k3_pay12 q k s.1) s.2.2)

/-- The output block from the scratch contents: numerator over denominator, row by row. -/
def outOf (s : Scr F) : Vec F S1x2048x512 .f32 := k3_pay4 s.2.2 s.2.1

/-- The scratch contents after the body at position `n` of the grid (batch `n / 8`, key block `n % 8`): the
    point's blocks folded into what the point before left, a batch's first point starting afresh. -/
def scrAt (c : Dev nD) : (n : ℕ) → n < cfg3.N → Scr F
  | 0, hn => scrStep (iblk3 V c 0 ⟨0, hn⟩) (iblk3 V c 1 ⟨0, hn⟩) (iblk3 V c 2 ⟨0, hn⟩) scr0
  | n + 1, hn => scrStep (iblk3 V c 0 ⟨n + 1, hn⟩) (iblk3 V c 1 ⟨n + 1, hn⟩) (iblk3 V c 2 ⟨n + 1, hn⟩)
      (if (n + 1) % 8 = 0 then scr0 else scrAt c n (Nat.lt_of_succ_lt hn))

theorem scrAt_first (c : Dev nD) (t : Fin cfg3.N) (h : t.val % 8 = 0) :
    scrAt V c t.val t.isLt = scrStep (iblk3 V c 0 t) (iblk3 V c 1 t) (iblk3 V c 2 t) scr0 := by
  obtain ⟨n, hn⟩ := t
  cases n with
  | zero => rfl
  | succ n => show scrStep _ _ _ (if (n + 1) % 8 = 0 then scr0 else _) = _; rw [if_pos h]

theorem scrAt_next (c : Dev nD) (t : Fin cfg3.N) (h : ¬ t.val % 8 = 0) :
    scrAt V c t.val t.isLt = scrStep (iblk3 V c 0 t) (iblk3 V c 1 t) (iblk3 V c 2 t)
      (scrAt V c (t.val - 1) (Nat.lt_of_le_of_lt (Nat.sub_le _ _) t.isLt)) := by
  obtain ⟨n, hn⟩ := t
  cases n with
  | zero => exact absurd (Nat.zero_mod _) h
  | succ n => show scrStep _ _ _ (if (n + 1) % 8 = 0 then scr0 else _) = _; rw [if_neg h]; rfl

/-- The scratch operands as memrefs. -/
abbrev scM : Memref sig .tc .vmem S2048x1 .f32 := Memref.whole cc3_scratch0
abbrev scL : Memref sig .tc .vmem S2048x1 .f32 := Memref.whole cc3_scratch1
abbrev scA : Memref sig .tc .vmem S2048x512 .f32 := Memref.whole cc3_scratch2

/-- The core's scoped buffers other than the three scratch buffers (the other regions' staging buffers), each whole
    at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The core's scoped buffers that are no staging buffer of this region, the three scratch buffers at given contents. -/
def restAt (c : Dev nD) (s : Scr F) : sProp 𝕄 :=
  iprop(others (F := F) c ∗ owns (c : Thread nD τ) scM fullShare s.1 ∗ owns (c : Thread nD τ) scL fullShare s.2.1
    ∗ owns (c : Thread nD τ) scA fullShare s.2.2)

/-- The region invariant before position `n`: before the first point the scoped rest at anything; afterwards the
    scoped rest with the three scratch buffers at what the point before left, and the generator register at some state. -/
def PhiS (c : Dev nD) : (n : ℕ) → n ≤ cfg3.N → sProp 𝕄
  | 0, _ => Pipeline.ΦA spec3 c
  | n + 1, hn => iprop(restAt c (scrAt V c n hn) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(restAt c (scrAt V c n hn) ∗ (∃ r, prngReg c r)) := rfl

theorem PhiS_pos (c : Dev nD) (n : ℕ) (h : n ≤ cfg3.N) (hz : n ≠ 0) :
    PhiS V c n h = iprop(restAt c (scrAt V c (n - 1) (by omega)) ∗ (∃ r, prngReg c r)) := by
  cases n with
  | zero => exact absurd rfl hz
  | succ n => rfl

/-- The proof data of pipeline 3: arrays as found; inputs keep their blocks; the output block holds numerator over
    denominator of the point's scratch contents (consulted only at a batch's last point, where it is written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outOf (scrAt V c t.val t.isLt)
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outOf (scrAt V c t.val t.isLt) := by dsimp only [dat3]
theorem PhiS_castSucc (c : Dev nD) (t : Fin cfg3.N) :
    (dat3 V c).Φ t.castSucc = PhiS V c t.val (Nat.le_of_lt t.isLt) := by
  dsimp only [dat3]; simp only [Fin.coe_castSucc]

end Regions

end Cert.KernelIdeal.H

end
-- ==== Proof.KI.Mat0.lean ====
/-
  Region 0 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.KI.Blocks

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only: unfetched, its block index has not moved) holds its
    block at every point, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

/-- The one store is over the whole output buffer, so it covers it. -/
theorem cover0_2 (p0 : Vec F S2048x512 .f32) (y : S2048x512.Idx) :
    ∃ pc ∈ ([⟨rRows, p0⟩] : List (View.Piece (Elt F) S2048x512 .f32)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S2048x512 .f32) (harg1 : arg1.IsWhole) (arg2 : Memref sig .tc .vmem S512x512 .f32) (harg2 : arg2.IsWhole) (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.H

end
-- ==== Proof.KI.Mat1.lean ====
/-
  Region 1 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.KI.Blocks

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched at the first point only: unfetched, its block index has not moved) holds its
    block at every point, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple -/

/-- The one store is over the whole output buffer, so it covers it. -/
theorem cover1_2 (p0 : Vec F S2048x512 .f32) (y : S2048x512.Idx) :
    ∃ pc ∈ ([⟨rRows, p0⟩] : List (View.Piece (Elt F) S2048x512 .f32)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S2048x512 .f32) (harg1 : arg1.IsWhole) (arg2 : Memref sig .tc .vmem S512x512 .f32) (harg2 : arg2.IsWhole) (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.H

end
-- ==== Proof.KI.Mat2.lean ====
/-
  Region 2 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.KI.Blocks

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, fetched at the first point only: unfetched, its block index has not moved) holds its
    block at every point, for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

/-- The one store is over the whole output buffer, so it covers it. -/
theorem cover2_2 (p0 : Vec F S2048x512 .bf16) (y : S2048x512.Idx) :
    ∃ pc ∈ ([⟨rRows, p0⟩] : List (View.Piece (Elt F) S2048x512 .bf16)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out2_2 x0 x1`. -/
theorem sound_kernel2 (c : Dev nD) (E : Set ℕ) (i : grid2.Coords) (arg1 : Memref sig .tc .vmem S2048x512 .f32) (harg1 : arg1.IsWhole) (arg2 : Memref sig .tc .vmem S512x512 .f32) (harg2 : arg2.IsWhole) (arg3 : Memref sig .tc .vmem S2048x512 .bf16) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.H

end
-- ==== Proof.KI.FlashConds.lean ====
/-
  Region 3 (attention): what its runs share. The two branch conditions of the body in closed form over the grid
  (point t = 8·batch + key block: the first holds at key block 0, where the scratch is re-initialised; the second at
  key block 7, where the output block is written), where the output window is idle, the staging memrefs at a point,
  the region's scoped rest split into the other regions' buffers and the three scratch buffers, and each input
  window's current staging buffer holding its block.
-/
import proofs.«171383_j9698036154819_2_alg».proof.Proof.KI.Blocks

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The condition of the body's first `scf.if` (key block 0), from the grid coordinates. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second `scf.if` (key block 7). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from key block 7 the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At key block 7 it is live. -/
theorem liveAt3_3 : ∀ t : Fin cfg3.N, cond3_1 (grid3.coords t) → cfg3.idle 3 (grid3.coords t) = false := by decide +kernel

/-! ## The staging memrefs at a point -/

abbrev ms3_0 (t : Fin cfg3.N) : Memref sig .tc .vmem S1x2048x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x512 .f32 := win3_3.stage (cfg3.slots t 3)
abbrev hs3_3 (t : Fin cfg3.N) : (ms3_3 t).IsWhole := hstage3_3 ((cfg3.slots t 3).cast nbuf3_3)

/-- Views through which buffer contents are stated (which staging buffer does not matter). -/
abbrev VO3 : View sig .tc .vmem S1x2048x512 .f32 := (Memref.whole cc3_stg3_0 : Memref sig .tc .vmem S1x2048x512 .f32).view
abbrev VSm : View sig .tc .vmem S2048x1 .f32 := (scM : Memref sig .tc .vmem S2048x1 .f32).view
abbrev VSl : View sig .tc .vmem S2048x1 .f32 := (scL : Memref sig .tc .vmem S2048x1 .f32).view
abbrev VSa : View sig .tc .vmem S2048x512 .f32 := (scA : Memref sig .tc .vmem S2048x512 .f32).view

/-! ## The scoped rest, split -/

/-- The class invariant hands the body the other regions' buffers, the three scratch buffers at some contents and the
    generator register at some state. -/
theorem PhiA3_out (c : Dev nD) :
    (Pipeline.ΦA spec3 c : sProp 𝕄)
      ⊢ iprop(iprop(others (F := F) c ∗ (∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA others; rw [scopedRest3_eq]; simp only [scM, scL, scA, owns_whole]
  iintro ⟨⟨H0, H1, H2, H3, H4, H5, H6, H7, H8, H9, H10, H11, H12, H13, H14, HM, HL, HA⟩, Hg⟩
  isplitr [Hg]; swap; · iexact Hg
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HM]; · iexact HM
  isplitl [HL]; · iexact HL
  iexact HA

/-- and takes them back. -/
theorem PhiA3_in (c : Dev nD) :
    iprop(iprop(others (F := F) c ∗ (∃ d, owns (c : Thread nD τ) scM fullShare d) ∗ (∃ d, owns (c : Thread nD τ) scL fullShare d)
          ∗ (∃ d, owns (c : Thread nD τ) scA fullShare d)) ∗ (∃ r, prngReg c r))
      ⊢ (Pipeline.ΦA spec3 c : sProp 𝕄) := by
  unfold Pipeline.ΦA others; rw [scopedRest3_eq]; simp only [scM, scL, scA, owns_whole]
  iintro ⟨⟨⟨H0, H1, H2, H3, H4, H5, H6, H7, H8, H9, H10, H11, H12, H13, H14⟩, HM, HL, HA⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HM]; · iexact HM
  isplitl [HL]; · iexact HL
  iexact HA

section Regions
variable (V : (c : Dev nD) → (b : Ref sig .tc) → Buf (Elt F) ((c : Thread nD τ).loc b))

/-! ## Each input window's current staging buffer holds its block, fetched at the point or not -/

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

end Regions

end Cert.KernelIdeal.H

end
-- ==== Proof.KI.FlashRunA.lean ====
/-
  Region 3 (attention): the whole-body run of the kernel at a batch's FIRST key block (the scratch is re-initialised, then the block is folded in; the output window is left untouched).
  On whole staging memrefs — the three inputs at their blocks, the scratch at anything, the output
  at contents handed back untouched — the body runs to a continuation that holds the inputs as they were and every buffer it stored
  into with its stores written, as lists of pieces (last store first) that the symbolic run itself finds.
-/
import proofs.«171383_j9698036154819_2_alg».proof.Proof.KI.FlashConds

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i)
    (x0 : Vec F S1x2048x512 .f32) (x1 : Vec F S1x256x512 .f32) (x2 : Vec F S1x256x512 .bf16) :
    Σ' (LS6 : List (View.Piece (Elt F) S2048x1 .f32)) (LS7 : List (View.Piece (Elt F) S2048x1 .f32)), { LS8 : List (View.Piece (Elt F) S2048x512 .f32) //
      ∀ (xi3 : Vec F S1x2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, fun xi3 E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.KernelIdeal.H

end
-- ==== Proof.KI.FlashRunB.lean ====
/-
  Region 3 (attention): the whole-body run of the kernel at a MIDDLE key block (the block is folded into the scratch contents the point before left; the output window is left untouched).
  On whole staging memrefs — the three inputs at their blocks, the scratch at given contents, the output
  at contents handed back untouched — the body runs to a continuation that holds the inputs as they were and every buffer it stored
  into with its stores written, as lists of pieces (last store first) that the symbolic run itself finds.
-/
import proofs.«171383_j9698036154819_2_alg».proof.Proof.KI.FlashConds

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i)
    (x0 : Vec F S1x2048x512 .f32) (x1 : Vec F S1x256x512 .f32) (x2 : Vec F S1x256x512 .bf16) (xs6 : Vec F S2048x1 .f32) (xs7 : Vec F S2048x1 .f32) (xs8 : Vec F S2048x512 .f32) :
    Σ' (LS6 : List (View.Piece (Elt F) S2048x1 .f32)) (LS7 : List (View.Piece (Elt F) S2048x1 .f32)), { LS8 : List (View.Piece (Elt F) S2048x512 .f32) //
      ∀ (xi3 : Vec F S1x2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, fun xi3 E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.KernelIdeal.H

end
-- ==== Proof.KI.FlashRunC.lean ====
/-
  Region 3 (attention): the whole-body run of the kernel at a batch's LAST key block (the block is folded in, then numerator over denominator is stored to the output block).
  On whole staging memrefs — the three inputs at their blocks, the scratch at given contents, the output
  at anything — the body runs to a continuation that holds the inputs as they were and every buffer it stored
  into with its stores written, as lists of pieces (last store first) that the symbolic run itself finds.
-/
import proofs.«171383_j9698036154819_2_alg».proof.Proof.KI.FlashConds

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i)
    (x0 : Vec F S1x2048x512 .f32) (x1 : Vec F S1x256x512 .f32) (x2 : Vec F S1x256x512 .bf16) (xs6 : Vec F S2048x1 .f32) (xs7 : Vec F S2048x1 .f32) (xs8 : Vec F S2048x512 .f32) :
    Σ' (L5 : List (View.Piece (Elt F) S1x2048x512 .f32)) (LS6 : List (View.Piece (Elt F) S2048x1 .f32)) (LS7 : List (View.Piece (Elt F) S2048x1 .f32)), { LS8 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, ?_, fun E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    isplitl [H7]; · iexists _; iexact H7
    iexists _; iexact H8

end Cert.KernelIdeal.H

end
-- ==== Proof.KI.FlashBody.lean ====
/-
  Region 3 (attention): the body obligation. What each case's run leaves in the scratch buffers (and, at a batch's
  last key block, in the output block) is one key block folded into the scratch contents (`scrStep`), resp. numerator
  over denominator (`outOf`): read off the pieces the runs found, every load and store being of a whole buffer.
  With that the body at any grid point takes the region invariant before the point to the invariant after it.
-/
import proofs.«171383_j9698036154819_2_alg».proof.Proof.KI.FlashRunA
import proofs.«171383_j9698036154819_2_alg».proof.Proof.KI.FlashRunB
import proofs.«171383_j9698036154819_2_alg».proof.Proof.KI.FlashRunC
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-! ## What the runs' pieces hold -/

theorem scover3_A_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x1.Idx) :
    ∃ pc ∈ (kernelRun3_A c i arg2 harg2 arg3 harg3 arg4 harg4 arg5 harg5 arg6 harg6 arg7 harg7 arg8 harg8 hc0 hc1 x0 x1 x2).1, y ∈ pc.1.set :=
  View.cover_of_tiledL ((kernelRun3_A c i arg2 harg2 arg3 harg3 arg4 harg4 arg5 harg5 arg6 harg6 arg7 harg7 arg8 harg8 hc0 hc1 x0 x1 x2).1) S2048x1.size (by sl_kernel_rfl) y

theorem sread3_A_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x1 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).1)) = (scrStep x0 x1 x2 scr0).1 := by
  rw [View.read_writes_eq_canon _ _ _ (scover3_A_6 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_A_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x1.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL ((kernelRun3_A c i arg2 harg2 arg3 harg3 arg4 harg4 arg5 harg5 arg6 harg6 arg7 harg7 arg8 harg8 hc0 hc1 x0 x1 x2).2.1) S2048x1.size (by sl_kernel_rfl) y

theorem sread3_A_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x1 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).2.1)) = (scrStep x0 x1 x2 scr0).2.1 := by
  rw [View.read_writes_eq_canon _ _ _ (scover3_A_7 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_A_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x512.Idx) :
    ∃ pc ∈ (kernelRun3_A c i arg2 harg2 arg3 harg3 arg4 harg4 arg5 harg5 arg6 harg6 arg7 harg7 arg8 harg8 hc0 hc1 x0 x1 x2).2.2.1, y ∈ pc.1.set :=
  View.cover_of_tiledL ((kernelRun3_A c i arg2 harg2 arg3 harg3 arg4 harg4 arg5 harg5 arg6 harg6 arg7 harg7 arg8 harg8 hc0 hc1 x0 x1 x2).2.2.1) S2048x512.size (by sl_kernel_rfl) y

theorem sread3_A_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x512 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).2.2.1)) = (scrStep x0 x1 x2 scr0).2.2 := by
  rw [View.read_writes_eq_canon _ _ _ (scover3_A_8 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_B c i arg2 harg2 arg3 harg3 arg4 harg4 arg5 harg5 arg6 harg6 arg7 harg7 arg8 harg8 hc0 hc1 x0 x1 x2 xs6 xs7 xs8).1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).1) S2048x1.size (by sl_kernel_rfl) y

theorem sread3_B_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).1)) = (scrStep x0 x1 x2 (xs6, xs7, xs8)).1 := by
  rw [View.read_writes_eq_canon _ _ _ (scover3_B_6 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_B c i arg2 harg2 arg3 harg3 arg4 harg4 arg5 harg5 arg6 harg6 arg7 harg7 arg8 harg8 hc0 hc1 x0 x1 x2 xs6 xs7 xs8).2.1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).2.1) S2048x1.size (by sl_kernel_rfl) y

theorem sread3_B_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).2.1)) = (scrStep x0 x1 x2 (xs6, xs7, xs8)).2.1 := by
  rw [View.read_writes_eq_canon _ _ _ (scover3_B_7 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x512.Idx) :
    ∃ pc ∈ (kernelRun3_B c i arg2 harg2 arg3 harg3 arg4 harg4 arg5 harg5 arg6 harg6 arg7 harg7 arg8 harg8 hc0 hc1 x0 x1 x2 xs6 xs7 xs8).2.2.1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).2.2.1) S2048x512.size (by sl_kernel_rfl) y

theorem sread3_B_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x512 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).2.2.1)) = (scrStep x0 x1 x2 (xs6, xs7, xs8)).2.2 := by
  rw [View.read_writes_eq_canon _ _ _ (scover3_B_8 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_5 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S1x2048x512.Idx) :
    ∃ pc ∈ (kernelRun3_C c i arg2 harg2 arg3 harg3 arg4 harg4 arg5 harg5 arg6 harg6 arg7 harg7 arg8 harg8 hc0 hc1 x0 x1 x2 xs6 xs7 xs8).1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).1) S1x2048x512.size (by sl_kernel_rfl) y

theorem sread3_C_5 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S1x2048x512 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).1)) = outOf (scrStep x0 x1 x2 (xs6, xs7, xs8)) := by
  rw [View.read_writes_eq_canon _ _ _ (scover3_C_5 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz3]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_C c i arg2 harg2 arg3 harg3 arg4 harg4 arg5 harg5 arg6 harg6 arg7 harg7 arg8 harg8 hc0 hc1 x0 x1 x2 xs6 xs7 xs8).2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.1) S2048x1.size (by sl_kernel_rfl) y

theorem sread3_C_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.1)) = (scrStep x0 x1 x2 (xs6, xs7, xs8)).1 := by
  rw [View.read_writes_eq_canon _ _ _ (scover3_C_6 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_C c i arg2 harg2 arg3 harg3 arg4 harg4 arg5 harg5 arg6 harg6 arg7 harg7 arg8 harg8 hc0 hc1 x0 x1 x2 xs6 xs7 xs8).2.2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.2.1) S2048x1.size (by sl_kernel_rfl) y

theorem sread3_C_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.2.1)) = (scrStep x0 x1 x2 (xs6, xs7, xs8)).2.1 := by
  rw [View.read_writes_eq_canon _ _ _ (scover3_C_7 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x512.Idx) :
    ∃ pc ∈ (kernelRun3_C c i arg2 harg2 arg3 harg3 arg4 harg4 arg5 harg5 arg6 harg6 arg7 harg7 arg8 harg8 hc0 hc1 x0 x1 x2 xs6 xs7 xs8).2.2.2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.2.2.1) S2048x512.size (by sl_kernel_rfl) y

theorem sread3_C_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x512 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.2.2.1)) = (scrStep x0 x1 x2 (xs6, xs7, xs8)).2.2 := by
  rw [View.read_writes_eq_canon _ _ _ (scover3_C_8 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

section Regions
variable (V : (c : Dev nD) → (b : Ref sig .tc) → Buf (Elt F) ((c : Thread nD τ).loc b))

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold restAt
  by_cases h0 : t.val % 8 = 0
  · -- a batch's first key block
    have h1 : ¬ t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [scrAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA3_out (F := F) c) $$ HΦ
      icases HΦ' with ⟨⟨Hoth, HS6, HS7, HS8⟩, Hg⟩
      iapply ((kernelRun3_A c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_A_6 _ _ _ _ _ _ _ _ _ _ _ _ _ _ _ _ _ _ _ _ _ _ _
        isplitl [HS7]
        · unfold owns; iexists _; isplitr
          swap; · iexact HS7
          ipureintro; exact sread3_A_7 _ _ _ _ _ _ _ _ _ _ _ _ _ _ _ _ _ _ _ _ _ _ _
        unfold owns; iexists _; isplitr
        swap; · iexact HS8
        ipureintro; exact sread3_A_8 _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3
    · rw [PhiS_castSucc V c t, PhiS_pos V c _ _ hz]; unfold restAt
      iintro ⟨⟨⟨Hoth, HS6, HS7, HS8⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      isplitl [HS8]; · iexists _; iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_A_6 _ _ _ _ _ _ _ _ _ _ _ _ _ _ _ _ _ _ _ _ _ _ _
        isplitl [HS7]
        · unfold owns; iexists _; isplitr
          swap; · iexact HS7
          ipureintro; exact sread3_A_7 _ _ _ _ _ _ _ _ _ _ _ _ _ _ _ _ _ _ _ _ _ _ _
        unfold owns; iexists _; isplitr
        swap; · iexact HS8
        ipureintro; exact sread3_A_8 _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond3_0 (grid3.coords t) := fun h => h0 ((hcond3_0 t).mp h)
    rw [scrAt_next V c t h0]
    rw [PhiS_castSucc V c t, PhiS_pos V c _ _ hz]; unfold restAt
    by_cases h1 : t.val % 8 = 7
    · -- a batch's last key block
      have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3, scrAt_next V c t h0]
      iintro ⟨⟨⟨Hoth, HS6, HS7, HS8⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS6]; · iexact HS6
      isplitl [HS7]; · iexact HS7
      isplitl [HS8]; · iexact HS8
      iintro ⟨H0, H1, H2, ⟨%e3, H3⟩, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_C_6 _ _ _ _ _ _ _ _ _ _ _ _ _ _ _ _ _ _ _ _ _ _ _ _ _ _
        isplitl [HS7]
        · unfold owns; iexists _; isplitr
          swap; · iexact HS7
          ipureintro; exact sread3_C_7 _ _ _ _ _ _ _ _ _ _ _ _ _ _ _ _ _ _ _ _ _ _ _ _ _ _
        unfold owns; iexists _; isplitr
        swap; · iexact HS8
        ipureintro; exact sread3_C_8 _ _ _ _ _ _ _ _ _ _ _ _ _ _ _ _ _ _ _ _ _ _ _ _ _ _
      isplitl [Ho]; · iexact Ho
      isplitl [H0]; · iexact H0
      isplitl [H1]; · iexact H1
      isplitl [H2]; · iexact H2
      unfold owns; iexists _; isplitr
      swap; · iexact H3
      ipureintro; exact sread3_C_5 _ _ _ _ _ _ _ _ _ _ _ _ _ _ _ _ _ _ _ _ _ _ _ _ _ _
    · -- a middle key block
      have hc1 : ¬cond3_1 (grid3.coords t) := fun h => h1 ((hcond3_1 t).mp h)
      rw [Dat.leavesExact_idle (dat3 V c) 3 t (idleAt3_3 t hc1) (noFlush3_3 t hc1)]
      iintro ⟨⟨⟨Hoth, HS6, HS7, HS8⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_B_6 _ _ _ _ _ _ _ _ _ _ _ _ _ _ _ _ _ _ _ _ _ _ _ _ _ _
        isplitl [HS7]
        · unfold owns; iexists _; isplitr
          swap; · iexact HS7
          ipureintro; exact sread3_B_7 _ _ _ _ _ _ _ _ _ _ _ _ _ _ _ _ _ _ _ _ _ _ _ _ _ _
        unfold owns; iexists _; isplitr
        swap; · iexact HS8
        ipureintro; exact sread3_B_8 _ _ _ _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS V c 0 (Nat.zero_le _) from rfl, PhiS_zero V c 0 _ rfl]

/-- After the last point the invariant gives the scoped rest back: the scratch contents are forgotten. -/
theorem hout3 (c : Dev nD) : (dat3 V c).Φ (Fin.last cfg3.N) ⊢ (Pipeline.ΦA spec3 c : sProp 𝕄) := by
  rw [show (dat3 V c).Φ (Fin.last cfg3.N) = PhiS V c (Fin.last cfg3.N).val (Nat.le_of_lt_succ (Fin.last cfg3.N).isLt) from rfl,
    PhiS_pos V c _ _ (by rw [Fin.val_last]; have : cfg3.N = 64 := N_3; omega)]
  unfold restAt
  iintro ⟨⟨Hoth, HS6, HS7, HS8⟩, Hg⟩
  iapply (PhiA3_in (F := F) c)
  isplitr [Hg]; swap; · iexact Hg
  isplitl [Hoth]; · iexact Hoth
  isplitl [HS6]; · iexists _; iexact HS6
  isplitl [HS7]; · iexists _; iexact HS7
  iexists _; iexact HS8

end Regions

end Cert.KernelIdeal.H

end
-- ==== Proof.KI.Run.lean ====
/-
  The run of @main over its four regions. Between two items core `c` holds every unscoped buffer at a valuation
  `Gen.V<j> m (outs m) c`; what a region leaves in its output array is what its pipeline's write-backs fold to
  (`Dat.arrAt … N`) from the contents the region finds, and those depend on what the earlier regions left: so the
  four unknowns are fixed one after the other (`val2`, `val4`, `val6`, `val8`), each region's proof data stated at
  the contents it finds. Each region is then a segment record entered from the valuation before it and left at the
  one after it, and the run reads every unscoped buffer off the last valuation.
-/
import proofs.«171383_j9698036154819_2_alg».proof.Proof.KI.Mat0
import proofs.«171383_j9698036154819_2_alg».proof.Proof.KI.Mat1
import proofs.«171383_j9698036154819_2_alg».proof.Proof.KI.Mat2
import proofs.«171383_j9698036154819_2_alg».proof.Proof.KI.FlashBody
import proofs.«171383_j9698036154819_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run
variable (m : (ℓ : Loc nD τ sig) → Buf (Elt F) ℓ)

/-! ## What each region leaves, one after the other -/

/-- The contents region 0 finds: the launch memory after the first host stretch. -/
abbrev ent0 : (c : Dev nD) → (b : Ref sig .tc) → Buf (Elt F) ((c : Thread nD τ).loc b) := fun c b => Gen.V1 m c b
/-- What region 0 leaves in its output array `main_v2`. -/
def val2 (c : Dev nD) : Buf (Elt F) ((c : Thread nD τ).loc main_v2) := (dat0 (ent0 m) c).arrAt 2 cfg0.N
/-- The unknowns with region 0's fixed. -/
def oA : Gen.Outs (F := F) := fun _ r c =>
  Function.update (β := fun r : Ref sig .tc => Buf (Elt F) ((c : Thread nD τ).loc r)) (fun r => m ((c : Thread nD τ).loc r)) main_v2 (val2 m c) r

/-- The contents region 1 finds. -/
abbrev ent1 : (c : Dev nD) → (b : Ref sig .tc) → Buf (Elt F) ((c : Thread nD τ).loc b) := fun c b => Gen.V3 m (oA m) c b
/-- What region 1 leaves in its output array `main_v6`. -/
def val4 (c : Dev nD) : Buf (Elt F) ((c : Thread nD τ).loc main_v6) := (dat1 (ent1 m) c).arrAt 2 cfg1.N
/-- The unknowns with regions 0 and 1's fixed. -/
def oB : Gen.Outs (F := F) := fun J r c =>
  Function.update (β := fun r : Ref sig .tc => Buf (Elt F) ((c : Thread nD τ).loc r)) (fun r => oA m J r c) main_v6 (val4 m c) r

/-- The contents region 2 finds. -/
abbrev ent2 : (c : Dev nD) → (b : Ref sig .tc) → Buf (Elt F) ((c : Thread nD τ).loc b) := fun c b => Gen.V5 m (oB m) c b
/-- What region 2 leaves in its output array `main_v10`. -/
def val6 (c : Dev nD) : Buf (Elt F) ((c : Thread nD τ).loc main_v10) := (dat2 (ent2 m) c).arrAt 2 cfg2.N
/-- The unknowns with regions 0, 1 and 2's fixed. -/
def oC : Gen.Outs (F := F) := fun J r c =>
  Function.update (β := fun r : Ref sig .tc => Buf (Elt F) ((c : Thread nD τ).loc r)) (fun r => oB m J r c) main_v10 (val6 m c) r

/-- The contents region 3 finds. -/
abbrev ent3 : (c : Dev nD) → (b : Ref sig .tc) → Buf (Elt F) ((c : Thread nD τ).loc b) := fun c b => Gen.V7 m (oC m) c b
/-- What region 3 leaves in its output array `main_v12`. -/
def val8 (c : Dev nD) : Buf (Elt F) ((c : Thread nD τ).loc main_v12) := (dat3 (ent3 m) c).arrAt 3 cfg3.N
/-- What the four regions leave. -/
def outs : Gen.Outs (F := F) := fun J r c =>
  Function.update (β := fun r : Ref sig .tc => Buf (Elt F) ((c : Thread nD τ).loc r)) (fun r => oC m J r c) main_v12 (val8 m c) r

/-! ## The unknowns read back -/

theorem oA_2 (J : ℕ) (c : Dev nD) : oA m J main_v2 c = val2 m c := by unfold oA; exact Function.update_self _ _ _
theorem oB_2 (J : ℕ) (c : Dev nD) : oB m J main_v2 c = val2 m c := by
  unfold oB; rw [Function.update_of_ne (by decide)]; exact oA_2 m J c
theorem oB_4 (J : ℕ) (c : Dev nD) : oB m J main_v6 c = val4 m c := by unfold oB; exact Function.update_self _ _ _
theorem oC_2 (J : ℕ) (c : Dev nD) : oC m J main_v2 c = val2 m c := by
  unfold oC; rw [Function.update_of_ne (by decide)]; exact oB_2 m J c
theorem oC_4 (J : ℕ) (c : Dev nD) : oC m J main_v6 c = val4 m c := by
  unfold oC; rw [Function.update_of_ne (by decide)]; exact oB_4 m J c
theorem oC_6 (J : ℕ) (c : Dev nD) : oC m J main_v10 c = val6 m c := by unfold oC; exact Function.update_self _ _ _
theorem outs_2 (c : Dev nD) : outs m 2 main_v2 c = val2 m c := by
  unfold outs; rw [Function.update_of_ne (by decide)]; exact oC_2 m 2 c
theorem outs_4 (c : Dev nD) : outs m 4 main_v6 c = val4 m c := by
  unfold outs; rw [Function.update_of_ne (by decide)]; exact oC_4 m 4 c
theorem outs_6 (c : Dev nD) : outs m 6 main_v10 c = val6 m c := by
  unfold outs; rw [Function.update_of_ne (by decide)]; exact oC_6 m 6 c
theorem outs_8 (c : Dev nD) : outs m 8 main_v12 c = val8 m c := by unfold outs; exact Function.update_self _ _ _

/-! ## The valuations mention the unknowns only at those points -/

theorem V2_congr (o o' : Gen.Outs (F := F)) (c : Dev nD) (h2 : o 2 main_v2 c = o' 2 main_v2 c) : Gen.V2 m o c = Gen.V2 m o' c :=
  congrArg (Function.update (Gen.V1 m c) (Proc.devRef .tc main_v2)) h2
theorem V3_congr (o o' : Gen.Outs (F := F)) (c : Dev nD) (h2 : o 2 main_v2 c = o' 2 main_v2 c) : Gen.V3 m o c = Gen.V3 m o' c :=
  congrArg (StableHlo.after hostOps1) (V2_congr m o o' c h2)
theorem V4_congr (o o' : Gen.Outs (F := F)) (c : Dev nD) (h2 : o 2 main_v2 c = o' 2 main_v2 c) (h4 : o 4 main_v6 c = o' 4 main_v6 c) :
    Gen.V4 m o c = Gen.V4 m o' c := by
  show Function.update (Gen.V3 m o c) (Proc.devRef .tc main_v6) (o 4 main_v6 c) = Function.update (Gen.V3 m o' c) (Proc.devRef .tc main_v6) (o' 4 main_v6 c)
  rw [V3_congr m o o' c h2, h4]
theorem V5_congr (o o' : Gen.Outs (F := F)) (c : Dev nD) (h2 : o 2 main_v2 c = o' 2 main_v2 c) (h4 : o 4 main_v6 c = o' 4 main_v6 c) :
    Gen.V5 m o c = Gen.V5 m o' c :=
  congrArg (StableHlo.after hostOps2) (V4_congr m o o' c h2 h4)
theorem V6_congr (o o' : Gen.Outs (F := F)) (c : Dev nD) (h2 : o 2 main_v2 c = o' 2 main_v2 c) (h4 : o 4 main_v6 c = o' 4 main_v6 c)
    (h6 : o 6 main_v10 c = o' 6 main_v10 c) : Gen.V6 m o c = Gen.V6 m o' c := by
  show Function.update (Gen.V5 m o c) (Proc.devRef .tc main_v10) (o 6 main_v10 c) = Function.update (Gen.V5 m o' c) (Proc.devRef .tc main_v10) (o' 6 main_v10 c)
  rw [V5_congr m o o' c h2 h4, h6]
theorem V7_congr (o o' : Gen.Outs (F := F)) (c : Dev nD) (h2 : o 2 main_v2 c = o' 2 main_v2 c) (h4 : o 4 main_v6 c = o' 4 main_v6 c)
    (h6 : o 6 main_v10 c = o' 6 main_v10 c) : Gen.V7 m o c = Gen.V7 m o' c :=
  congrArg (StableHlo.after hostOps3) (V6_congr m o o' c h2 h4 h6)

/-- Region 1 finds the same contents under the final unknowns as under region 0's alone; likewise regions 2 and 3. -/
theorem V3_outs (c : Dev nD) : Gen.V3 m (outs m) c = Gen.V3 m (oA m) c :=
  V3_congr m _ _ c ((outs_2 m c).trans (oA_2 m 2 c).symm)
theorem V5_outs (c : Dev nD) : Gen.V5 m (outs m) c = Gen.V5 m (oB m) c :=
  V5_congr m _ _ c ((outs_2 m c).trans (oB_2 m 2 c).symm) ((outs_4 m c).trans (oB_4 m 4 c).symm)
theorem V7_outs (c : Dev nD) : Gen.V7 m (outs m) c = Gen.V7 m (oC m) c :=
  V7_congr m _ _ c ((outs_2 m c).trans (oC_2 m 2 c).symm) ((outs_4 m c).trans (oC_4 m 4 c).symm) ((outs_6 m c).trans (oC_6 m 6 c).symm)

/-! ## The proof data family and what rides beside the buffers -/

/-- Every pipeline's proof data, each at the contents its region finds. -/
def pdats : (p : Fin 4) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

/-! ## Region 0 as a segment -/

/-- At region 0's exit each of its arrays holds what the pipeline leaves: an input array is never written back and no
    item up to here changes it; the output array is the unknown fixed above. -/
theorem hF0 (c : Dev nD) : ∀ w : Fin cfg0.W, (dat0 (ent0 m) c).arrAt w cfg0.N = Gen.V2 m (outs m) c (Pipeline.arrRef spec0 w)
  | ⟨0, _⟩ => ((dat0 (ent0 m) c).arrAt_in 0 rfl _).trans ((A_eq0 (ent0 m) c 0).trans
      (show Gen.V1 m c main_v1 = Gen.V2 m (outs m) c main_v1 from
        (Gen.V2_of m (outs m) c main_v1 (by decide)).symm))
  | ⟨1, _⟩ => ((dat0 (ent0 m) c).arrAt_in 1 rfl _).trans ((A_eq0 (ent0 m) c 1).trans
      (show Gen.V1 m c main_v0 = Gen.V2 m (outs m) c main_v0 from
        (Gen.V2_of m (outs m) c main_v0 (by decide)).symm))
  | ⟨2, _⟩ => (show (dat0 (ent0 m) c).arrAt 2 cfg0.N = val2 m c from rfl).trans
      (show val2 m c = Gen.V2 m (outs m) c main_v2 from
        ((show Gen.V2 m (outs m) c main_v2 = outs m 2 main_v2 c from Function.update_self _ _ _).trans (outs_2 m c)).symm)
/-- Every other unscoped buffer is as the region found it. -/
theorem hrest0 (c : Dev nD) : ∀ b, b ∉ Finset.univ.image (Pipeline.arrRef spec0) → Gen.V2 m (outs m) c b = ent0 m c b :=
  fun b hb => Gen.V2_of m (outs m) c b fun h => hb (Finset.mem_image.mpr ⟨2, Finset.mem_univ _, (List.mem_singleton.mp h).symm⟩)

set_option backward.isDefEq.respectTransparency.types false in
/-- REGION 0 over the thread state: entered from every unscoped buffer at `Gen.V1`, left at `Gen.V2`. Its arrays are
    split out of the unscoped buffers at entry and put back at the exit contents; the generator register goes into the
    region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- At region 1's exit each of its arrays holds what the pipeline leaves: an input array is never written back and no
    item up to here changes it; the output array is the unknown fixed above. -/
theorem hF1 (c : Dev nD) : ∀ w : Fin cfg1.W, (dat1 (ent1 m) c).arrAt w cfg1.N = Gen.V4 m (outs m) c (Pipeline.arrRef spec1 w)
  | ⟨0, _⟩ => ((dat1 (ent1 m) c).arrAt_in 0 rfl _).trans ((A_eq1 (ent1 m) c 0).trans
      (show Gen.V3 m (oA m) c main_v5 = Gen.V4 m (outs m) c main_v5 from
        ((Gen.V4_of m (outs m) c main_v5 (by decide)).trans (congrFun (V3_outs m c) _)).symm))
  | ⟨1, _⟩ => ((dat1 (ent1 m) c).arrAt_in 1 rfl _).trans ((A_eq1 (ent1 m) c 1).trans
      (show Gen.V3 m (oA m) c main_v4 = Gen.V4 m (outs m) c main_v4 from
        ((Gen.V4_of m (outs m) c main_v4 (by decide)).trans (congrFun (V3_outs m c) _)).symm))
  | ⟨2, _⟩ => (show (dat1 (ent1 m) c).arrAt 2 cfg1.N = val4 m c from rfl).trans
      (show val4 m c = Gen.V4 m (outs m) c main_v6 from
        ((show Gen.V4 m (outs m) c main_v6 = outs m 4 main_v6 c from Function.update_self _ _ _).trans (outs_4 m c)).symm)
/-- Every other unscoped buffer is as the region found it. -/
theorem hrest1 (c : Dev nD) : ∀ b, b ∉ Finset.univ.image (Pipeline.arrRef spec1) → Gen.V4 m (outs m) c b = ent1 m c b :=
  fun b hb => (Gen.V4_of m (outs m) c b fun h => hb (Finset.mem_image.mpr ⟨2, Finset.mem_univ _, (List.mem_singleton.mp h).symm⟩)).trans (congrFun (V3_outs m c) _)

set_option backward.isDefEq.respectTransparency.types false in
/-- REGION 1 over the thread state: entered from every unscoped buffer at `Gen.V3`, left at `Gen.V4`. Its arrays are
    split out of the unscoped buffers at entry and put back at the exit contents; the generator register goes into the
    region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [V3_outs m c]
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- At region 2's exit each of its arrays holds what the pipeline leaves: an input array is never written back and no
    item up to here changes it; the output array is the unknown fixed above. -/
theorem hF2 (c : Dev nD) : ∀ w : Fin cfg2.W, (dat2 (ent2 m) c).arrAt w cfg2.N = Gen.V6 m (outs m) c (Pipeline.arrRef spec2 w)
  | ⟨0, _⟩ => ((dat2 (ent2 m) c).arrAt_in 0 rfl _).trans ((A_eq2 (ent2 m) c 0).trans
      (show Gen.V5 m (oB m) c main_v9 = Gen.V6 m (outs m) c main_v9 from
        ((Gen.V6_of m (outs m) c main_v9 (by decide)).trans (congrFun (V5_outs m c) _)).symm))
  | ⟨1, _⟩ => ((dat2 (ent2 m) c).arrAt_in 1 rfl _).trans ((A_eq2 (ent2 m) c 1).trans
      (show Gen.V5 m (oB m) c main_v8 = Gen.V6 m (outs m) c main_v8 from
        ((Gen.V6_of m (outs m) c main_v8 (by decide)).trans (congrFun (V5_outs m c) _)).symm))
  | ⟨2, _⟩ => (show (dat2 (ent2 m) c).arrAt 2 cfg2.N = val6 m c from rfl).trans
      (show val6 m c = Gen.V6 m (outs m) c main_v10 from
        ((show Gen.V6 m (outs m) c main_v10 = outs m 6 main_v10 c from Function.update_self _ _ _).trans (outs_6 m c)).symm)
/-- Every other unscoped buffer is as the region found it. -/
theorem hrest2 (c : Dev nD) : ∀ b, b ∉ Finset.univ.image (Pipeline.arrRef spec2) → Gen.V6 m (outs m) c b = ent2 m c b :=
  fun b hb => (Gen.V6_of m (outs m) c b fun h => hb (Finset.mem_image.mpr ⟨2, Finset.mem_univ _, (List.mem_singleton.mp h).symm⟩)).trans (congrFun (V5_outs m c) _)

set_option backward.isDefEq.respectTransparency.types false in
/-- REGION 2 over the thread state: entered from every unscoped buffer at `Gen.V5`, left at `Gen.V6`. Its arrays are
    split out of the unscoped buffers at entry and put back at the exit contents; the generator register goes into the
    region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [V5_outs m c]
    rw [Pipeline.ownSems0_none]
    have hsplit := Pipeline.arrays_of_unscopedBufs (p := 2) (pcfgs (F := F)) Gen.adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (ent2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- At region 3's exit each of its arrays holds what the pipeline leaves: an input array is never written back and no
    item up to here changes it; the output array is the unknown fixed above. -/
theorem hF3 (c : Dev nD) : ∀ w : Fin cfg3.W, (dat3 (ent3 m) c).arrAt w cfg3.N = Gen.V8 m (outs m) c (Pipeline.arrRef spec3 w)
  | ⟨0, _⟩ => ((dat3 (ent3 m) c).arrAt_in 0 rfl _).trans ((A_eq3 (ent3 m) c 0).trans
      (show Gen.V7 m (oC m) c main_v3 = Gen.V8 m (outs m) c main_v3 from
        ((Gen.V8_of m (outs m) c main_v3 (by decide)).trans (congrFun (V7_outs m c) _)).symm))
  | ⟨1, _⟩ => ((dat3 (ent3 m) c).arrAt_in 1 rfl _).trans ((A_eq3 (ent3 m) c 1).trans
      (show Gen.V7 m (oC m) c main_v7 = Gen.V8 m (outs m) c main_v7 from
        ((Gen.V8_of m (outs m) c main_v7 (by decide)).trans (congrFun (V7_outs m c) _)).symm))
  | ⟨2, _⟩ => ((dat3 (ent3 m) c).arrAt_in 2 rfl _).trans ((A_eq3 (ent3 m) c 2).trans
      (show Gen.V7 m (oC m) c main_v11 = Gen.V8 m (outs m) c main_v11 from
        ((Gen.V8_of m (outs m) c main_v11 (by decide)).trans (congrFun (V7_outs m c) _)).symm))
  | ⟨3, _⟩ => (show (dat3 (ent3 m) c).arrAt 3 cfg3.N = val8 m c from rfl).trans
      (show val8 m c = Gen.V8 m (outs m) c main_v12 from
        ((show Gen.V8 m (outs m) c main_v12 = outs m 8 main_v12 c from Function.update_self _ _ _).trans (outs_8 m c)).symm)
/-- Every other unscoped buffer is as the region found it. -/
theorem hrest3 (c : Dev nD) : ∀ b, b ∉ Finset.univ.image (Pipeline.arrRef spec3) → Gen.V8 m (outs m) c b = ent3 m c b :=
  fun b hb => (Gen.V8_of m (outs m) c b fun h => hb (Finset.mem_image.mpr ⟨3, Finset.mem_univ _, (List.mem_singleton.mp h).symm⟩)).trans (congrFun (V7_outs m c) _)

set_option backward.isDefEq.respectTransparency.types false in
/-- REGION 3 over the thread state: entered from every unscoped buffer at `Gen.V7`, left at `Gen.V8`. Its arrays are
    split out of the unscoped buffers at entry and put back at the exit contents; the generator register goes into the
    region's invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [V7_outs m c]
    rw [Pipeline.ownSems0_none]
    have hsplit := Pipeline.arrays_of_unscopedBufs (p := 3) (pcfgs (F := F)) Gen.adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (ent3 m) c)
    unfold Pipeline.ΦA
    iintro ⟨Hp, -, Hr⟩
    isplitl [Hr]; · iexact Hr
    iexact Hp
  hout c := by
    refine BIBase.Entails.trans (hout3 (ent3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (ent3 m c) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the segments, and the run -/

/-- What rides along between any two items: `R`. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 :=
  iprop(StableHlo.held (c : Thread nD τ) (Pipeline.ucRefs τ sig) (Gen.V8 m (outs m) c) ∗ ∃ r, prngReg c r)

set_option backward.isDefEq.respectTransparency.types false in
/-- THE RUN: from any memory `m` with zero counters and any generator registers, every weakly fair execution of @main on the
    TensorCores terminates, and in every final memory each unscoped buffer of core `c` holds what the last valuation
    `Gen.V8 m (outs m) c` says: the launch memory, each host stretch applied, each region's output array at what its
    pipeline's write-backs fold to. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V8 m (outs m) c b) := by
  have hlast : ∀ c : Dev nD, (reg3 m).post c ⊢ iprop(Tₙ m c ∗ ∃ W, owes (c : Thread nD τ) (0 : CellTallies nD τ sig Unit) W) := fun c => by
    show iprop(StableHlo.held (c : Thread nD τ) (Pipeline.ucRefs τ sig) (Gen.V8 m (outs m) c) ∗ R c) ⊢ _
    iintro ⟨Hh, Hp, HO⟩
    isplitl [Hh Hp]
    · isplitl [Hh]; · iexact Hh
      iexact Hp
    iexact HO
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m))
    (fun c Q => by
      rewrite [main_chain c, Pipeline.Seg.run_eq_chain,
        show (Gen.segs m (outs m) 𝒱₀ L lv E () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h => h)

/-- THE FRAME: every argument array ends holding its launch contents — no host stretch writes one and no region may
    change one, so the last valuation at an argument walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c)⟩) (run_all m ρ)

end Run

end Cert.KernelIdeal.H

end
-- ==== Proof.K.Blocks.lean ====
/-
  The shared definitions of the four kernel regions of this program, each stated at a PARAMETER `V` — the
  TensorCore's buffer contents when the region is entered. Regions 0–2 are the three projections `x · Wᵀ`
  (one block of 2048 rows per grid point, the whole 512×512 weight resident). Region 3 is the attention
  itself over a grid (batch, key block): per batch it keeps, in three scratch buffers, the running row
  maximum `m`, the running denominator `l` and the running numerator `acc` of a softmax taken block by
  block, and at the batch's last key block writes `acc / l` to the output block.
-/
import proofs.«171383_j9698036154819_2_alg».proof.Proof.Gen.Kernel.Launch
import proofs.«171383_j9698036154819_2_alg».proof.Proof.Gen.Kernel.Skeleton
import proofs.«171383_j9698036154819_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the bodies load and store: always a whole buffer -/

abbrev rRows : Rect S2048x512 := Rect.unit (s := S2048x512) ![0, 0] S2048x512.size inb_S2048x512_S2048x512_0_0
abbrev rW : Rect S512x512 := Rect.unit (s := S512x512) ![0, 0] S512x512.size inb_S512x512_S512x512_0_0
abbrev rQ : Rect S1x2048x512 := Rect.unit (s := S1x2048x512) ![0, 0, 0] S1x2048x512.size inb_S1x2048x512_S1x2048x512_0_0_0
abbrev rK : Rect S1x256x512 := Rect.unit (s := S1x256x512) ![0, 0, 0] S1x256x512.size inb_S1x256x512_S1x256x512_0_0_0
abbrev rCol : Rect S2048x1 := Rect.unit (s := S2048x1) ![0, 0] S2048x1.size inb_S2048x1_S2048x1_0_0

section Regions
variable (V : (c : Dev nD) → (b : Ref sig .tc) → Buf (Elt F) ((c : Thread nD τ).loc b))

/-! ## Region 0: one row block of a projection, `x · Wᵀ` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: the one whole-block store of the product of the two input blocks. -/
def out0_2 (x0 : Vec F S2048x512 .f32) (x1 : Vec F S512x512 .f32) : Vec F S2048x512 .f32 :=
  View.canon [⟨rRows, k0_pay1 (View.ld x0 rRows) (View.ld x1 rW)⟩]

/-- The proof data of pipeline 0: arrays as found; inputs keep their blocks, the output holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: one row block of a projection, `x · Wᵀ` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: the one whole-block store of the product of the two input blocks. -/
def out1_2 (x0 : Vec F S2048x512 .f32) (x1 : Vec F S512x512 .f32) : Vec F S2048x512 .f32 :=
  View.canon [⟨rRows, k1_pay1 (View.ld x0 rRows) (View.ld x1 rW)⟩]

/-- The proof data of pipeline 1: arrays as found; inputs keep their blocks, the output holds the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: one row block of a projection, `x · Wᵀ` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after the body: the one whole-block store of the product of the two input blocks. -/
def out2_2 (x0 : Vec F S2048x512 .f32) (x1 : Vec F S512x512 .f32) : Vec F S2048x512 .bf16 :=
  View.canon [⟨rRows, k2_pay1 (View.ld x0 rRows) (View.ld x1 rW)⟩]

/-- The proof data of pipeline 2: arrays as found; inputs keep their blocks, the output holds the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: attention with a softmax accumulated over key blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The three scratch buffers' contents: running maximum, running denominator, running numerator. -/
abbrev Scr (F : FTy → Type) [FloatOps F] : Type := Vec F S2048x1 .f32 × Vec F S2048x1 .f32 × Vec F S2048x512 .f32

/-- What the first key block of a batch starts from: maximum `-∞`, denominator `0`, numerator `0`. -/
def scr0 : Scr F := (k3_pay5, k3_pay6, k3_pay7)

/-- One key block folded in: from the query block `q`, the key block `k`, the value block `v` and the scratch
    contents `s`, the new maximum, the rescaled denominator plus the block's row sums, the rescaled numerator plus
    the block's weighted values. -/
def scrStep (q : Vec F S1x2048x512 .f32) (k : Vec F S1x256x512 .f32) (v : Vec F S1x256x512 .bf16) (s : Scr F) : Scr F :=
  (k3_pay3 (k3_pay10 q k s.1),
   k3_pay1 (k3_pay13 q k s.1 s.1 s.2.1) (k3_pay14 q k s.1),
   k3_pay2 (k3_pay8 v) (k3_pay11 q k s.1 s.1) (k3_pay12 q k s.1) s.2.2)

/-- The output block from the scratch contents: numerator over denominator, row by row. -/
def outOf (s : Scr F) : Vec F S1x2048x512 .f32 := k3_pay4 s.2.2 s.2.1

/-- The scratch contents after the body at position `n` of the grid (batch `n / 8`, key block `n % 8`): the
    point's blocks folded into what the point before left, a batch's first point starting afresh. -/
def scrAt (c : Dev nD) : (n : ℕ) → n < cfg3.N → Scr F
  | 0, hn => scrStep (iblk3 V c 0 ⟨0, hn⟩) (iblk3 V c 1 ⟨0, hn⟩) (iblk3 V c 2 ⟨0, hn⟩) scr0
  | n + 1, hn => scrStep (iblk3 V c 0 ⟨n + 1, hn⟩) (iblk3 V c 1 ⟨n + 1, hn⟩) (iblk3 V c 2 ⟨n + 1, hn⟩)
      (if (n + 1) % 8 = 0 then scr0 else scrAt c n (Nat.lt_of_succ_lt hn))

theorem scrAt_first (c : Dev nD) (t : Fin cfg3.N) (h : t.val % 8 = 0) :
    scrAt V c t.val t.isLt = scrStep (iblk3 V c 0 t) (iblk3 V c 1 t) (iblk3 V c 2 t) scr0 := by
  obtain ⟨n, hn⟩ := t
  cases n with
  | zero => rfl
  | succ n => show scrStep _ _ _ (if (n + 1) % 8 = 0 then scr0 else _) = _; rw [if_pos h]

theorem scrAt_next (c : Dev nD) (t : Fin cfg3.N) (h : ¬ t.val % 8 = 0) :
    scrAt V c t.val t.isLt = scrStep (iblk3 V c 0 t) (iblk3 V c 1 t) (iblk3 V c 2 t)
      (scrAt V c (t.val - 1) (Nat.lt_of_le_of_lt (Nat.sub_le _ _) t.isLt)) := by
  obtain ⟨n, hn⟩ := t
  cases n with
  | zero => exact absurd (Nat.zero_mod _) h
  | succ n => show scrStep _ _ _ (if (n + 1) % 8 = 0 then scr0 else _) = _; rw [if_neg h]; rfl

/-- The scratch operands as memrefs. -/
abbrev scM : Memref sig .tc .vmem S2048x1 .f32 := Memref.whole cc3_scratch0
abbrev scL : Memref sig .tc .vmem S2048x1 .f32 := Memref.whole cc3_scratch1
abbrev scA : Memref sig .tc .vmem S2048x512 .f32 := Memref.whole cc3_scratch2

/-- The core's scoped buffers other than the three scratch buffers (the other regions' staging buffers), each whole
    at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The core's scoped buffers that are no staging buffer of this region, the three scratch buffers at given contents. -/
def restAt (c : Dev nD) (s : Scr F) : sProp 𝕄 :=
  iprop(others (F := F) c ∗ owns (c : Thread nD τ) scM fullShare s.1 ∗ owns (c : Thread nD τ) scL fullShare s.2.1
    ∗ owns (c : Thread nD τ) scA fullShare s.2.2)

/-- The region invariant before position `n`: before the first point the scoped rest at anything; afterwards the
    scoped rest with the three scratch buffers at what the point before left, and the generator register at some state. -/
def PhiS (c : Dev nD) : (n : ℕ) → n ≤ cfg3.N → sProp 𝕄
  | 0, _ => Pipeline.ΦA spec3 c
  | n + 1, hn => iprop(restAt c (scrAt V c n hn) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(restAt c (scrAt V c n hn) ∗ (∃ r, prngReg c r)) := rfl

theorem PhiS_pos (c : Dev nD) (n : ℕ) (h : n ≤ cfg3.N) (hz : n ≠ 0) :
    PhiS V c n h = iprop(restAt c (scrAt V c (n - 1) (by omega)) ∗ (∃ r, prngReg c r)) := by
  cases n with
  | zero => exact absurd rfl hz
  | succ n => rfl

/-- The proof data of pipeline 3: arrays as found; inputs keep their blocks; the output block holds numerator over
    denominator of the point's scratch contents (consulted only at a batch's last point, where it is written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outOf (scrAt V c t.val t.isLt)
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outOf (scrAt V c t.val t.isLt) := by dsimp only [dat3]
theorem PhiS_castSucc (c : Dev nD) (t : Fin cfg3.N) :
    (dat3 V c).Φ t.castSucc = PhiS V c t.val (Nat.le_of_lt t.isLt) := by
  dsimp only [dat3]; simp only [Fin.coe_castSucc]

end Regions

end Cert.Kernel.H

end
-- ==== Proof.K.Mat0.lean ====
/-
  Region 0 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.K.Blocks

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only: unfetched, its block index has not moved) holds its
    block at every point, for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

/-- The one store is over the whole output buffer, so it covers it. -/
theorem cover0_2 (p0 : Vec F S2048x512 .f32) (y : S2048x512.Idx) :
    ∃ pc ∈ ([⟨rRows, p0⟩] : List (View.Piece (Elt F) S2048x512 .f32)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S2048x512 .f32) (harg1 : arg1.IsWhole) (arg2 : Memref sig .tc .vmem S512x512 .f32) (harg2 : arg2.IsWhole) (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.H

end
-- ==== Proof.K.Mat1.lean ====
/-
  Region 1 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.K.Blocks

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched at the first point only: unfetched, its block index has not moved) holds its
    block at every point, for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple -/

/-- The one store is over the whole output buffer, so it covers it. -/
theorem cover1_2 (p0 : Vec F S2048x512 .f32) (y : S2048x512.Idx) :
    ∃ pc ∈ ([⟨rRows, p0⟩] : List (View.Piece (Elt F) S2048x512 .f32)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out1_2 x0 x1`. -/
theorem sound_kernel1 (c : Dev nD) (E : Set ℕ) (i : grid1.Coords) (arg1 : Memref sig .tc .vmem S2048x512 .f32) (harg1 : arg1.IsWhole) (arg2 : Memref sig .tc .vmem S512x512 .f32) (harg2 : arg2.IsWhole) (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.H

end
-- ==== Proof.K.Mat2.lean ====
/-
  Region 2 (the projection `x · Wᵀ`, one block of 2048 rows per grid point): the body obligation of its proof data.
  The body loads the row block and the resident weight, loads the output buffer once, and stores the product over the
  whole output buffer; so after it the inputs' buffers are as found and the output's holds the canon of that one store.
  The weight's buffer is filled at the first point only and holds the same block at every point.
-/
import proofs.«171383_j9698036154819_2_alg».proof.Proof.K.Blocks

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks at every point -/

/-- Input window 0's current buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, fetched at the first point only: unfetched, its block index has not moved) holds its
    block at every point, for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

/-- The one store is over the whole output buffer, so it covers it. -/
theorem cover2_2 (p0 : Vec F S2048x512 .bf16) (y : S2048x512.Idx) :
    ∃ pc ∈ ([⟨rRows, p0⟩] : List (View.Piece (Elt F) S2048x512 .bf16)), y ∈ pc.1.set :=
  View.cover_of_tiled [⟨rRows, p0⟩] S2048x512.size (by rfl) y

set_option maxHeartbeats 1000000 in
/-- The kernel body on whole staging memrefs, the inputs' at read contents `x0`, `x1` and the output's at anything,
    runs to the continuation holding the inputs' as they were and the output's at `out2_2 x0 x1`. -/
theorem sound_kernel2 (c : Dev nD) (E : Set ℕ) (i : grid2.Coords) (arg1 : Memref sig .tc .vmem S2048x512 .f32) (harg1 : arg1.IsWhole) (arg2 : Memref sig .tc .vmem S512x512 .f32) (harg2 : arg2.IsWhole) (arg3 : Memref sig .tc .vmem S2048x512 .bf16) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.H

end
-- ==== Proof.K.FlashConds.lean ====
/-
  Region 3 (attention): what its runs share. The two branch conditions of the body in closed form over the grid
  (point t = 8·batch + key block: the first holds at key block 0, where the scratch is re-initialised; the second at
  key block 7, where the output block is written), where the output window is idle, the staging memrefs at a point,
  the region's scoped rest split into the other regions' buffers and the three scratch buffers, and each input
  window's current staging buffer holding its block.
-/
import proofs.«171383_j9698036154819_2_alg».proof.Proof.K.Blocks

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The condition of the body's first `scf.if` (key block 0), from the grid coordinates. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second `scf.if` (key block 7). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from key block 7 the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At key block 7 it is live. -/
theorem liveAt3_3 : ∀ t : Fin cfg3.N, cond3_1 (grid3.coords t) → cfg3.idle 3 (grid3.coords t) = false := by decide +kernel

/-! ## The staging memrefs at a point -/

abbrev ms3_0 (t : Fin cfg3.N) : Memref sig .tc .vmem S1x2048x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x512 .f32 := win3_3.stage (cfg3.slots t 3)
abbrev hs3_3 (t : Fin cfg3.N) : (ms3_3 t).IsWhole := hstage3_3 ((cfg3.slots t 3).cast nbuf3_3)

/-- Views through which buffer contents are stated (which staging buffer does not matter). -/
abbrev VO3 : View sig .tc .vmem S1x2048x512 .f32 := (Memref.whole cc3_stg3_0 : Memref sig .tc .vmem S1x2048x512 .f32).view
abbrev VSm : View sig .tc .vmem S2048x1 .f32 := (scM : Memref sig .tc .vmem S2048x1 .f32).view
abbrev VSl : View sig .tc .vmem S2048x1 .f32 := (scL : Memref sig .tc .vmem S2048x1 .f32).view
abbrev VSa : View sig .tc .vmem S2048x512 .f32 := (scA : Memref sig .tc .vmem S2048x512 .f32).view

/-! ## The scoped rest, split -/

/-- The class invariant hands the body the other regions' buffers, the three scratch buffers at some contents and the
    generator register at some state. -/
theorem PhiA3_out (c : Dev nD) :
    (Pipeline.ΦA spec3 c : sProp 𝕄)
      ⊢ iprop(iprop(others (F := F) c ∗ (∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA others; rw [scopedRest3_eq]; simp only [scM, scL, scA, owns_whole]
  iintro ⟨⟨H0, H1, H2, H3, H4, H5, H6, H7, H8, H9, H10, H11, H12, H13, H14, HM, HL, HA⟩, Hg⟩
  isplitr [Hg]; swap; · iexact Hg
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HM]; · iexact HM
  isplitl [HL]; · iexact HL
  iexact HA

/-- and takes them back. -/
theorem PhiA3_in (c : Dev nD) :
    iprop(iprop(others (F := F) c ∗ (∃ d, owns (c : Thread nD τ) scM fullShare d) ∗ (∃ d, owns (c : Thread nD τ) scL fullShare d)
          ∗ (∃ d, owns (c : Thread nD τ) scA fullShare d)) ∗ (∃ r, prngReg c r))
      ⊢ (Pipeline.ΦA spec3 c : sProp 𝕄) := by
  unfold Pipeline.ΦA others; rw [scopedRest3_eq]; simp only [scM, scL, scA, owns_whole]
  iintro ⟨⟨⟨H0, H1, H2, H3, H4, H5, H6, H7, H8, H9, H10, H11, H12, H13, H14⟩, HM, HL, HA⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HM]; · iexact HM
  isplitl [HL]; · iexact HL
  iexact HA

section Regions
variable (V : (c : Dev nD) → (b : Ref sig .tc) → Buf (Elt F) ((c : Thread nD τ).loc b))

/-! ## Each input window's current staging buffer holds its block, fetched at the point or not -/

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

end Regions

end Cert.Kernel.H

end
-- ==== Proof.K.FlashRunA.lean ====
/-
  Region 3 (attention): the whole-body run of the kernel at a batch's FIRST key block (the scratch is re-initialised, then the block is folded in; the output window is left untouched).
  On whole staging memrefs — the three inputs at their blocks, the scratch at anything, the output
  at contents handed back untouched — the body runs to a continuation that holds the inputs as they were and every buffer it stored
  into with its stores written, as lists of pieces (last store first) that the symbolic run itself finds.
-/
import proofs.«171383_j9698036154819_2_alg».proof.Proof.K.FlashConds

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i)
    (x0 : Vec F S1x2048x512 .f32) (x1 : Vec F S1x256x512 .f32) (x2 : Vec F S1x256x512 .bf16) :
    Σ' (LS6 : List (View.Piece (Elt F) S2048x1 .f32)) (LS7 : List (View.Piece (Elt F) S2048x1 .f32)), { LS8 : List (View.Piece (Elt F) S2048x512 .f32) //
      ∀ (xi3 : Vec F S1x2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, fun xi3 E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.Kernel.H

end
-- ==== Proof.K.FlashRunB.lean ====
/-
  Region 3 (attention): the whole-body run of the kernel at a MIDDLE key block (the block is folded into the scratch contents the point before left; the output window is left untouched).
  On whole staging memrefs — the three inputs at their blocks, the scratch at given contents, the output
  at contents handed back untouched — the body runs to a continuation that holds the inputs as they were and every buffer it stored
  into with its stores written, as lists of pieces (last store first) that the symbolic run itself finds.
-/
import proofs.«171383_j9698036154819_2_alg».proof.Proof.K.FlashConds

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i)
    (x0 : Vec F S1x2048x512 .f32) (x1 : Vec F S1x256x512 .f32) (x2 : Vec F S1x256x512 .bf16) (xs6 : Vec F S2048x1 .f32) (xs7 : Vec F S2048x1 .f32) (xs8 : Vec F S2048x512 .f32) :
    Σ' (LS6 : List (View.Piece (Elt F) S2048x1 .f32)) (LS7 : List (View.Piece (Elt F) S2048x1 .f32)), { LS8 : List (View.Piece (Elt F) S2048x512 .f32) //
      ∀ (xi3 : Vec F S1x2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, fun xi3 E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.Kernel.H

end
-- ==== Proof.K.FlashRunC.lean ====
/-
  Region 3 (attention): the whole-body run of the kernel at a batch's LAST key block (the block is folded in, then numerator over denominator is stored to the output block).
  On whole staging memrefs — the three inputs at their blocks, the scratch at given contents, the output
  at anything — the body runs to a continuation that holds the inputs as they were and every buffer it stored
  into with its stores written, as lists of pieces (last store first) that the symbolic run itself finds.
-/
import proofs.«171383_j9698036154819_2_alg».proof.Proof.K.FlashConds

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i)
    (x0 : Vec F S1x2048x512 .f32) (x1 : Vec F S1x256x512 .f32) (x2 : Vec F S1x256x512 .bf16) (xs6 : Vec F S2048x1 .f32) (xs7 : Vec F S2048x1 .f32) (xs8 : Vec F S2048x512 .f32) :
    Σ' (L5 : List (View.Piece (Elt F) S1x2048x512 .f32)) (LS6 : List (View.Piece (Elt F) S2048x1 .f32)) (LS7 : List (View.Piece (Elt F) S2048x1 .f32)), { LS8 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs6 ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, ?_, fun E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    isplitl [H7]; · iexists _; iexact H7
    iexists _; iexact H8

end Cert.Kernel.H

end
-- ==== Proof.K.FlashBody.lean ====
/-
  Region 3 (attention): the body obligation. What each case's run leaves in the scratch buffers (and, at a batch's
  last key block, in the output block) is one key block folded into the scratch contents (`scrStep`), resp. numerator
  over denominator (`outOf`): read off the pieces the runs found, every load and store being of a whole buffer.
  With that the body at any grid point takes the region invariant before the point to the invariant after it.
-/
import proofs.«171383_j9698036154819_2_alg».proof.Proof.K.FlashRunA
import proofs.«171383_j9698036154819_2_alg».proof.Proof.K.FlashRunB
import proofs.«171383_j9698036154819_2_alg».proof.Proof.K.FlashRunC
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-! ## What the runs' pieces hold -/

theorem scover3_A_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x1.Idx) :
    ∃ pc ∈ (kernelRun3_A c i arg2 harg2 arg3 harg3 arg4 harg4 arg5 harg5 arg6 harg6 arg7 harg7 arg8 harg8 hc0 hc1 x0 x1 x2).1, y ∈ pc.1.set :=
  View.cover_of_tiledL ((kernelRun3_A c i arg2 harg2 arg3 harg3 arg4 harg4 arg5 harg5 arg6 harg6 arg7 harg7 arg8 harg8 hc0 hc1 x0 x1 x2).1) S2048x1.size (by sl_kernel_rfl) y

theorem sread3_A_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x1 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).1)) = (scrStep x0 x1 x2 scr0).1 := by
  rw [View.read_writes_eq_canon _ _ _ (scover3_A_6 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_A_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x1.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL ((kernelRun3_A c i arg2 harg2 arg3 harg3 arg4 harg4 arg5 harg5 arg6 harg6 arg7 harg7 arg8 harg8 hc0 hc1 x0 x1 x2).2.1) S2048x1.size (by sl_kernel_rfl) y

theorem sread3_A_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x1 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).2.1)) = (scrStep x0 x1 x2 scr0).2.1 := by
  rw [View.read_writes_eq_canon _ _ _ (scover3_A_7 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_A_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) (y : S2048x512.Idx) :
    ∃ pc ∈ (kernelRun3_A c i arg2 harg2 arg3 harg3 arg4 harg4 arg5 harg5 arg6 harg6 arg7 harg7 arg8 harg8 hc0 hc1 x0 x1 x2).2.2.1, y ∈ pc.1.set :=
  View.cover_of_tiledL ((kernelRun3_A c i arg2 harg2 arg3 harg3 arg4 harg4 arg5 harg5 arg6 harg6 arg7 harg7 arg8 harg8 hc0 hc1 x0 x1 x2).2.2.1) S2048x512.size (by sl_kernel_rfl) y

theorem sread3_A_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond3_0 i) (hc1 : ¬cond3_1 i) (x0 : Vec F S1x2048x512 .f32) (x1 : Vec F S1x256x512 .f32) (x2 : Vec F S1x256x512 .bf16) {κ : Kind} {sp : Space} {sg : RefSig} (v : View sg κ sp S2048x512 .f32) (f : v.ty.Contents (Elt F)) :
    v.read (Elt F) (v.writes (Elt F) f ((kernelRun3_A c i arg2 harg2 arg3 harg3 arg4 harg4 arg5 harg5 arg6 harg6 arg7 harg7 arg8 harg8 hc0 hc1 x0 x1 x2).2.2.1)) = (scrStep x0 x1 x2 scr0).2.2 := by
  rw [View.read_writes_eq_canon _ _ _ (scover3_A_8 c i arg2 harg2 arg3 harg3 arg4 harg4 arg5 harg5 arg6 harg6 arg7 harg7 arg8 harg8 hc0 hc1 x0 x1 x2)]
  unfold kernelRun3_A; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_B c i arg2 harg2 arg3 harg3 arg4 harg4 arg5 harg5 arg6 harg6 arg7 harg7 arg8 harg8 hc0 hc1 x0 x1 x2 xs6 xs7 xs8).1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).1) S2048x1.size (by sl_kernel_rfl) y

theorem sread3_B_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).1)) = (scrStep x0 x1 x2 (xs6, xs7, xs8)).1 := by
  rw [View.read_writes_eq_canon _ _ _ (scover3_B_6 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_B c i arg2 harg2 arg3 harg3 arg4 harg4 arg5 harg5 arg6 harg6 arg7 harg7 arg8 harg8 hc0 hc1 x0 x1 x2 xs6 xs7 xs8).2.1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).2.1) S2048x1.size (by sl_kernel_rfl) y

theorem sread3_B_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).2.1)) = (scrStep x0 x1 x2 (xs6, xs7, xs8)).2.1 := by
  rw [View.read_writes_eq_canon _ _ _ (scover3_B_7 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_B_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) (y : S2048x512.Idx) :
    ∃ pc ∈ (kernelRun3_B c i arg2 harg2 arg3 harg3 arg4 harg4 arg5 harg5 arg6 harg6 arg7 harg7 arg8 harg8 hc0 hc1 x0 x1 x2 xs6 xs7 xs8).2.2.1, y ∈ pc.1.set :=
  View.cover_of_tiledL ((kernelRun3_B c i arg2 harg2 arg3 harg3 arg4 harg4 arg5 harg5 arg6 harg6 arg7 harg7 arg8 harg8 hc0 hc1 x0 x1 x2 xs6 xs7 xs8).2.2.1) S2048x512.size (by sl_kernel_rfl) y

theorem sread3_B_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : ¬cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x512 .f32) (f : v.ty.Contents (Elt F)) :
    v.read (Elt F) (v.writes (Elt F) f ((kernelRun3_B c i arg2 harg2 arg3 harg3 arg4 harg4 arg5 harg5 arg6 harg6 arg7 harg7 arg8 harg8 hc0 hc1 x0 x1 x2 xs6 xs7 xs8).2.2.1)) = (scrStep x0 x1 x2 (xs6, xs7, xs8)).2.2 := by
  rw [View.read_writes_eq_canon _ _ _ (scover3_B_8 c i arg2 harg2 arg3 harg3 arg4 harg4 arg5 harg5 arg6 harg6 arg7 harg7 arg8 harg8 hc0 hc1 x0 x1 x2 xs6 xs7 xs8)]
  unfold kernelRun3_B; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_5 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S1x2048x512.Idx) :
    ∃ pc ∈ (kernelRun3_C c i arg2 harg2 arg3 harg3 arg4 harg4 arg5 harg5 arg6 harg6 arg7 harg7 arg8 harg8 hc0 hc1 x0 x1 x2 xs6 xs7 xs8).1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).1) S1x2048x512.size (by sl_kernel_rfl) y

theorem sread3_C_5 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S1x2048x512 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).1)) = outOf (scrStep x0 x1 x2 (xs6, xs7, xs8)) := by
  rw [View.read_writes_eq_canon _ _ _ (scover3_C_5 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz3]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_C c i arg2 harg2 arg3 harg3 arg4 harg4 arg5 harg5 arg6 harg6 arg7 harg7 arg8 harg8 hc0 hc1 x0 x1 x2 xs6 xs7 xs8).2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.1) S2048x1.size (by sl_kernel_rfl) y

theorem sread3_C_6 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.1)) = (scrStep x0 x1 x2 (xs6, xs7, xs8)).1 := by
  rw [View.read_writes_eq_canon _ _ _ (scover3_C_6 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x1.Idx) :
    ∃ pc ∈ (kernelRun3_C c i arg2 harg2 arg3 harg3 arg4 harg4 arg5 harg5 arg6 harg6 arg7 harg7 arg8 harg8 hc0 hc1 x0 x1 x2 xs6 xs7 xs8).2.2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.2.1) S2048x1.size (by sl_kernel_rfl) y

theorem sread3_C_7 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x1 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.2.1)) = (scrStep x0 x1 x2 (xs6, xs7, xs8)).2.1 := by
  rw [View.read_writes_eq_canon _ _ _ (scover3_C_7 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

theorem scover3_C_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) (y : S2048x512.Idx) :
    ∃ pc ∈ (kernelRun3_C c i arg2 harg2 arg3 harg3 arg4 harg4 arg5 harg5 arg6 harg6 arg7 harg7 arg8 harg8 hc0 hc1 x0 x1 x2 xs6 xs7 xs8).2.2.2.1, y ∈ pc.1.set :=
  View.cover_of_tiledL ((kernelRun3_C c i arg2 harg2 arg3 harg3 arg4 harg4 arg5 harg5 arg6 harg6 arg7 harg7 arg8 harg8 hc0 hc1 x0 x1 x2 xs6 xs7 xs8).2.2.2.1) S2048x512.size (by sl_kernel_rfl) y

theorem sread3_C_8 (c : Dev nD) (i : grid3.Coords) (arg2 : Memref sig .tc .vmem S1x2048x512 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond3_0 i) (hc1 : cond3_1 i) (x0 : Vec F S1x2048x512 .f32) (x1 : Vec F S1x256x512 .f32) (x2 : Vec F S1x256x512 .bf16) (xs6 xs7 : Vec F S2048x1 .f32) (xs8 : Vec F S2048x512 .f32) {κ : Kind} {sp : Space} {sg : RefSig} (v : View sg κ sp S2048x512 .f32) (f : v.ty.Contents (Elt F)) :
    v.read (Elt F) (v.writes (Elt F) f ((kernelRun3_C c i arg2 harg2 arg3 harg3 arg4 harg4 arg5 harg5 arg6 harg6 arg7 harg7 arg8 harg8 hc0 hc1 x0 x1 x2 xs6 xs7 xs8).2.2.2.1)) = (scrStep x0 x1 x2 (xs6, xs7, xs8)).2.2 := by
  rw [View.read_writes_eq_canon _ _ _ (scover3_C_8 c i arg2 harg2 arg3 harg3 arg4 harg4 arg5 harg5 arg6 harg6 arg7 harg7 arg8 harg8 hc0 hc1 x0 x1 x2 xs6 xs7 xs8)]
  unfold kernelRun3_C; dsimp only; sl_unfold_words
  rw [View.canon_cons_unit_zero hz2]
  simp only [View.readAt_eq_ld, harg2.read_unread, harg3.read_unread, harg4.read_unread, harg6.read_unread, harg7.read_unread, harg8.read_unread,
    View.ld_unit_zero (S := S1x2048x512) hz3, View.ld_unit_zero (S := S1x256x512) hz3, View.ld_unit_zero (S := S2048x1) hz2, View.ld_unit_zero (S := S2048x512) hz2,
    View.readCov_unit_zero (S := S2048x1) _ hz2, View.readCov_unit_zero (S := S2048x512) _ hz2]
  rfl

section Regions
variable (V : (c : Dev nD) → (b : Ref sig .tc) → Buf (Elt F) ((c : Thread nD τ).loc b))

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold restAt
  by_cases h0 : t.val % 8 = 0
  · -- a batch's first key block
    have h1 : ¬ t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [scrAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA3_out (F := F) c) $$ HΦ
      icases HΦ' with ⟨⟨Hoth, HS6, HS7, HS8⟩, Hg⟩
      iapply ((kernelRun3_A c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_A_6 _ _ _ _ _ _ _ _ _ _ _ _ _ _ _ _ _ _ _ _ _ _ _
        isplitl [HS7]
        · unfold owns; iexists _; isplitr
          swap; · iexact HS7
          ipureintro; exact sread3_A_7 _ _ _ _ _ _ _ _ _ _ _ _ _ _ _ _ _ _ _ _ _ _ _
        unfold owns; iexists _; isplitr
        swap; · iexact HS8
        ipureintro; exact sread3_A_8 _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3
    · rw [PhiS_castSucc V c t, PhiS_pos V c _ _ hz]; unfold restAt
      iintro ⟨⟨⟨Hoth, HS6, HS7, HS8⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      isplitl [HS8]; · iexists _; iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_A_6 _ _ _ _ _ _ _ _ _ _ _ _ _ _ _ _ _ _ _ _ _ _ _
        isplitl [HS7]
        · unfold owns; iexists _; isplitr
          swap; · iexact HS7
          ipureintro; exact sread3_A_7 _ _ _ _ _ _ _ _ _ _ _ _ _ _ _ _ _ _ _ _ _ _ _
        unfold owns; iexists _; isplitr
        swap; · iexact HS8
        ipureintro; exact sread3_A_8 _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond3_0 (grid3.coords t) := fun h => h0 ((hcond3_0 t).mp h)
    rw [scrAt_next V c t h0]
    rw [PhiS_castSucc V c t, PhiS_pos V c _ _ hz]; unfold restAt
    by_cases h1 : t.val % 8 = 7
    · -- a batch's last key block
      have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3, scrAt_next V c t h0]
      iintro ⟨⟨⟨Hoth, HS6, HS7, HS8⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS6]; · iexact HS6
      isplitl [HS7]; · iexact HS7
      isplitl [HS8]; · iexact HS8
      iintro ⟨H0, H1, H2, ⟨%e3, H3⟩, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_C_6 _ _ _ _ _ _ _ _ _ _ _ _ _ _ _ _ _ _ _ _ _ _ _ _ _ _
        isplitl [HS7]
        · unfold owns; iexists _; isplitr
          swap; · iexact HS7
          ipureintro; exact sread3_C_7 _ _ _ _ _ _ _ _ _ _ _ _ _ _ _ _ _ _ _ _ _ _ _ _ _ _
        unfold owns; iexists _; isplitr
        swap; · iexact HS8
        ipureintro; exact sread3_C_8 _ _ _ _ _ _ _ _ _ _ _ _ _ _ _ _ _ _ _ _ _ _ _ _ _ _
      isplitl [Ho]; · iexact Ho
      isplitl [H0]; · iexact H0
      isplitl [H1]; · iexact H1
      isplitl [H2]; · iexact H2
      unfold owns; iexists _; isplitr
      swap; · iexact H3
      ipureintro; exact sread3_C_5 _ _ _ _ _ _ _ _ _ _ _ _ _ _ _ _ _ _ _ _ _ _ _ _ _ _
    · -- a middle key block
      have hc1 : ¬cond3_1 (grid3.coords t) := fun h => h1 ((hcond3_1 t).mp h)
      rw [Dat.leavesExact_idle (dat3 V c) 3 t (idleAt3_3 t hc1) (noFlush3_3 t hc1)]
      iintro ⟨⟨⟨Hoth, HS6, HS7, HS8⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM (Memref.isWhole_whole _) scL (Memref.isWhole_whole _) scA (Memref.isWhole_whole _) hc0 hc1 (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      iintro ⟨H0, H1, H2, H3, ⟨%e6, HS6⟩, ⟨%e7, HS7⟩, ⟨%e8, HS8⟩⟩
      isplitl [Hoth HS6 HS7 HS8 Hg]
      · isplitr [Hg]; swap; · iexact Hg
        isplitl [Hoth]; · iexact Hoth
        isplitl [HS6]
        · unfold owns; iexists _; isplitr
          swap; · iexact HS6
          ipureintro; exact sread3_B_6 _ _ _ _ _ _ _ _ _ _ _ _ _ _ _ _ _ _ _ _ _ _ _ _ _ _
        isplitl [HS7]
        · unfold owns; iexists _; isplitr
          swap; · iexact HS7
          ipureintro; exact sread3_B_7 _ _ _ _ _ _ _ _ _ _ _ _ _ _ _ _ _ _ _ _ _ _ _ _ _ _
        unfold owns; iexists _; isplitr
        swap; · iexact HS8
        ipureintro; exact sread3_B_8 _ _ _ _ _ _ _ _ _ _ _ _ _ _ _ _ _ _ _ _ _ _ _ _ _ _
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS V c 0 (Nat.zero_le _) from rfl, PhiS_zero V c 0 _ rfl]

/-- After the last point the invariant gives the scoped rest back: the scratch contents are forgotten. -/
theorem hout3 (c : Dev nD) : (dat3 V c).Φ (Fin.last cfg3.N) ⊢ (Pipeline.ΦA spec3 c : sProp 𝕄) := by
  rw [show (dat3 V c).Φ (Fin.last cfg3.N) = PhiS V c (Fin.last cfg3.N).val (Nat.le_of_lt_succ (Fin.last cfg3.N).isLt) from rfl,
    PhiS_pos V c _ _ (by rw [Fin.val_last]; have : cfg3.N = 64 := N_3; omega)]
  unfold restAt
  iintro ⟨⟨Hoth, HS6, HS7, HS8⟩, Hg⟩
  iapply (PhiA3_in (F := F) c)
  isplitr [Hg]; swap; · iexact Hg
  isplitl [Hoth]; · iexact Hoth
  isplitl [HS6]; · iexists _; iexact HS6
  isplitl [HS7]; · iexists _; iexact HS7
  iexists _; iexact HS8

end Regions

end Cert.Kernel.H

end
-- ==== Proof.K.Run.lean ====
/-
  The run of @main over its four regions. Between two items core `c` holds every unscoped buffer at a valuation
  `Gen.V<j> m (outs m) c`; what a region leaves in its output array is what its pipeline's write-backs fold to
  (`Dat.arrAt … N`) from the contents the region finds, and those depend on what the earlier regions left: so the
  four unknowns are fixed one after the other (`val2`, `val4`, `val6`, `val8`), each region's proof data stated at
  the contents it finds. Each region is then a segment record entered from the valuation before it and left at the
  one after it, and the run reads every unscoped buffer off the last valuation.
-/
import proofs.«171383_j9698036154819_2_alg».proof.Proof.K.Mat0
import proofs.«171383_j9698036154819_2_alg».proof.Proof.K.Mat1
import proofs.«171383_j9698036154819_2_alg».proof.Proof.K.Mat2
import proofs.«171383_j9698036154819_2_alg».proof.Proof.K.FlashBody
import proofs.«171383_j9698036154819_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run
variable (m : (ℓ : Loc nD τ sig) → Buf (Elt F) ℓ)

/-! ## What each region leaves, one after the other -/

/-- The contents region 0 finds: the launch memory after the first host stretch. -/
abbrev ent0 : (c : Dev nD) → (b : Ref sig .tc) → Buf (Elt F) ((c : Thread nD τ).loc b) := fun c b => Gen.V1 m c b
/-- What region 0 leaves in its output array `main_v2`. -/
def val2 (c : Dev nD) : Buf (Elt F) ((c : Thread nD τ).loc main_v2) := (dat0 (ent0 m) c).arrAt 2 cfg0.N
/-- The unknowns with region 0's fixed. -/
def oA : Gen.Outs (F := F) := fun _ r c =>
  Function.update (β := fun r : Ref sig .tc => Buf (Elt F) ((c : Thread nD τ).loc r)) (fun r => m ((c : Thread nD τ).loc r)) main_v2 (val2 m c) r

/-- The contents region 1 finds. -/
abbrev ent1 : (c : Dev nD) → (b : Ref sig .tc) → Buf (Elt F) ((c : Thread nD τ).loc b) := fun c b => Gen.V3 m (oA m) c b
/-- What region 1 leaves in its output array `main_v6`. -/
def val4 (c : Dev nD) : Buf (Elt F) ((c : Thread nD τ).loc main_v6) := (dat1 (ent1 m) c).arrAt 2 cfg1.N
/-- The unknowns with regions 0 and 1's fixed. -/
def oB : Gen.Outs (F := F) := fun J r c =>
  Function.update (β := fun r : Ref sig .tc => Buf (Elt F) ((c : Thread nD τ).loc r)) (fun r => oA m J r c) main_v6 (val4 m c) r

/-- The contents region 2 finds. -/
abbrev ent2 : (c : Dev nD) → (b : Ref sig .tc) → Buf (Elt F) ((c : Thread nD τ).loc b) := fun c b => Gen.V5 m (oB m) c b
/-- What region 2 leaves in its output array `main_v10`. -/
def val6 (c : Dev nD) : Buf (Elt F) ((c : Thread nD τ).loc main_v10) := (dat2 (ent2 m) c).arrAt 2 cfg2.N
/-- The unknowns with regions 0, 1 and 2's fixed. -/
def oC : Gen.Outs (F := F) := fun J r c =>
  Function.update (β := fun r : Ref sig .tc => Buf (Elt F) ((c : Thread nD τ).loc r)) (fun r => oB m J r c) main_v10 (val6 m c) r

/-- The contents region 3 finds. -/
abbrev ent3 : (c : Dev nD) → (b : Ref sig .tc) → Buf (Elt F) ((c : Thread nD τ).loc b) := fun c b => Gen.V7 m (oC m) c b
/-- What region 3 leaves in its output array `main_v12`. -/
def val8 (c : Dev nD) : Buf (Elt F) ((c : Thread nD τ).loc main_v12) := (dat3 (ent3 m) c).arrAt 3 cfg3.N
/-- What the four regions leave. -/
def outs : Gen.Outs (F := F) := fun J r c =>
  Function.update (β := fun r : Ref sig .tc => Buf (Elt F) ((c : Thread nD τ).loc r)) (fun r => oC m J r c) main_v12 (val8 m c) r

/-! ## The unknowns read back -/

theorem oA_2 (J : ℕ) (c : Dev nD) : oA m J main_v2 c = val2 m c := by unfold oA; exact Function.update_self _ _ _
theorem oB_2 (J : ℕ) (c : Dev nD) : oB m J main_v2 c = val2 m c := by
  unfold oB; rw [Function.update_of_ne (by decide)]; exact oA_2 m J c
theorem oB_4 (J : ℕ) (c : Dev nD) : oB m J main_v6 c = val4 m c := by unfold oB; exact Function.update_self _ _ _
theorem oC_2 (J : ℕ) (c : Dev nD) : oC m J main_v2 c = val2 m c := by
  unfold oC; rw [Function.update_of_ne (by decide)]; exact oB_2 m J c
theorem oC_4 (J : ℕ) (c : Dev nD) : oC m J main_v6 c = val4 m c := by
  unfold oC; rw [Function.update_of_ne (by decide)]; exact oB_4 m J c
theorem oC_6 (J : ℕ) (c : Dev nD) : oC m J main_v10 c = val6 m c := by unfold oC; exact Function.update_self _ _ _
theorem outs_2 (c : Dev nD) : outs m 2 main_v2 c = val2 m c := by
  unfold outs; rw [Function.update_of_ne (by decide)]; exact oC_2 m 2 c
theorem outs_4 (c : Dev nD) : outs m 4 main_v6 c = val4 m c := by
  unfold outs; rw [Function.update_of_ne (by decide)]; exact oC_4 m 4 c
theorem outs_6 (c : Dev nD) : outs m 6 main_v10 c = val6 m c := by
  unfold outs; rw [Function.update_of_ne (by decide)]; exact oC_6 m 6 c
theorem outs_8 (c : Dev nD) : outs m 8 main_v12 c = val8 m c := by unfold outs; exact Function.update_self _ _ _

/-! ## The valuations mention the unknowns only at those points -/

theorem V2_congr (o o' : Gen.Outs (F := F)) (c : Dev nD) (h2 : o 2 main_v2 c = o' 2 main_v2 c) : Gen.V2 m o c = Gen.V2 m o' c :=
  congrArg (Function.update (Gen.V1 m c) (Proc.devRef .tc main_v2)) h2
theorem V3_congr (o o' : Gen.Outs (F := F)) (c : Dev nD) (h2 : o 2 main_v2 c = o' 2 main_v2 c) : Gen.V3 m o c = Gen.V3 m o' c :=
  congrArg (StableHlo.after hostOps1) (V2_congr m o o' c h2)
theorem V4_congr (o o' : Gen.Outs (F := F)) (c : Dev nD) (h2 : o 2 main_v2 c = o' 2 main_v2 c) (h4 : o 4 main_v6 c = o' 4 main_v6 c) :
    Gen.V4 m o c = Gen.V4 m o' c := by
  show Function.update (Gen.V3 m o c) (Proc.devRef .tc main_v6) (o 4 main_v6 c) = Function.update (Gen.V3 m o' c) (Proc.devRef .tc main_v6) (o' 4 main_v6 c)
  rw [V3_congr m o o' c h2, h4]
theorem V5_congr (o o' : Gen.Outs (F := F)) (c : Dev nD) (h2 : o 2 main_v2 c = o' 2 main_v2 c) (h4 : o 4 main_v6 c = o' 4 main_v6 c) :
    Gen.V5 m o c = Gen.V5 m o' c :=
  congrArg (StableHlo.after hostOps2) (V4_congr m o o' c h2 h4)
theorem V6_congr (o o' : Gen.Outs (F := F)) (c : Dev nD) (h2 : o 2 main_v2 c = o' 2 main_v2 c) (h4 : o 4 main_v6 c = o' 4 main_v6 c)
    (h6 : o 6 main_v10 c = o' 6 main_v10 c) : Gen.V6 m o c = Gen.V6 m o' c := by
  show Function.update (Gen.V5 m o c) (Proc.devRef .tc main_v10) (o 6 main_v10 c) = Function.update (Gen.V5 m o' c) (Proc.devRef .tc main_v10) (o' 6 main_v10 c)
  rw [V5_congr m o o' c h2 h4, h6]
theorem V7_congr (o o' : Gen.Outs (F := F)) (c : Dev nD) (h2 : o 2 main_v2 c = o' 2 main_v2 c) (h4 : o 4 main_v6 c = o' 4 main_v6 c)
    (h6 : o 6 main_v10 c = o' 6 main_v10 c) : Gen.V7 m o c = Gen.V7 m o' c :=
  congrArg (StableHlo.after hostOps3) (V6_congr m o o' c h2 h4 h6)

/-- Region 1 finds the same contents under the final unknowns as under region 0's alone; likewise regions 2 and 3. -/
theorem V3_outs (c : Dev nD) : Gen.V3 m (outs m) c = Gen.V3 m (oA m) c :=
  V3_congr m _ _ c ((outs_2 m c).trans (oA_2 m 2 c).symm)
theorem V5_outs (c : Dev nD) : Gen.V5 m (outs m) c = Gen.V5 m (oB m) c :=
  V5_congr m _ _ c ((outs_2 m c).trans (oB_2 m 2 c).symm) ((outs_4 m c).trans (oB_4 m 4 c).symm)
theorem V7_outs (c : Dev nD) : Gen.V7 m (outs m) c = Gen.V7 m (oC m) c :=
  V7_congr m _ _ c ((outs_2 m c).trans (oC_2 m 2 c).symm) ((outs_4 m c).trans (oC_4 m 4 c).symm) ((outs_6 m c).trans (oC_6 m 6 c).symm)

/-! ## The proof data family and what rides beside the buffers -/

/-- Every pipeline's proof data, each at the contents its region finds. -/
def pdats : (p : Fin 4) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

/-! ## Region 0 as a segment -/

/-- At region 0's exit each of its arrays holds what the pipeline leaves: an input array is never written back and no
    item up to here changes it; the output array is the unknown fixed above. -/
theorem hF0 (c : Dev nD) : ∀ w : Fin cfg0.W, (dat0 (ent0 m) c).arrAt w cfg0.N = Gen.V2 m (outs m) c (Pipeline.arrRef spec0 w)
  | ⟨0, _⟩ => ((dat0 (ent0 m) c).arrAt_in 0 rfl _).trans ((A_eq0 (ent0 m) c 0).trans
      (show Gen.V1 m c main_v1 = Gen.V2 m (outs m) c main_v1 from
        (Gen.V2_of m (outs m) c main_v1 (by decide)).symm))
  | ⟨1, _⟩ => ((dat0 (ent0 m) c).arrAt_in 1 rfl _).trans ((A_eq0 (ent0 m) c 1).trans
      (show Gen.V1 m c main_v0 = Gen.V2 m (outs m) c main_v0 from
        (Gen.V2_of m (outs m) c main_v0 (by decide)).symm))
  | ⟨2, _⟩ => (show (dat0 (ent0 m) c).arrAt 2 cfg0.N = val2 m c from rfl).trans
      (show val2 m c = Gen.V2 m (outs m) c main_v2 from
        ((show Gen.V2 m (outs m) c main_v2 = outs m 2 main_v2 c from Function.update_self _ _ _).trans (outs_2 m c)).symm)
/-- Every other unscoped buffer is as the region found it. -/
theorem hrest0 (c : Dev nD) : ∀ b, b ∉ Finset.univ.image (Pipeline.arrRef spec0) → Gen.V2 m (outs m) c b = ent0 m c b :=
  fun b hb => Gen.V2_of m (outs m) c b fun h => hb (Finset.mem_image.mpr ⟨2, Finset.mem_univ _, (List.mem_singleton.mp h).symm⟩)

set_option backward.isDefEq.respectTransparency.types false in
/-- REGION 0 over the thread state: entered from every unscoped buffer at `Gen.V1`, left at `Gen.V2`. Its arrays are
    split out of the unscoped buffers at entry and put back at the exit contents; the generator register goes into the
    region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- At region 1's exit each of its arrays holds what the pipeline leaves: an input array is never written back and no
    item up to here changes it; the output array is the unknown fixed above. -/
theorem hF1 (c : Dev nD) : ∀ w : Fin cfg1.W, (dat1 (ent1 m) c).arrAt w cfg1.N = Gen.V4 m (outs m) c (Pipeline.arrRef spec1 w)
  | ⟨0, _⟩ => ((dat1 (ent1 m) c).arrAt_in 0 rfl _).trans ((A_eq1 (ent1 m) c 0).trans
      (show Gen.V3 m (oA m) c main_v5 = Gen.V4 m (outs m) c main_v5 from
        ((Gen.V4_of m (outs m) c main_v5 (by decide)).trans (congrFun (V3_outs m c) _)).symm))
  | ⟨1, _⟩ => ((dat1 (ent1 m) c).arrAt_in 1 rfl _).trans ((A_eq1 (ent1 m) c 1).trans
      (show Gen.V3 m (oA m) c main_v4 = Gen.V4 m (outs m) c main_v4 from
        ((Gen.V4_of m (outs m) c main_v4 (by decide)).trans (congrFun (V3_outs m c) _)).symm))
  | ⟨2, _⟩ => (show (dat1 (ent1 m) c).arrAt 2 cfg1.N = val4 m c from rfl).trans
      (show val4 m c = Gen.V4 m (outs m) c main_v6 from
        ((show Gen.V4 m (outs m) c main_v6 = outs m 4 main_v6 c from Function.update_self _ _ _).trans (outs_4 m c)).symm)
/-- Every other unscoped buffer is as the region found it. -/
theorem hrest1 (c : Dev nD) : ∀ b, b ∉ Finset.univ.image (Pipeline.arrRef spec1) → Gen.V4 m (outs m) c b = ent1 m c b :=
  fun b hb => (Gen.V4_of m (outs m) c b fun h => hb (Finset.mem_image.mpr ⟨2, Finset.mem_univ _, (List.mem_singleton.mp h).symm⟩)).trans (congrFun (V3_outs m c) _)

set_option backward.isDefEq.respectTransparency.types false in
/-- REGION 1 over the thread state: entered from every unscoped buffer at `Gen.V3`, left at `Gen.V4`. Its arrays are
    split out of the unscoped buffers at entry and put back at the exit contents; the generator register goes into the
    region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [V3_outs m c]
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- At region 2's exit each of its arrays holds what the pipeline leaves: an input array is never written back and no
    item up to here changes it; the output array is the unknown fixed above. -/
theorem hF2 (c : Dev nD) : ∀ w : Fin cfg2.W, (dat2 (ent2 m) c).arrAt w cfg2.N = Gen.V6 m (outs m) c (Pipeline.arrRef spec2 w)
  | ⟨0, _⟩ => ((dat2 (ent2 m) c).arrAt_in 0 rfl _).trans ((A_eq2 (ent2 m) c 0).trans
      (show Gen.V5 m (oB m) c main_v9 = Gen.V6 m (outs m) c main_v9 from
        ((Gen.V6_of m (outs m) c main_v9 (by decide)).trans (congrFun (V5_outs m c) _)).symm))
  | ⟨1, _⟩ => ((dat2 (ent2 m) c).arrAt_in 1 rfl _).trans ((A_eq2 (ent2 m) c 1).trans
      (show Gen.V5 m (oB m) c main_v8 = Gen.V6 m (outs m) c main_v8 from
        ((Gen.V6_of m (outs m) c main_v8 (by decide)).trans (congrFun (V5_outs m c) _)).symm))
  | ⟨2, _⟩ => (show (dat2 (ent2 m) c).arrAt 2 cfg2.N = val6 m c from rfl).trans
      (show val6 m c = Gen.V6 m (outs m) c main_v10 from
        ((show Gen.V6 m (outs m) c main_v10 = outs m 6 main_v10 c from Function.update_self _ _ _).trans (outs_6 m c)).symm)
/-- Every other unscoped buffer is as the region found it. -/
theorem hrest2 (c : Dev nD) : ∀ b, b ∉ Finset.univ.image (Pipeline.arrRef spec2) → Gen.V6 m (outs m) c b = ent2 m c b :=
  fun b hb => (Gen.V6_of m (outs m) c b fun h => hb (Finset.mem_image.mpr ⟨2, Finset.mem_univ _, (List.mem_singleton.mp h).symm⟩)).trans (congrFun (V5_outs m c) _)

set_option backward.isDefEq.respectTransparency.types false in
/-- REGION 2 over the thread state: entered from every unscoped buffer at `Gen.V5`, left at `Gen.V6`. Its arrays are
    split out of the unscoped buffers at entry and put back at the exit contents; the generator register goes into the
    region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [V5_outs m c]
    rw [Pipeline.ownSems0_none]
    have hsplit := Pipeline.arrays_of_unscopedBufs (p := 2) (pcfgs (F := F)) Gen.adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (ent2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- At region 3's exit each of its arrays holds what the pipeline leaves: an input array is never written back and no
    item up to here changes it; the output array is the unknown fixed above. -/
theorem hF3 (c : Dev nD) : ∀ w : Fin cfg3.W, (dat3 (ent3 m) c).arrAt w cfg3.N = Gen.V8 m (outs m) c (Pipeline.arrRef spec3 w)
  | ⟨0, _⟩ => ((dat3 (ent3 m) c).arrAt_in 0 rfl _).trans ((A_eq3 (ent3 m) c 0).trans
      (show Gen.V7 m (oC m) c main_v3 = Gen.V8 m (outs m) c main_v3 from
        ((Gen.V8_of m (outs m) c main_v3 (by decide)).trans (congrFun (V7_outs m c) _)).symm))
  | ⟨1, _⟩ => ((dat3 (ent3 m) c).arrAt_in 1 rfl _).trans ((A_eq3 (ent3 m) c 1).trans
      (show Gen.V7 m (oC m) c main_v7 = Gen.V8 m (outs m) c main_v7 from
        ((Gen.V8_of m (outs m) c main_v7 (by decide)).trans (congrFun (V7_outs m c) _)).symm))
  | ⟨2, _⟩ => ((dat3 (ent3 m) c).arrAt_in 2 rfl _).trans ((A_eq3 (ent3 m) c 2).trans
      (show Gen.V7 m (oC m) c main_v11 = Gen.V8 m (outs m) c main_v11 from
        ((Gen.V8_of m (outs m) c main_v11 (by decide)).trans (congrFun (V7_outs m c) _)).symm))
  | ⟨3, _⟩ => (show (dat3 (ent3 m) c).arrAt 3 cfg3.N = val8 m c from rfl).trans
      (show val8 m c = Gen.V8 m (outs m) c main_v12 from
        ((show Gen.V8 m (outs m) c main_v12 = outs m 8 main_v12 c from Function.update_self _ _ _).trans (outs_8 m c)).symm)
/-- Every other unscoped buffer is as the region found it. -/
theorem hrest3 (c : Dev nD) : ∀ b, b ∉ Finset.univ.image (Pipeline.arrRef spec3) → Gen.V8 m (outs m) c b = ent3 m c b :=
  fun b hb => (Gen.V8_of m (outs m) c b fun h => hb (Finset.mem_image.mpr ⟨3, Finset.mem_univ _, (List.mem_singleton.mp h).symm⟩)).trans (congrFun (V7_outs m c) _)

set_option backward.isDefEq.respectTransparency.types false in
/-- REGION 3 over the thread state: entered from every unscoped buffer at `Gen.V7`, left at `Gen.V8`. Its arrays are
    split out of the unscoped buffers at entry and put back at the exit contents; the generator register goes into the
    region's invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [V7_outs m c]
    rw [Pipeline.ownSems0_none]
    have hsplit := Pipeline.arrays_of_unscopedBufs (p := 3) (pcfgs (F := F)) Gen.adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (ent3 m) c)
    unfold Pipeline.ΦA
    iintro ⟨Hp, -, Hr⟩
    isplitl [Hr]; · iexact Hr
    iexact Hp
  hout c := by
    refine BIBase.Entails.trans (hout3 (ent3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (ent3 m c) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the segments, and the run -/

/-- What rides along between any two items: `R`. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 :=
  iprop(StableHlo.held (c : Thread nD τ) (Pipeline.ucRefs τ sig) (Gen.V8 m (outs m) c) ∗ ∃ r, prngReg c r)

set_option backward.isDefEq.respectTransparency.types false in
/-- THE RUN: from any memory `m` with zero counters and any generator registers, every weakly fair execution of @main on the
    TensorCores terminates, and in every final memory each unscoped buffer of core `c` holds what the last valuation
    `Gen.V8 m (outs m) c` says: the launch memory, each host stretch applied, each region's output array at what its
    pipeline's write-backs fold to. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V8 m (outs m) c b) := by
  have hlast : ∀ c : Dev nD, (reg3 m).post c ⊢ iprop(Tₙ m c ∗ ∃ W, owes (c : Thread nD τ) (0 : CellTallies nD τ sig Unit) W) := fun c => by
    show iprop(StableHlo.held (c : Thread nD τ) (Pipeline.ucRefs τ sig) (Gen.V8 m (outs m) c) ∗ R c) ⊢ _
    iintro ⟨Hh, Hp, HO⟩
    isplitl [Hh Hp]
    · isplitl [Hh]; · iexact Hh
      iexact Hp
    iexact HO
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m))
    (fun c Q => by
      rewrite [main_chain c, Pipeline.Seg.run_eq_chain,
        show (Gen.segs m (outs m) 𝒱₀ L lv E () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h => h)

/-- THE FRAME: every argument array ends holding its launch contents — no host stretch writes one and no region may
    change one, so the last valuation at an argument walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c)⟩) (run_all m ρ)

end Run

end Cert.Kernel.H

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KI.MatValue.lean ====
/-
  The values of the three projection regions on the extended reals. Each region multiplies a [16384, 512] array,
  one block of 2048 rows per grid point, by a resident [512, 512] matrix: the block written back at point `t`
  holds at row `r`, column `o` the sum over `d` of (row `2048·t + r` of the array at `d`) times (the matrix at
  `(d, o)`). The eight row blocks tile the output array, so after the last point the output array is the matrix
  product of the two input arrays as the region found them.
-/
import proofs.«171383_j9698036154819_2_alg».proof.Proof.KI.Blocks
import proofs.«171383_j9698036154819_2_alg».proof.Proof.LibDotCols
import Idealize.ShloMosaic.Lib.Pipeline.Value
import Idealize.ShloMosaic.Lib.ValueIdx

set_option maxRecDepth 16384

noncomputable section

open scoped BigOperators

namespace Cert.KernelIdeal.HV

open Cert.KernelIdeal Cert.KernelIdeal.Gen Cert.KernelIdeal.H Idealize.ShloMosaic Idealize.ShloMosaic.ValueIdx
open Idealize.ShloMosaic.TcCoe Idealize.SL.Sem
open Idealize.ShloMosaic.Pipeline (Dat)

/-- The zero offsets of a whole-buffer rectangle. -/
theorem hz : (![0, 0] : Fin 2 → Nat) = fun _ => 0 := funext fun a => by fin_cases a <;> rfl

/-- The product of a [16384, 512] array and a [512, 512] matrix, entry by entry. -/
def mm (A : S16384x512.Idx → EReal) (W : S512x512.Idx → EReal) : S16384x512.Idx → EReal :=
  fun i => ∑ d : Fin 512, A (ix2 (i 0 : Fin 16384) d) * W (ix2 d (i 1 : Fin 512))

theorem mm_apply (A : S16384x512.Idx → EReal) (W : S512x512.Idx → EReal) (n : Fin 16384) (o : Fin 512) :
    mm A W (ix2 n o) = ∑ d : Fin 512, A (ix2 n d) * W (ix2 d o) := rfl

/-! ## Region 0 -/

section Region0
variable (V : (c : Dev nD) → (b : Ref sig .tc) → Buf (Elt Ideal) ((c : Thread nD τ).loc b))

/-- The output block after the body is the body's one payload: the load and the store go through whole buffers. -/
theorem out0_2_eq (x0 : Vec Ideal S2048x512 .f32) (x1 : Vec Ideal S512x512 .f32) :
    out0_2 x0 x1 = k0_pay1 x0 x1 := by
  unfold out0_2
  rw [View.canon_unit_zero hz]
  simp only [View.ld_unit_zero (S := S2048x512) hz, View.ld_unit_zero (S := S512x512) hz]

/-- The payload at an entry: the row of the left block against the column of the right block. -/
theorem matpay0_apply (x0 : Vec Ideal S2048x512 .f32) (x1 : Vec Ideal S512x512 .f32) (r : Fin 2048) (o : Fin 512) :
    k0_pay1 x0 x1 (ix2 r o) = ∑ d : Fin 512, x0 (ix2 r d) * x1 (ix2 d o) := by
  unfold k0_pay1
  simp only [shapeCast_self]
  exact Cert.Lib.DotCols.matmul_cols_apply (M := 2048) (K := 512) (N := 512)
    dot_S2048x512_S512x512_S2048x512_1_0_0_1_n_n rfl none _ _ r o

/-- The index maps, decided over the eight points: the row windows sit at block row `t`, the matrix window at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` holds rows `2048·t … 2048·t + 2047` of its array. -/
theorem iblk0_0_apply (c : Dev nD) (t : Fin cfg0.N) (r : Fin 2048) (d : Fin 512) (k : S16384x512.Idx)
    (hk0 : (k 0).val = 2048 * t.val + r.val) (hk1 : (k 1).val = d.val) :
    (iblk0 V c 0 t : Vec Ideal S2048x512 .f32) (ix2 r d) = (V c main_v1 : S16384x512.Idx → EReal) k := by
  obtain ⟨e0, e1, -, -, -, -⟩ := idx_facts0 t
  unfold iblk0
  rw [View.read_apply]
  show V c main_v1 _ = V c main_v1 _
  congr 1
  funext a
  apply Fin.ext
  match a with
  | ⟨0, _⟩ => show win0_0.index t (0 : Fin 2) * 2048 + 1 * r.val = (k 0).val; rw [e0, hk0]; omega
  | ⟨1, _⟩ => show win0_0.index t (1 : Fin 2) * 512 + 1 * d.val = (k 1).val; rw [e1, hk1]; omega

/-- The right window's block at every point is the whole matrix. -/
theorem iblk0_1_apply (c : Dev nD) (t : Fin cfg0.N) (d : Fin 512) (o : Fin 512) :
    (iblk0 V c 1 t : Vec Ideal S512x512 .f32) (ix2 d o) = (V c main_v0 : S512x512.Idx → EReal) (ix2 d o) := by
  obtain ⟨-, -, e2, e3, -, -⟩ := idx_facts0 t
  unfold iblk0
  rw [View.read_apply]
  show V c main_v0 _ = V c main_v0 _
  congr 1
  funext a
  apply Fin.ext
  match a with
  | ⟨0, _⟩ => show win0_1.index t (0 : Fin 2) * 512 + 1 * d.val = d.val; rw [e2]; omega
  | ⟨1, _⟩ => show win0_1.index t (1 : Fin 2) * 512 + 1 * o.val = o.val; rw [e3]; omega

/-- What point `t` writes back is block `t` of the product of the two arrays as the region found them. -/
theorem flushed0_eq (c : Dev nD) (t : Fin cfg0.N) :
    (dat0 (F := Ideal) V c).flushed 2 t
      = ((cfg0.win 2).blk t).view.read (Elt Ideal) (mm (V c main_v1) (V c main_v0)) := by
  show (cfg0.win 2).cut (grid0.coords t) ((dat0 (F := Ideal) V c).after 2 t) = _
  rw [after0_2, out0_2_eq]
  obtain ⟨-, -, -, -, e4, e5⟩ := idx_facts0 t
  funext j
  obtain ⟨r, o, rfl⟩ : ∃ (r : Fin 2048) (o : Fin 512), j = ix2 r o := ⟨j 0, j 1, eq_ix2 j⟩
  rw [View.read_apply]
  show k0_pay1 (iblk0 V c 0 t) (iblk0 V c 1 t) (ix2 r o) = mm (V c main_v1) (V c main_v0) (((cfg0.win 2).blk t).view.emb (ix2 r o))
  have ht8 : t.val < 8 := Nat.lt_of_lt_of_eq t.isLt N_0
  have hn : 2048 * t.val + r.val < 16384 := by omega
  have hemb : ((cfg0.win 2).blk t).view.emb (ix2 r o) = (ix2 (⟨2048 * t.val + r.val, hn⟩ : Fin 16384) o : S16384x512.Idx) := by
    funext a
    apply Fin.ext
    match a with
    | ⟨0, _⟩ => show win0_2.index t (0 : Fin 2) * 2048 + 1 * r.val = 2048 * t.val + r.val; rw [e4]; omega
    | ⟨1, _⟩ => show win0_2.index t (1 : Fin 2) * 512 + 1 * o.val = o.val; rw [e5]; omega
  rw [hemb, mm_apply]
  refine (matpay0_apply (iblk0 V c 0 t) (iblk0 V c 1 t) r o).trans ?_
  refine Finset.sum_congr rfl fun d _ => ?_
  rw [iblk0_0_apply V c t r d (ix2 (⟨2048 * t.val + r.val, hn⟩ : Fin 16384) d) rfl rfl, iblk0_1_apply V c t d o]

/-- An index of the output array is in point `t`'s block iff each coordinate is in the block's range on its axis. -/
theorem mem_blk0 (t : Fin cfg0.N) (i : S16384x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v2).slice (win0_2.rect t)).set ↔ _
  rw [View.set_slice_whole, Rect.mem_set_unit]
  exact Iff.rfl

/-- The eight row blocks tile the output array: row `n` is in the block of point `n / 2048`. -/
theorem cover0 (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have ht : (i 0).val / 2048 < cfg0.N := by rw [show cfg0.N = 8 from N_0]; omega
  refine ⟨⟨(i 0).val / 2048, ht⟩, flush0_2 _, ?_⟩
  obtain ⟨-, -, -, -, e4, e5⟩ := idx_facts0 ⟨(i 0).val / 2048, ht⟩
  rw [mem_blk0]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 512 ≤ (i 1).val
      ∧ (i 1).val < win0_2.index ⟨(i 0).val / 2048, ht⟩ (1 : Fin 2) * 512 + 512
    rw [e5]; omega

/-- After the region's last point its output array is the product of its two input arrays as the region found them. -/
theorem final0_mm (c : Dev nD) : (dat0 (F := Ideal) V c).arrAt 2 cfg0.N = mm (V c main_v1) (V c main_v0) :=
  (dat0 (F := Ideal) V c).arrAt_eq_of_cover 2 (mm (V c main_v1) (V c main_v0)) (fun t _ => flushed0_eq V c t) cover0

/-- The same, entry by entry: row `i 0` of the left array against column `i 1` of the right one. -/
theorem final0 (c : Dev nD) : (dat0 (F := Ideal) V c).arrAt 2 cfg0.N
    = fun i : S16384x512.Idx => ∑ d : Fin 512, HMul.hMul (α := EReal) (β := EReal) (γ := EReal)
        (V c main_v1 (ix2 (i 0 : Fin 16384) d)) (V c main_v0 (ix2 d (i 1 : Fin 512))) :=
  final0_mm V c

end Region0

/-! ## Region 1 -/

section Region1
variable (V : (c : Dev nD) → (b : Ref sig .tc) → Buf (Elt Ideal) ((c : Thread nD τ).loc b))

/-- The output block after the body is the body's one payload: the load and the store go through whole buffers. -/
theorem out1_2_eq (x0 : Vec Ideal S2048x512 .f32) (x1 : Vec Ideal S512x512 .f32) :
    out1_2 x0 x1 = k1_pay1 x0 x1 := by
  unfold out1_2
  rw [View.canon_unit_zero hz]
  simp only [View.ld_unit_zero (S := S2048x512) hz, View.ld_unit_zero (S := S512x512) hz]

/-- The payload at an entry: the row of the left block against the column of the right block. -/
theorem matpay1_apply (x0 : Vec Ideal S2048x512 .f32) (x1 : Vec Ideal S512x512 .f32) (r : Fin 2048) (o : Fin 512) :
    k1_pay1 x0 x1 (ix2 r o) = ∑ d : Fin 512, x0 (ix2 r d) * x1 (ix2 d o) := by
  unfold k1_pay1
  simp only [shapeCast_self]
  exact Cert.Lib.DotCols.matmul_cols_apply (M := 2048) (K := 512) (N := 512)
    dot_S2048x512_S512x512_S2048x512_1_0_0_1_n_n rfl none _ _ r o

/-- The index maps, decided over the eight points: the row windows sit at block row `t`, the matrix window at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` holds rows `2048·t … 2048·t + 2047` of its array. -/
theorem iblk1_0_apply (c : Dev nD) (t : Fin cfg1.N) (r : Fin 2048) (d : Fin 512) (k : S16384x512.Idx)
    (hk0 : (k 0).val = 2048 * t.val + r.val) (hk1 : (k 1).val = d.val) :
    (iblk1 V c 0 t : Vec Ideal S2048x512 .f32) (ix2 r d) = (V c main_v5 : S16384x512.Idx → EReal) k := by
  obtain ⟨e0, e1, -, -, -, -⟩ := idx_facts1 t
  unfold iblk1
  rw [View.read_apply]
  show V c main_v5 _ = V c main_v5 _
  congr 1
  funext a
  apply Fin.ext
  match a with
  | ⟨0, _⟩ => show win1_0.index t (0 : Fin 2) * 2048 + 1 * r.val = (k 0).val; rw [e0, hk0]; omega
  | ⟨1, _⟩ => show win1_0.index t (1 : Fin 2) * 512 + 1 * d.val = (k 1).val; rw [e1, hk1]; omega

/-- The right window's block at every point is the whole matrix. -/
theorem iblk1_1_apply (c : Dev nD) (t : Fin cfg1.N) (d : Fin 512) (o : Fin 512) :
    (iblk1 V c 1 t : Vec Ideal S512x512 .f32) (ix2 d o) = (V c main_v4 : S512x512.Idx → EReal) (ix2 d o) := by
  obtain ⟨-, -, e2, e3, -, -⟩ := idx_facts1 t
  unfold iblk1
  rw [View.read_apply]
  show V c main_v4 _ = V c main_v4 _
  congr 1
  funext a
  apply Fin.ext
  match a with
  | ⟨0, _⟩ => show win1_1.index t (0 : Fin 2) * 512 + 1 * d.val = d.val; rw [e2]; omega
  | ⟨1, _⟩ => show win1_1.index t (1 : Fin 2) * 512 + 1 * o.val = o.val; rw [e3]; omega

/-- What point `t` writes back is block `t` of the product of the two arrays as the region found them. -/
theorem flushed1_eq (c : Dev nD) (t : Fin cfg1.N) :
    (dat1 (F := Ideal) V c).flushed 2 t
      = ((cfg1.win 2).blk t).view.read (Elt Ideal) (mm (V c main_v5) (V c main_v4)) := by
  show (cfg1.win 2).cut (grid1.coords t) ((dat1 (F := Ideal) V c).after 2 t) = _
  rw [after1_2, out1_2_eq]
  obtain ⟨-, -, -, -, e4, e5⟩ := idx_facts1 t
  funext j
  obtain ⟨r, o, rfl⟩ : ∃ (r : Fin 2048) (o : Fin 512), j = ix2 r o := ⟨j 0, j 1, eq_ix2 j⟩
  rw [View.read_apply]
  show k1_pay1 (iblk1 V c 0 t) (iblk1 V c 1 t) (ix2 r o) = mm (V c main_v5) (V c main_v4) (((cfg1.win 2).blk t).view.emb (ix2 r o))
  have ht8 : t.val < 8 := Nat.lt_of_lt_of_eq t.isLt N_1
  have hn : 2048 * t.val + r.val < 16384 := by omega
  have hemb : ((cfg1.win 2).blk t).view.emb (ix2 r o) = (ix2 (⟨2048 * t.val + r.val, hn⟩ : Fin 16384) o : S16384x512.Idx) := by
    funext a
    apply Fin.ext
    match a with
    | ⟨0, _⟩ => show win1_2.index t (0 : Fin 2) * 2048 + 1 * r.val = 2048 * t.val + r.val; rw [e4]; omega
    | ⟨1, _⟩ => show win1_2.index t (1 : Fin 2) * 512 + 1 * o.val = o.val; rw [e5]; omega
  rw [hemb, mm_apply]
  refine (matpay1_apply (iblk1 V c 0 t) (iblk1 V c 1 t) r o).trans ?_
  refine Finset.sum_congr rfl fun d _ => ?_
  rw [iblk1_0_apply V c t r d (ix2 (⟨2048 * t.val + r.val, hn⟩ : Fin 16384) d) rfl rfl, iblk1_1_apply V c t d o]

/-- An index of the output array is in point `t`'s block iff each coordinate is in the block's range on its axis. -/
theorem mem_blk1 (t : Fin cfg1.N) (i : S16384x512.Idx) :
    i ∈ ((cfg1.win 2).blk t).view.set ↔ ∀ a : Fin 2, win1_2.index t a * S2048x512.size a ≤ (i a).val
      ∧ (i a).val < win1_2.index t a * S2048x512.size a + S2048x512.size a := by
  show i ∈ ((View.whole main_v6).slice (win1_2.rect t)).set ↔ _
  rw [View.set_slice_whole, Rect.mem_set_unit]
  exact Iff.rfl

/-- The eight row blocks tile the output array: row `n` is in the block of point `n / 2048`. -/
theorem cover1 (i : S16384x512.Idx) :
    ∃ t : Fin cfg1.N, (cfg1.win 2).flush t = true ∧ i ∈ ((cfg1.win 2).blk t).view.set := by
  have hi0 : (i 0).val < 16384 := (i 0).isLt
  have hi1 : (i 1).val < 512 := (i 1).isLt
  have ht : (i 0).val / 2048 < cfg1.N := by rw [show cfg1.N = 8 from N_1]; omega
  refine ⟨⟨(i 0).val / 2048, ht⟩, flush1_2 _, ?_⟩
  obtain ⟨-, -, -, -, e4, e5⟩ := idx_facts1 ⟨(i 0).val / 2048, ht⟩
  rw [mem_blk1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win1_2.index ⟨(i 0).val / 2048, ht⟩ (1 : Fin 2) * 512 ≤ (i 1).val
      ∧ (i 1).val < win1_2.index ⟨(i 0).val / 2048, ht⟩ (1 : Fin 2) * 512 + 512
    rw [e5]; omega

/-- After the region's last point its output array is the product of its two input arrays as the region found them. -/
theorem final1_mm (c : Dev nD) : (dat1 (F := Ideal) V c).arrAt 2 cfg1.N = mm (V c main_v5) (V c main_v4) :=
  (dat1 (F := Ideal) V c).arrAt_eq_of_cover 2 (mm (V c main_v5) (V c main_v4)) (fun t _ => flushed1_eq V c t) cover1

/-- The same, entry by entry: row `i 0` of the left array against column `i 1` of the right one. -/
theorem final1 (c : Dev nD) : (dat1 (F := Ideal) V c).arrAt 2 cfg1.N
    = fun i : S16384x512.Idx => ∑ d : Fin 512, HMul.hMul (α := EReal) (β := EReal) (γ := EReal)
        (V c main_v5 (ix2 (i 0 : Fin 16384) d)) (V c main_v4 (ix2 d (i 1 : Fin 512))) :=
  final1_mm V c

end Region1

/-! ## Region 2 -/

section Region2
variable (V : (c : Dev nD) → (b : Ref sig .tc) → Buf (Elt Ideal) ((c : Thread nD τ).loc b))

/-- The output block after the body is the body's one payload: the load and the store go through whole buffers. -/
theorem out2_2_eq (x0 : Vec Ideal S2048x512 .f32) (x1 : Vec Ideal S512x512 .f32) :
    out2_2 x0 x1 = k2_pay1 x0 x1 := by
  unfold out2_2
  rw [View.canon_unit_zero hz]
  simp only [View.ld_unit_zero (S := S2048x512) hz, View.ld_unit_zero (S := S512x512) hz]

/-- The payload at an entry: the row of the left block against the column of the right block. -/
theorem matpay2_apply (x0 : Vec Ideal S2048x512 .f32) (x1 : Vec Ideal S512x512 .f32) (r : Fin 2048) (o : Fin 512) :
    k2_pay1 x0 x1 (ix2 r o) = ∑ d : Fin 512, x0 (ix2 r d) * x1 (ix2 d o) := by
  unfold k2_pay1
  simp only [shapeCast_self]
  show FloatOps.truncf .bf16 bitsLt_bf16_f32 (matmul dot_S2048x512_S512x512_S2048x512_1_0_0_1_n_n none _ _ _ (ix2 r o)) = _
  rw [Ideal.truncf_def]
  exact Cert.Lib.DotCols.matmul_cols_apply (M := 2048) (K := 512) (N := 512)
    dot_S2048x512_S512x512_S2048x512_1_0_0_1_n_n rfl none _ _ r o

/-- The index maps, decided over the eight points: the row windows sit at block row `t`, the matrix window at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` holds rows `2048·t … 2048·t + 2047` of its array. -/
theorem iblk2_0_apply (c : Dev nD) (t : Fin cfg2.N) (r : Fin 2048) (d : Fin 512) (k : S16384x512.Idx)
    (hk0 : (k 0).val = 2048 * t.val + r.val) (hk1 : (k 1).val = d.val) :
    (iblk2 V c 0 t : Vec Ideal S2048x512 .f32) (ix2 r d) = (V c main_v9 : S16384x512.Idx → EReal) k := by
  obtain ⟨e0, e1, -, -, -, -⟩ := idx_facts2 t
  unfold iblk2
  rw [View.read_apply]
  show V c main_v9 _ = V c main_v9 _
  congr 1
  funext a
  apply Fin.ext
  match a with
  | ⟨0, _⟩ => show win2_0.index t (0 : Fin 2) * 2048 + 1 * r.val = (k 0).val; rw [e0, hk0]; omega
  | ⟨1, _⟩ => show win2_0.index t (1 : Fin 2) * 512 + 1 * d.val = (k 1).val; rw [e1, hk1]; omega

/-- The right window's block at every point is the whole matrix. -/
theorem iblk2_1_apply (c : Dev nD) (t : Fin cfg2.N) (d : Fin 512) (o : Fin 512) :
    (iblk2 V c 1 t : Vec Ideal S512x512 .f32) (ix2 d o) = (V c main_v8 : S512x512.Idx → EReal) (ix2 d o) := by
  obtain ⟨-, -, e2, e3, -, -⟩ := idx_facts2 t
  unfold iblk2
  rw [View.read_apply]
  show V c main_v8 _ = V c main_v8 _
  congr 1
  funext a
  apply Fin.ext
  match a with
  | ⟨0, _⟩ => show win2_1.index t (0 : Fin 2) * 512 + 1 * d.val = d.val; rw [e2]; omega
  | ⟨1, _⟩ => show win2_1.index t (1 : Fin 2) * 512 + 1 * o.val = o.val; rw [e3]; omega

/-- What point `t` writes back is block `t` of the product of the two arrays as the region found them. -/
theorem flushed2_eq (c : Dev nD) (t : Fin cfg2.N) :
    (dat2 (F := Ideal) V c).flushed 2 t
      = ((cfg2.win 2).blk t).view.read (Elt Ideal) (mm (V c main_v9) (V c main_v8)) := by
  show (cfg2.win 2).cut (grid2.coords t) ((dat2 (F := Ideal) V c).after 2 t) = _
  rw [after2_2, out2_2_eq]
  obtain ⟨-, -, -, -, e4, e5⟩ := idx_facts2 t
  funext j
  obtain ⟨r, o, rfl⟩ : ∃ (r : Fin 2048) (o : Fin 512), j = ix2 r o := ⟨j 0, j 1, eq_ix2 j⟩
  rw [View.read_apply]
  show k2_pay1 (iblk2 V c 0 t) (iblk2 V c 1 t) (ix2 r o) = mm (V c main_v9) (V c main_v8) (((cfg2.win 2).blk t).view.emb (ix2 r o))
  have ht8 : t.val < 8 := Nat.lt_of_lt_of_eq t.isLt N_2
  have hn : 2048 * t.val + r.val < 16384 := by omega
  have hemb : ((cfg2.win 2).blk t).view.emb (ix2 r o) = (ix2 (⟨2048 * t.val + r.val, hn⟩ : Fin 16384) o : S16384x512.Idx) := by
    funext a
    apply Fin.ext
    match a with
    | ⟨0, _⟩ => show win2_2.index t (0 : Fin 2) * 2048 + 1 * r.val = 2048 * t.val + r.val; rw [e4]; omega
    | ⟨1, _⟩ => show win2_2.index t (1 : Fin 2) * 512 + 1 * o.val = o.val; rw [e5]; omega
  rw [hemb, mm_apply]
  refine (matpay2_apply (iblk2 V c 0 t) (iblk2 V c 1 t) r o).trans ?_
  refine Finset.sum_congr rfl fun d _ => ?_
  rw [iblk2_0_apply V c t r d (ix2 (⟨2048 * t.val + r.val, hn⟩ : Fin 16384) d) rfl rfl, iblk2_1_apply V c t d o]

/-- An index of the output array is in point `t`'s block iff each coordinate is in the block's range on its axis. -/
theorem mem_blk2 (t : Fin cfg2.N) (i : S16384x512.Idx) :
    i ∈ ((cfg2.win 2).blk t).view.set ↔ ∀ a : Fin 2, win2_2.index t a * S2048x512.size a ≤ (i a).val
      ∧ (i a).val < win2_2.index t a * S2048x512.size a + S2048x512.size a := by
  show i ∈ ((View.whole main_v10).slice (win2_2.rect t)).set ↔ _
  rw [View.set_slice_whole, Rect.mem_set_unit]
  exact Iff.rfl

/-- The eight row blocks tile the output array: row `n` is in the block of point `n / 2048`. -/
theorem cover2 (i : S16384x512.Idx) :
    ∃ t : Fin cfg2.N, (cfg2.win 2).flush t = true ∧ i ∈ ((cfg2.win 2).blk t).view.set := by
  have hi0 : (i 0).val < 16384 := (i 0).isLt
  have hi1 : (i 1).val < 512 := (i 1).isLt
  have ht : (i 0).val / 2048 < cfg2.N := by rw [show cfg2.N = 8 from N_2]; omega
  refine ⟨⟨(i 0).val / 2048, ht⟩, flush2_2 _, ?_⟩
  obtain ⟨-, -, -, -, e4, e5⟩ := idx_facts2 ⟨(i 0).val / 2048, ht⟩
  rw [mem_blk2]
  intro a
  match a with
  | ⟨0, _⟩ =>
    show win2_2.index ⟨(i 0).val / 2048, ht⟩ (0 : Fin 2) * 2048 ≤ (i 0).val
      ∧ (i 0).val < win2_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win2_2.index ⟨(i 0).val / 2048, ht⟩ (1 : Fin 2) * 512 ≤ (i 1).val
      ∧ (i 1).val < win2_2.index ⟨(i 0).val / 2048, ht⟩ (1 : Fin 2) * 512 + 512
    rw [e5]; omega

/-- After the region's last point its output array is the product of its two input arrays as the region found them. -/
theorem final2_mm (c : Dev nD) : (dat2 (F := Ideal) V c).arrAt 2 cfg2.N = mm (V c main_v9) (V c main_v8) :=
  (dat2 (F := Ideal) V c).arrAt_eq_of_cover 2 (mm (V c main_v9) (V c main_v8)) (fun t _ => flushed2_eq V c t) cover2

/-- The same, entry by entry: row `i 0` of the left array against column `i 1` of the right one. -/
theorem final2 (c : Dev nD) : (dat2 (F := Ideal) V c).arrAt 2 cfg2.N
    = fun i : S16384x512.Idx => ∑ d : Fin 512, HMul.hMul (α := EReal) (β := EReal) (γ := EReal)
        (V c main_v9 (ix2 (i 0 : Fin 16384) d)) (V c main_v8 (ix2 d (i 1 : Fin 512))) :=
  final2_mm V c

end Region2

end Cert.KernelIdeal.HV

end
-- ==== Proof.LibOnlineDefs.lean ====
/-
  A softmax-weighted sum accumulated block by block ("online softmax"), as a recurrence on the extended reals.
  The columns of a row come in `B` blocks of `J`. The state is (running maximum `m`, running denominator `l`,
  running numerator `a`), started at (−∞, 0, 0). A block with logits `s` and values `v` moves it to

    m' = max m (max_j s_j),   l' = exp (m − m') · l + Σ_j exp (s_j − m'),   a' = exp (m − m') · a + Σ_j exp (s_j − m') · v_j.

  After the last block `a / l` is the softmax-weighted mean of all `B · J` values (LibOnlineSoftmax.lean).
-/
import Idealize.ShloMosaic.PureOps.Ideal

noncomputable section

namespace OnlineSoftmax

open Idealize.ShloMosaic

/-- The state: running maximum, running denominator, running numerator. -/
abbrev St : Type := EReal × EReal × EReal

/-- The start: maximum −∞, both sums zero. -/
def init : St := (⊥, 0, 0)

/-- One block folded into the state. -/
def step {J : ℕ} (s v : Fin J → EReal) (st : St) : St :=
  (max st.1 (Finset.univ.sup s),
   Ideal.exp (st.1 - max st.1 (Finset.univ.sup s)) * st.2.1 + ∑ j : Fin J, Ideal.exp (s j - max st.1 (Finset.univ.sup s)),
   Ideal.exp (st.1 - max st.1 (Finset.univ.sup s)) * st.2.2 + ∑ j : Fin J, Ideal.exp (s j - max st.1 (Finset.univ.sup s)) * v j)

/-- The state after the first `n` blocks. -/
def run {B J : ℕ} (s v : Fin B → Fin J → EReal) : (n : ℕ) → n ≤ B → St
  | 0, _ => init
  | n + 1, h => step (s ⟨n, h⟩) (v ⟨n, h⟩) (run s v n (Nat.le_of_succ_le h))

/-- Column `j` of block `b` among all `N = B · J` columns. -/
def flat {B J N : ℕ} (hN : B * J = N) (b : Fin B) (j : Fin J) : Fin N :=
  ⟨b.val * J + j.val, by
    have h1 : b.val * J + j.val < (b.val + 1) * J := by rw [Nat.succ_mul]; exact Nat.add_lt_add_left j.isLt _
    exact lt_of_lt_of_le h1 (hN ▸ Nat.mul_le_mul_right J b.isLt)⟩

end OnlineSoftmax

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«171383_j9698036154819_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.KI.FlashStep.lean ====
/-
  One key block of the attention region, read at one row and one column.

  The region keeps, for every query row r, a running maximum m_r, a running denominator l_r and, for every output column e,
  a running numerator a_{r,e}. A key block with logits s_j = Σ_d q[r,d]·k[j,d] (j over the block's 256 key rows) and value
  rows v[j,·] moves them to

      m' = max m (max_j s_j),   l' = exp (m − m')·l + Σ_j exp (s_j − m'),   a' = exp (m − m')·a + Σ_j exp (s_j − m')·v[j,e].

  Here each value the body computes is read at an index: the layout changes (a leading unit axis dropped or added, a column
  broadcast along its row) move no value; the product of rows and the plain product into a zero accumulator are the two sums
  above; the lane maximum from −∞ is the supremum of a row and the lane sum its plain sum. The logits are formed as
  hi·hi + hi·lo + lo·hi with lo = x − x, and for a real x that is zero, so the two correction products vanish (for an
  infinite x it would not: hence the hypotheses that the query and key blocks are real-valued).
-/
import proofs.«171383_j9698036154819_2_alg».proof.Proof.KI.Blocks
import proofs.«171383_j9698036154819_2_alg».proof.Proof.LibOnlineDefs
import proofs.«171383_j9698036154819_2_alg».proof.Proof.LibDotRows
import proofs.«171383_j9698036154819_2_alg».proof.Proof.LibDotCols
import proofs.«171383_j9698036154819_2_alg».proof.Proof.LibHostMax
import proofs.«171383_j9698036154819_2_alg».proof.Proof.LibLaneRows
import proofs.«171383_j9698036154819_2_alg».proof.Proof.LibColumns
import Idealize.ShloMosaic.Lib.ValueLayout
import Idealize.ShloMosaic.PureOps.Ideal.Laws

set_option maxRecDepth 16384

noncomputable section

open scoped BigOperators

namespace Cert.KernelIdeal.HV

open Cert.KernelIdeal Cert.KernelIdeal.Gen Cert.KernelIdeal.H Idealize.ShloMosaic Idealize.ShloMosaic.ValueIdx

/-- A real number minus itself is zero on the extended reals (an infinity minus itself is not). -/
theorem real_sub_self (x : EReal) (h : ∃ r : ℝ, x = (r : EReal)) : x - x = 0 := by
  obtain ⟨r, rfl⟩ := h
  rw [← EReal.coe_sub, sub_self, EReal.coe_zero]

/-- The product of rows (both operands contracted on their last axis) into the zero accumulator, at (r, j). -/
theorem rows_apply (A : FVec Ideal S2048x512 .bf16) (B : FVec Ideal S256x512 .bf16) (r : Fin 2048) (j : Fin 256) :
    matmul dot_S2048x512_S256x512_S2048x256_1_1_0_0_n_n none A B (constant (F := Ideal) S2048x256 .f32 0x00000000#32) (ix2 r j)
      = ∑ d : Fin 512, A (ix2 r d) * B (ix2 j d) :=
  Cert.Lib.DotRows.matmul_rows_apply _ rfl none A B r j

/-- The plain product into the zero accumulator, at (r, e). -/
theorem cols_apply (A : FVec Ideal S2048x256 .bf16) (B : FVec Ideal S256x512 .bf16) (r : Fin 2048) (e : Fin 512) :
    matmul dot_S2048x256_S256x512_S2048x512_1_0_0_1_n_n none A B (constant (F := Ideal) S2048x512 .f32 0x00000000#32) (ix2 r e)
      = ∑ j : Fin 256, A (ix2 r j) * B (ix2 j e) :=
  Cert.Lib.DotCols.matmul_cols_apply _ rfl none A B r e

/-- THE LOGITS of one key block at (r, j): the inner product of row r of the query block and row j of the key block.
    The body forms it as hi·hi + hi·lo + lo·hi with lo = x − x, which is zero for a real x, so the two
    correction products vanish. -/
theorem pay9_apply (q : Vec Ideal S1x2048x512 .f32) (k : Vec Ideal S1x256x512 .f32)
    (hq : ∀ i, ∃ r : ℝ, (q i : EReal) = (r : EReal)) (hk : ∀ i, ∃ r : ℝ, (k i : EReal) = (r : EReal))
    (r : Fin 2048) (j : Fin 256) :
    (k3_pay9 (F := Ideal) q k (ix2 r j) : EReal) = ∑ d : Fin 512, q (ix3 (0 : Fin 1) r d) * k (ix3 (0 : Fin 1) j d) := by
  unfold k3_pay9
  rw [addf_apply, addf_apply, rows_apply, rows_apply, rows_apply]
  have eQ : ∀ d : Fin 512, shapeCast S2048x512 q shapeCasts_S1x2048x512_S2048x512 (ix2 r d) = q (ix3 (0 : Fin 1) r d) :=
    fun d => shapeCast_1ab_ab_apply q _ r d
  have eK : ∀ d : Fin 512, shapeCast S256x512 k shapeCasts_S1x256x512_S256x512 (ix2 j d) = k (ix3 (0 : Fin 1) j d) :=
    fun d => shapeCast_1ab_ab_apply k _ j d
  have zQ : ∀ d : Fin 512, (q (ix3 (0 : Fin 1) r d) : EReal) - q (ix3 (0 : Fin 1) r d) = 0 := fun d => real_sub_self _ (hq _)
  have zK : ∀ d : Fin 512, (k (ix3 (0 : Fin 1) j d) : EReal) - k (ix3 (0 : Fin 1) j d) = 0 := fun d => real_sub_self _ (hk _)
  simp only [truncf_apply, subf_apply, eQ, eK, zQ, zK, mul_zero, zero_mul, Finset.sum_const_zero, add_zero]

/-- THE NEW ROW MAXIMUM at row r: the larger of the running maximum and the block's largest logit of that row. -/
theorem pay10_apply (q : Vec Ideal S1x2048x512 .f32) (k : Vec Ideal S1x256x512 .f32) (m : Vec Ideal S2048x1 .f32)
    (r : Fin 2048) (u : Fin 1) :
    (k3_pay10 (F := Ideal) q k m (ix2 r u) : EReal)
      = max (m (ix2 r u)) ((Finset.univ : Finset (Fin 256)).sup fun j => (k3_pay9 (F := Ideal) q k (ix2 r j) : EReal)) := by
  unfold k3_pay10
  rw [maximumf_apply]
  refine congrArg (max (m (ix2 r u))) ?_
  refine (shapeCast_a_a1_apply _ shapeCasts_S2048_S2048x1 r u).trans ?_
  exact HostMax.multiReduction_rows (k3_pay9 (F := Ideal) q k) reduces_S2048x256_S2048 (.inl rfl) rfl r

/-- The rescaling factor of the old sums at row r: exp (old maximum − new maximum). -/
theorem pay11_apply (q : Vec Ideal S1x2048x512 .f32) (k : Vec Ideal S1x256x512 .f32) (m m' : Vec Ideal S2048x1 .f32)
    (i : S2048x1.Idx) :
    (k3_pay11 (F := Ideal) q k m m' i : EReal) = Ideal.exp (m' i - k3_pay10 (F := Ideal) q k m i) := rfl

/-- The block's unnormalised weights at (r, j): exp (logit − new maximum of row r). -/
theorem pay12_apply (q : Vec Ideal S1x2048x512 .f32) (k : Vec Ideal S1x256x512 .f32) (m : Vec Ideal S2048x1 .f32)
    (r : Fin 2048) (j : Fin 256) :
    (k3_pay12 (F := Ideal) q k m (ix2 r j) : EReal)
      = Ideal.exp (k3_pay9 (F := Ideal) q k (ix2 r j) - k3_pay10 (F := Ideal) q k m (ix2 r (0 : Fin 1))) := by
  unfold k3_pay12
  show Ideal.exp (k3_pay9 (F := Ideal) q k (ix2 r j) - broadcastTo S2048x256 (k3_pay10 (F := Ideal) q k m) broadcasts_S2048x1_S2048x256 (ix2 r j)) = _
  rw [LaneRows.broadcastTo_col_apply (k3_pay10 (F := Ideal) q k m) broadcasts_S2048x1_S2048x256 r j]

/-- The old denominator rescaled. -/
theorem pay13_apply (q : Vec Ideal S1x2048x512 .f32) (k : Vec Ideal S1x256x512 .f32) (m m' l : Vec Ideal S2048x1 .f32)
    (i : S2048x1.Idx) :
    (k3_pay13 (F := Ideal) q k m m' l i : EReal) = k3_pay11 (F := Ideal) q k m m' i * l i := rfl

/-- The block's row sums of weights. -/
theorem pay14_apply (q : Vec Ideal S1x2048x512 .f32) (k : Vec Ideal S1x256x512 .f32) (m : Vec Ideal S2048x1 .f32)
    (r : Fin 2048) :
    (k3_pay14 (F := Ideal) q k m (ix1 r) : EReal) = ∑ j : Fin 256, (k3_pay12 (F := Ideal) q k m (ix2 r j) : EReal) := by
  unfold k3_pay14
  exact LaneRows.multiReduction_add_rows (k3_pay12 (F := Ideal) q k m) 0x00000000#32 reduces_S2048x256_S2048 (.inl rfl) rfl r

/-- The new denominator at row r: the rescaled old one plus the block's row sum. -/
theorem pay1_apply (a : FVec Ideal S2048x1 .f32) (b : FVec Ideal S2048 .f32) (r : Fin 2048) (u : Fin 1) :
    (k3_pay1 (F := Ideal) a b (ix2 r u) : EReal) = a (ix2 r u) + b (ix1 r) := by
  unfold k3_pay1
  rw [shapeCast_self, addf_apply, shapeCast_a_a1_apply b shapeCasts_S2048_S2048x1 r u]

/-- The new numerator at (r, e): the rescaled old one plus the block's weights times the value block's column e. -/
theorem pay2_apply (v8 : FVec Ideal S256x512 .bf16) (p28 : FVec Ideal S2048x1 .f32) (p31 : FVec Ideal S2048x256 .f32)
    (acc : Vec Ideal S2048x512 .f32) (r : Fin 2048) (e : Fin 512) :
    (k3_pay2 (F := Ideal) v8 p28 p31 acc (ix2 r e) : EReal)
      = p28 (ix2 r (0 : Fin 1)) * acc (ix2 r e) + ∑ j : Fin 256, p31 (ix2 r j) * v8 (ix2 j e) := by
  unfold k3_pay2
  rw [shapeCast_self, addf_apply, mulf_apply, cols_apply,
    LaneRows.broadcastTo_col_apply p28 broadcasts_S2048x1_S2048x512 r e]
  simp only [truncf_apply]

/-- The stored maximum is the computed one. -/
theorem pay3_eq (x : FVec Ideal S2048x1 .f32) : k3_pay3 (F := Ideal) x = x := by
  unfold k3_pay3; rw [shapeCast_self]

/-- The value block without its unit axis. -/
theorem pay8_apply (v : Vec Ideal S1x256x512 .bf16) (j : Fin 256) (e : Fin 512) :
    (k3_pay8 (F := Ideal) v (ix2 j e) : EReal) = v (ix3 (0 : Fin 1) j e) := by
  unfold k3_pay8
  exact shapeCast_1ab_ab_apply v _ j e

/-- The output block at (0, r, e): numerator over denominator of row r. -/
theorem pay4_apply (acc : Vec Ideal S2048x512 .f32) (l : Vec Ideal S2048x1 .f32) (u : Fin 1) (r : Fin 2048) (e : Fin 512) :
    (k3_pay4 (F := Ideal) acc l (ix3 u r e) : EReal) = Ideal.div (acc (ix2 r e)) (l (ix2 r (0 : Fin 1))) := by
  unfold k3_pay4
  rw [shapeCast_ab_1ab_apply _ shapeCasts_S2048x512_S1x2048x512 u r e, divf_apply,
    LaneRows.broadcastTo_col_apply l broadcasts_S2048x1_S2048x512 r e]

/-- What a batch's first key block starts from, at row r and column e: maximum −∞, denominator 0, numerator 0. -/
theorem scr0_apply (r : Fin 2048) (e : Fin 512) :
    (((scr0 (F := Ideal)).1 (ix2 r (0 : Fin 1)) : EReal), ((scr0 (F := Ideal)).2.1 (ix2 r (0 : Fin 1)) : EReal),
      ((scr0 (F := Ideal)).2.2 (ix2 r e) : EReal)) = OnlineSoftmax.init := by
  unfold scr0 OnlineSoftmax.init k3_pay5 k3_pay6 k3_pay7
  simp only [shapeCast_self, broadcast_apply]
  refine Prod.ext ?_ (Prod.ext ?_ ?_)
  · exact HostMax.ofBits_neg_inf
  · exact Ideal.ofBits_zero_f32
  · exact Ideal.ofBits_zero_f32

/-- The output block from the scratch contents at (0, r, e): numerator over denominator of row r. -/
theorem outOf_apply (s : Scr Ideal) (u : Fin 1) (r : Fin 2048) (e : Fin 512) :
    (outOf s (ix3 u r e) : EReal) = Ideal.div (s.2.2 (ix2 r e)) (s.2.1 (ix2 r (0 : Fin 1))) := by
  unfold outOf
  exact pay4_apply s.2.2 s.2.1 u r e

/-- ONE KEY BLOCK FOLDED IN, read at row r and column e: the three scratch entries after the block are one step of the
    block-by-block softmax recurrence from the three entries before it, with the block's logits of row r (inner products
    of the query row with the key rows) and the value block's column e. -/
theorem scrStep_apply (q : Vec Ideal S1x2048x512 .f32) (k : Vec Ideal S1x256x512 .f32) (v : Vec Ideal S1x256x512 .bf16)
    (s : Scr Ideal)
    (hq : ∀ i, ∃ r : ℝ, (q i : EReal) = (r : EReal)) (hk : ∀ i, ∃ r : ℝ, (k i : EReal) = (r : EReal))
    (r : Fin 2048) (e : Fin 512) :
    (((scrStep q k v s).1 (ix2 r (0 : Fin 1)) : EReal), ((scrStep q k v s).2.1 (ix2 r (0 : Fin 1)) : EReal),
      ((scrStep q k v s).2.2 (ix2 r e) : EReal))
      = OnlineSoftmax.step (fun j : Fin 256 => ∑ d : Fin 512, (q (ix3 (0 : Fin 1) r d) : EReal) * k (ix3 (0 : Fin 1) j d))
          (fun j : Fin 256 => (v (ix3 (0 : Fin 1) j e) : EReal))
          ((s.1 (ix2 r (0 : Fin 1)) : EReal), (s.2.1 (ix2 r (0 : Fin 1)) : EReal), (s.2.2 (ix2 r e) : EReal)) := by
  have hS : (fun j : Fin 256 => (k3_pay9 (F := Ideal) q k (ix2 r j) : EReal))
      = fun j : Fin 256 => ∑ d : Fin 512, (q (ix3 (0 : Fin 1) r d) : EReal) * k (ix3 (0 : Fin 1) j d) :=
    funext fun j => pay9_apply q k hq hk r j
  have hM : (k3_pay10 (F := Ideal) q k s.1 (ix2 r (0 : Fin 1)) : EReal)
      = max (s.1 (ix2 r (0 : Fin 1)))
          ((Finset.univ : Finset (Fin 256)).sup fun j : Fin 256 => ∑ d : Fin 512, (q (ix3 (0 : Fin 1) r d) : EReal) * k (ix3 (0 : Fin 1) j d)) := by
    rw [pay10_apply, hS]
  unfold scrStep OnlineSoftmax.step
  refine Prod.ext ?_ (Prod.ext ?_ ?_)
  · show (k3_pay3 (F := Ideal) (k3_pay10 (F := Ideal) q k s.1) (ix2 r (0 : Fin 1)) : EReal) = _
    rw [pay3_eq, hM]
  · show (k3_pay1 (F := Ideal) (k3_pay13 (F := Ideal) q k s.1 s.1 s.2.1) (k3_pay14 (F := Ideal) q k s.1) (ix2 r (0 : Fin 1)) : EReal) = _
    rw [pay1_apply, pay13_apply, pay11_apply, pay14_apply, hM]
    simp only [pay12_apply, pay9_apply q k hq hk, hM]
  · show (k3_pay2 (F := Ideal) (k3_pay8 (F := Ideal) v) (k3_pay11 (F := Ideal) q k s.1 s.1) (k3_pay12 (F := Ideal) q k s.1) s.2.2 (ix2 r e) : EReal) = _
    rw [pay2_apply, pay11_apply, hM]
    simp only [pay12_apply, pay8_apply, pay9_apply q k hq hk, hM]

end Cert.KernelIdeal.HV

end
-- ==== Proof.KI.FlashBlocks.lean ====
/-
  Where the attention region's blocks sit in their arrays. The grid is (batch b, key block kb), point t = 8·b + kb. The query
  and output windows take batch b whole; the key and value windows take rows 256·kb … 256·kb + 255 of batch b. A block's
  element sits, on every axis, at block index × block size + its own coordinate. The output block is written back only at a
  batch's last key block, and those eight blocks cover the output array.
-/
import proofs.«171383_j9698036154819_2_alg».proof.Proof.KI.Blocks
import Idealize.ShloMosaic.Lib.Pipeline.Value
import Idealize.ShloMosaic.Lib.ValueIdx

set_option maxRecDepth 16384

noncomputable section

namespace Cert.KernelIdeal.HV

open Cert.KernelIdeal Cert.KernelIdeal.Gen Cert.KernelIdeal.H Idealize.ShloMosaic Idealize.ShloMosaic.ValueIdx Idealize.ShloMosaic.TcCoe

/-- The printed index maps, decided once over the grid: at point t = 8·b + kb the query and output windows sit at block
    (b, 0, 0) and the key and value windows at block (b, kb, 0). -/
theorem idx_facts3 : ∀ t : Fin cfg3.N,
    win3_0.index t (0 : Fin 3) = t.val / 8 ∧ win3_0.index t (1 : Fin 3) = 0 ∧ win3_0.index t (2 : Fin 3) = 0
    ∧ win3_1.index t (0 : Fin 3) = t.val / 8 ∧ win3_1.index t (1 : Fin 3) = t.val % 8 ∧ win3_1.index t (2 : Fin 3) = 0
    ∧ win3_2.index t (0 : Fin 3) = t.val / 8 ∧ win3_2.index t (1 : Fin 3) = t.val % 8 ∧ win3_2.index t (2 : Fin 3) = 0
    ∧ win3_3.index t (0 : Fin 3) = t.val / 8 ∧ win3_3.index t (1 : Fin 3) = 0 ∧ win3_3.index t (2 : Fin 3) = 0 :=
  (by decide +kernel : ∀ t : Fin grid3.N, _)

theorem N3 : cfg3.N = 64 := by decide

variable (V : (c : Dev nD) → (b : Ref sig .tc) → Buf (Elt Ideal) ((c : Thread nD τ).loc b))

/-- The query block at point t is batch t / 8 of the query array. -/
theorem iblk3_0_apply (c : Dev nD) (t : Fin cfg3.N) (b : Fin 8) (hb : b.val = t.val / 8) (r : Fin 2048) (d : Fin 512) :
    iblk3 (F := Ideal) V c 0 t (ix3 (0 : Fin 1) r d) = (V c main_v3 : S8x2048x512.Idx → EReal) (ix3 b r d) := by
  obtain ⟨e0, e1, e2, -⟩ := idx_facts3 t
  show V c main_v3 (((cfg3.win 0).blk t).view.emb (ix3 (0 : Fin 1) r d)) = _
  refine congrArg (V c main_v3) (funext fun a => Fin.ext ?_)
  match a with
  | ⟨0, _⟩ => show win3_0.index t (0 : Fin 3) * 1 + 1 * 0 = b.val; omega
  | ⟨1, _⟩ => show win3_0.index t (1 : Fin 3) * 2048 + 1 * r.val = r.val; omega
  | ⟨2, _⟩ => show win3_0.index t (2 : Fin 3) * 512 + 1 * d.val = d.val; omega

/-- The key block at point t is rows 256·(t % 8) … of batch t / 8 of the key array. -/
theorem iblk3_1_apply (c : Dev nD) (t : Fin cfg3.N) (b : Fin 8) (hb : b.val = t.val / 8) (n : Fin 2048) (j : Fin 256)
    (hn : n.val = t.val % 8 * 256 + j.val) (d : Fin 512) :
    iblk3 (F := Ideal) V c 1 t (ix3 (0 : Fin 1) j d) = (V c main_v7 : S8x2048x512.Idx → EReal) (ix3 b n d) := by
  obtain ⟨-, -, -, e0, e1, e2, -⟩ := idx_facts3 t
  show V c main_v7 (((cfg3.win 1).blk t).view.emb (ix3 (0 : Fin 1) j d)) = _
  refine congrArg (V c main_v7) (funext fun a => Fin.ext ?_)
  match a with
  | ⟨0, _⟩ => show win3_1.index t (0 : Fin 3) * 1 + 1 * 0 = b.val; omega
  | ⟨1, _⟩ => show win3_1.index t (1 : Fin 3) * 256 + 1 * j.val = n.val; omega
  | ⟨2, _⟩ => show win3_1.index t (2 : Fin 3) * 512 + 1 * d.val = d.val; omega

/-- The value block at point t is rows 256·(t % 8) … of batch t / 8 of the value array. -/
theorem iblk3_2_apply (c : Dev nD) (t : Fin cfg3.N) (b : Fin 8) (hb : b.val = t.val / 8) (n : Fin 2048) (j : Fin 256)
    (hn : n.val = t.val % 8 * 256 + j.val) (d : Fin 512) :
    iblk3 (F := Ideal) V c 2 t (ix3 (0 : Fin 1) j d) = (V c main_v11 : S8x2048x512.Idx → EReal) (ix3 b n d) := by
  obtain ⟨-, -, -, -, -, -, e0, e1, e2, -⟩ := idx_facts3 t
  show V c main_v11 (((cfg3.win 2).blk t).view.emb (ix3 (0 : Fin 1) j d)) = _
  refine congrArg (V c main_v11) (funext fun a => Fin.ext ?_)
  match a with
  | ⟨0, _⟩ => show win3_2.index t (0 : Fin 3) * 1 + 1 * 0 = b.val; omega
  | ⟨1, _⟩ => show win3_2.index t (1 : Fin 3) * 256 + 1 * j.val = n.val; omega
  | ⟨2, _⟩ => show win3_2.index t (2 : Fin 3) * 512 + 1 * d.val = d.val; omega

omit V in
/-- An element of the output block at point t sits in the output array in batch t / 8, at its own row and column. -/
theorem emb3_3 (t : Fin cfg3.N) (b : Fin 8) (hb : b.val = t.val / 8) (u : Fin 1) (r : Fin 2048) (e : Fin 512) :
    ((cfg3.win 3).blk t).view.emb (ix3 u r e) = (ix3 b r e : S8x2048x512.Idx) := by
  obtain ⟨-, -, -, -, -, -, -, -, -, e0, e1, e2⟩ := idx_facts3 t
  refine funext fun a => Fin.ext ?_
  match a with
  | ⟨0, _⟩ => show win3_3.index t (0 : Fin 3) * 1 + 1 * u.val = b.val; omega
  | ⟨1, _⟩ => show win3_3.index t (1 : Fin 3) * 2048 + 1 * r.val = r.val; omega
  | ⟨2, _⟩ => show win3_3.index t (2 : Fin 3) * 512 + 1 * e.val = e.val; omega

omit V in
/-- An index of the output array is in point t's block iff each coordinate is in the block's range on its axis. -/
theorem mem_blk3 (t : Fin cfg3.N) (i : S8x2048x512.Idx) :
    i ∈ ((cfg3.win 3).blk t).view.set ↔ ∀ a : Fin 3, win3_3.index t a * S1x2048x512.size a ≤ (i a).val
      ∧ (i a).val < win3_3.index t a * S1x2048x512.size a + S1x2048x512.size a := by
  show i ∈ ((View.whole main_v12).slice (win3_3.rect t)).set ↔ _
  rw [View.set_slice_whole, Rect.mem_set_unit]
  exact Iff.rfl

omit V in
/-- Every index (b, n, e) of the output array is in the block of a point that writes back: the last point 8·b + 7 of batch b. -/
theorem cover3 (i : S8x2048x512.Idx) :
    ∃ t : Fin cfg3.N, (cfg3.win 3).flush t = true ∧ i ∈ ((cfg3.win 3).blk t).view.set := by
  have h0 : (i 0).val < 8 := (i 0).isLt
  have h1 : (i 1).val < 2048 := (i 1).isLt
  have h2 : (i 2).val < 512 := (i 2).isLt
  have hN : cfg3.N = 64 := N3
  let t : Fin cfg3.N := ⟨8 * (i 0).val + 7, by rw [hN]; omega⟩
  obtain ⟨-, -, -, -, -, -, -, -, -, e0, e1, e2⟩ := idx_facts3 t
  have ht : t.val = 8 * (i 0).val + 7 := rfl
  refine ⟨t, (flush3_3 t).mpr (by rw [ht]; omega), ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 2048 ≤ (i 1).val ∧ (i 1).val < win3_3.index t (1 : Fin 3) * 2048 + 2048; omega
  | ⟨2, _⟩ => show win3_3.index t (2 : Fin 3) * 512 ≤ (i 2).val ∧ (i 2).val < win3_3.index t (2 : Fin 3) * 512 + 512; omega

end Cert.KernelIdeal.HV

end
-- ==== Proof.KI.FlashInv.lean ====
/-
  The scratch contents across the key blocks of a batch. For batch b, query row r and output column e, after key block kb
  the three scratch entries (maximum, denominator, numerator) are the block-by-block softmax recurrence run over the key
  blocks 0 … kb, with logits s_{kb,j} = Σ_d q[b,r,d]·k[b,256·kb+j,d] and values v[b,256·kb+j,e]: a batch's first point starts
  from (−∞, 0, 0), and every later point folds its block into what the point before left.
-/
import proofs.«171383_j9698036154819_2_alg».proof.Proof.KI.FlashStep
import proofs.«171383_j9698036154819_2_alg».proof.Proof.KI.FlashBlocks
import proofs.«171383_j9698036154819_2_alg».proof.Proof.Spec
import proofs.«171383_j9698036154819_2_alg».proof.Proof.LibOnlineDefs

set_option maxRecDepth 16384

noncomputable section

open scoped BigOperators

namespace Cert.KernelIdeal.HV

open Cert.KernelIdeal Cert.KernelIdeal.Gen Cert.KernelIdeal.H Idealize.ShloMosaic Idealize.ShloMosaic.ValueIdx Idealize.ShloMosaic.TcCoe

variable (V : (c : Dev nD) → (b : Ref sig .tc) → Buf (Elt Ideal) ((c : Thread nD τ).loc b))

/-- The region's three input arrays (query, key, value projections), read by their three coordinates. -/
abbrev Qa (c : Dev nD) : Cert.Attn.Arr3 := fun b n d => (V c main_v3 : S8x2048x512.Idx → EReal) (ix3 b n d)
abbrev Ka (c : Dev nD) : Cert.Attn.Arr3 := fun b n d => (V c main_v7 : S8x2048x512.Idx → EReal) (ix3 b n d)
abbrev Va (c : Dev nD) : Cert.Attn.Arr3 := fun b n d => (V c main_v11 : S8x2048x512.Idx → EReal) (ix3 b n d)

/-- Key position j of key block kb among the 2048 key positions of a batch. -/
abbrev kpos (kb : Fin 8) (j : Fin 256) : Fin 2048 := OnlineSoftmax.flat (B := 8) (J := 256) (N := 2048) rfl kb j

/-- The logits of query row r of batch b, key block by key block … -/
def Sblk (c : Dev nD) (b : Fin 8) (r : Fin 2048) : Fin 8 → Fin 256 → EReal :=
  fun kb j => Cert.Attn.score (Qa V c) (Ka V c) b r (kpos kb j)

/-- … and column e of the value rows of batch b, key block by key block. -/
def Vblk (c : Dev nD) (b : Fin 8) (e : Fin 512) : Fin 8 → Fin 256 → EReal :=
  fun kb j => Va V c b (kpos kb j) e

/-- The scratch contents read at row r and column e: (maximum, denominator, numerator). -/
def ent (s : Scr Ideal) (r : Fin 2048) (e : Fin 512) : OnlineSoftmax.St :=
  ((s.1 (ix2 r (0 : Fin 1)) : EReal), (s.2.1 (ix2 r (0 : Fin 1)) : EReal), (s.2.2 (ix2 r e) : EReal))

/-- The three input blocks at point t, at their literal vector types. -/
abbrev qblk (c : Dev nD) (t : Fin cfg3.N) : Vec Ideal S1x2048x512 .f32 := iblk3 (F := Ideal) V c 0 t
abbrev kblk (c : Dev nD) (t : Fin cfg3.N) : Vec Ideal S1x256x512 .f32 := iblk3 (F := Ideal) V c 1 t
abbrev vblk (c : Dev nD) (t : Fin cfg3.N) : Vec Ideal S1x256x512 .bf16 := iblk3 (F := Ideal) V c 2 t

/-- The logits the body forms at point t, for query row r, are the logits of batch t / 8 against key block t % 8. -/
theorem blk_logits (c : Dev nD) (t : Fin cfg3.N) (b : Fin 8) (hb : b.val = t.val / 8) (kb : Fin 8) (hkb : kb.val = t.val % 8)
    (r : Fin 2048) :
    (fun j : Fin 256 => ∑ d : Fin 512, (qblk V c t (ix3 (0 : Fin 1) r d) : EReal) * kblk V c t (ix3 (0 : Fin 1) j d))
      = Sblk V c b r kb := by
  funext j
  unfold Sblk Cert.Attn.score
  refine Finset.sum_congr rfl fun d _ => ?_
  exact congrArg₂ (fun x y : EReal => x * y) (iblk3_0_apply V c t b hb r d)
    (iblk3_1_apply V c t b hb (kpos kb j) j (by show kb.val * 256 + j.val = _; rw [hkb]) d)

/-- The value column the body reads at point t is column e of key block t % 8 of batch t / 8. -/
theorem blk_values (c : Dev nD) (t : Fin cfg3.N) (b : Fin 8) (hb : b.val = t.val / 8) (kb : Fin 8) (hkb : kb.val = t.val % 8)
    (e : Fin 512) :
    (fun j : Fin 256 => (vblk V c t (ix3 (0 : Fin 1) j e) : EReal)) = Vblk V c b e kb := by
  funext j
  unfold Vblk
  exact iblk3_2_apply V c t b hb (kpos kb j) j (by show kb.val * 256 + j.val = _; rw [hkb]) e

/-- ONE POINT: the body at point t takes the scratch entries of (r, e) one step of the recurrence, with the logits and
    values of key block t % 8 of batch t / 8. -/
theorem point_step (c : Dev nD)
    (hq : ∀ i, ∃ x : ℝ, (V c main_v3 : S8x2048x512.Idx → EReal) i = (x : EReal))
    (hk : ∀ i, ∃ x : ℝ, (V c main_v7 : S8x2048x512.Idx → EReal) i = (x : EReal))
    (t : Fin cfg3.N) (b : Fin 8) (hb : b.val = t.val / 8) (kb : Fin 8) (hkb : kb.val = t.val % 8)
    (s : Scr Ideal) (r : Fin 2048) (e : Fin 512) :
    ent (scrStep (qblk V c t) (kblk V c t) (vblk V c t) s) r e
      = OnlineSoftmax.step (Sblk V c b r kb) (Vblk V c b e kb) (ent s r e) := by
  have hq' : ∀ i, ∃ x : ℝ, (qblk V c t i : EReal) = (x : EReal) :=
    fun i => hq (((cfg3.win 0).blk t).view.emb i)
  have hk' : ∀ i, ∃ x : ℝ, (kblk V c t i : EReal) = (x : EReal) :=
    fun i => hk (((cfg3.win 1).blk t).view.emb i)
  refine (scrStep_apply (qblk V c t) (kblk V c t) (vblk V c t) s hq' hk' r e).trans ?_
  exact congrArg₂ (fun S Vv => OnlineSoftmax.step S Vv (ent s r e)) (blk_logits V c t b hb kb hkb r) (blk_values V c t b hb kb hkb e)

theorem scrAt_congr (c : Dev nD) {n n' : ℕ} (h : n = n') (hn : n < cfg3.N) (hn' : n' < cfg3.N) :
    scrAt V c n hn = scrAt V c n' hn' := by subst h; rfl

/-- THE INVARIANT: after key block kb of batch b (grid point 8·b + kb) the scratch entries of (r, e) are the recurrence
    run over the key blocks 0 … kb of that batch. By induction on kb: a batch's first point starts from (−∞, 0, 0), every
    later one from what the point before left. -/
theorem scrAt_run (c : Dev nD)
    (hq : ∀ i, ∃ x : ℝ, (V c main_v3 : S8x2048x512.Idx → EReal) i = (x : EReal))
    (hk : ∀ i, ∃ x : ℝ, (V c main_v7 : S8x2048x512.Idx → EReal) i = (x : EReal))
    (b : Fin 8) (r : Fin 2048) (e : Fin 512) :
    ∀ (kb : ℕ) (hkb : kb < 8) (n : ℕ) (hn : n < cfg3.N) (hnb : n = 8 * b.val + kb),
      ent (scrAt V c n hn) r e = OnlineSoftmax.run (Sblk V c b r) (Vblk V c b e) (kb + 1) (Nat.succ_le_of_lt hkb)
  | 0, hkb, n, hn, hnb => by
    have h0 : n % 8 = 0 := by omega
    rw [(scrAt_first V c ⟨n, hn⟩ h0 : scrAt V c n hn = _)]
    refine (point_step V c hq hk ⟨n, hn⟩ b (by show b.val = n / 8; omega) ⟨0, hkb⟩ (by show 0 = n % 8; omega) scr0 r e).trans ?_
    have e0 : ent (scr0 (F := Ideal)) r e = OnlineSoftmax.init := scr0_apply r e
    rw [e0]
    rfl
  | kb + 1, hkb, n, hn, hnb => by
    have h0 : ¬ n % 8 = 0 := by omega
    have hn1 : n - 1 < cfg3.N := Nat.lt_of_le_of_lt (Nat.sub_le _ _) hn
    rw [(scrAt_next V c ⟨n, hn⟩ h0 : scrAt V c n hn = _)]
    refine (point_step V c hq hk ⟨n, hn⟩ b (by show b.val = n / 8; omega) ⟨kb + 1, hkb⟩ (by show kb + 1 = n % 8; omega) _ r e).trans ?_
    have ih := scrAt_run c hq hk b r e kb (by omega) (n - 1) hn1 (by omega)
    rw [(ih : ent (scrAt V c ((⟨n, hn⟩ : Fin cfg3.N).val - 1) _) r e = _)]
    rfl

end Cert.KernelIdeal.HV

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.LibOnlineSoftmax.lean ====
/-
  A softmax-weighted sum accumulated block by block gives the softmax-weighted mean of all the values.

  The columns of a row come in `B` blocks of `J`, position `b · J + j` being column `j` of block `b`. The recurrence of
  LibOnlineDefs.lean keeps (running maximum `m`, running denominator `l`, running numerator `a`). The invariant: after the
  first `K` positions,

    m = max_{k<K} s_k   (−∞ when K = 0),    l = Σ_{k<K} exp (s_k − m),    a = Σ_{k<K} exp (s_k − m) · v_k

  (`pmax`, `pden`, `pnum` below; both sums empty, hence zero, at K = 0). A block of `J > 0` further positions moves `m`
  to the larger `m'`, a real; the old sums are rescaled by `exp (m − m')`, and for real `m` that is the identity
  `exp (m − m') · exp (s − m) = exp (s − m')` on the reals (at K = 0 the old sums are zero and nothing is asked of
  `exp (−∞ − m') = 0`). After all `N = B · J > 0` positions `l` is a positive real, and a quotient by a nonzero real
  moves inside a finite sum of real terms: `a / l = Σ_x (exp (s_x − m) / l) · v_x`.
-/
import proofs.«171383_j9698036154819_2_alg».proof.Proof.LibOnlineDefs
import proofs.«171383_j9698036154819_2_alg».proof.Proof.LibRealSums
import Mathlib.Algebra.BigOperators.Intervals
import Mathlib.Algebra.BigOperators.Fin
import Mathlib.Analysis.SpecialFunctions.Exp

noncomputable section

open scoped BigOperators

namespace OnlineSoftmax

open Idealize.ShloMosaic Finset Cert.Lib.RealSums

/-! ## The invariant's three components, over logits and values listed along the naturals -/

/-- The largest of the first `K` logits; −∞ when `K = 0`. -/
def pmax (f : ℕ → ℝ) (K : ℕ) : EReal := (range K).sup fun k => ((f k : ℝ) : EReal)

/-- The denominator over the first `K` positions against the maximum `m`: `Σ_{k<K} exp (f k − m)`. -/
def pden (f : ℕ → ℝ) (K : ℕ) (m : EReal) : EReal := ∑ k ∈ range K, Ideal.exp (((f k : ℝ) : EReal) - m)

/-- The numerator over the first `K` positions against the maximum `m`: `Σ_{k<K} exp (f k − m) · g k`. -/
def pnum (f g : ℕ → ℝ) (K : ℕ) (m : EReal) : EReal :=
  ∑ k ∈ range K, Ideal.exp (((f k : ℝ) : EReal) - m) * ((g k : ℝ) : EReal)

/-- No position: the maximum is −∞. -/
theorem pmax_zero (f : ℕ → ℝ) : pmax f 0 = ⊥ := by unfold pmax; rw [range_zero, sup_empty]

/-- No position: the denominator is the empty sum. -/
theorem pden_zero (f : ℕ → ℝ) (m : EReal) : pden f 0 m = 0 := by unfold pden; rw [range_zero, sum_empty]

/-- No position: the numerator is the empty sum. -/
theorem pnum_zero (f g : ℕ → ℝ) (m : EReal) : pnum f g 0 m = 0 := by unfold pnum; rw [range_zero, sum_empty]

/-- The maximum over `K + J` positions is the larger of the maximum over the first `K` and the maximum of the next `J`. -/
theorem pmax_add (f : ℕ → ℝ) (K J : ℕ) :
    pmax f (K + J) = max (pmax f K) (univ.sup fun j : Fin J => ((f (K + j.val) : ℝ) : EReal)) := by
  unfold pmax
  apply le_antisymm
  · refine Finset.sup_le fun k hk => ?_
    have hk' := mem_range.1 hk
    by_cases h : k < K
    · exact le_max_of_le_left (Finset.le_sup (f := fun k => ((f k : ℝ) : EReal)) (mem_range.2 h))
    · obtain ⟨d, rfl⟩ : ∃ d, k = K + d := ⟨k - K, by omega⟩
      exact le_max_of_le_right
        (Finset.le_sup (f := fun j : Fin J => ((f (K + j.val) : ℝ) : EReal)) (mem_univ (⟨d, by omega⟩ : Fin J)))
  · refine max_le (Finset.sup_mono (range_mono (Nat.le_add_right K J))) (Finset.sup_le fun j _ => ?_)
    exact Finset.le_sup (f := fun k => ((f k : ℝ) : EReal)) (mem_range.2 (Nat.add_lt_add_left j.isLt K))

/-- Over at least one position the maximum is a real number. -/
theorem pmax_real (f : ℕ → ℝ) {K : ℕ} (hK : 0 < K) : ∃ M : ℝ, pmax f K = (M : EReal) := by
  have h1 : pmax f K ≠ ⊤ := by
    refine ne_of_lt ?_
    unfold pmax
    rw [Finset.sup_lt_iff bot_lt_top]
    exact fun k _ => EReal.coe_lt_top _
  have h2 : pmax f K ≠ ⊥ :=
    ne_of_gt (lt_of_lt_of_le (EReal.bot_lt_coe (f 0))
      (Finset.le_sup (f := fun k => ((f k : ℝ) : EReal)) (mem_range.2 hK)))
  exact ⟨(pmax f K).toReal, (EReal.coe_toReal h1 h2).symm⟩

/-- Against a real maximum the denominator is the coercion of a real sum. -/
theorem pden_coe (f : ℕ → ℝ) (K : ℕ) (M : ℝ) :
    pden f K (M : EReal) = ((∑ k ∈ range K, Real.exp (f k - M) : ℝ) : EReal) := by
  unfold pden
  rw [coe_sum]
  exact Finset.sum_congr rfl fun k _ => by rw [← EReal.coe_sub, Ideal.exp_coe]

/-- Against a real maximum the numerator is the coercion of a real sum. -/
theorem pnum_coe (f g : ℕ → ℝ) (K : ℕ) (M : ℝ) :
    pnum f g K (M : EReal) = ((∑ k ∈ range K, Real.exp (f k - M) * g k : ℝ) : EReal) := by
  unfold pnum
  rw [coe_sum]
  exact Finset.sum_congr rfl fun k _ => by rw [← EReal.coe_sub, Ideal.exp_coe, ← EReal.coe_mul]

/-- The denominator over `K + J` positions is the one over the first `K` plus the next block's terms. -/
theorem pden_add (f : ℕ → ℝ) (K J : ℕ) (m : EReal) :
    pden f (K + J) m = pden f K m + ∑ j : Fin J, Ideal.exp (((f (K + j.val) : ℝ) : EReal) - m) := by
  unfold pden
  rw [sum_range_add]
  exact congrArg (fun t => (∑ k ∈ range K, Ideal.exp (((f k : ℝ) : EReal) - m)) + t)
    (Finset.sum_range fun j => Ideal.exp (((f (K + j) : ℝ) : EReal) - m))

/-- The numerator over `K + J` positions is the one over the first `K` plus the next block's terms. -/
theorem pnum_add (f g : ℕ → ℝ) (K J : ℕ) (m : EReal) :
    pnum f g (K + J) m
      = pnum f g K m + ∑ j : Fin J, Ideal.exp (((f (K + j.val) : ℝ) : EReal) - m) * ((g (K + j.val) : ℝ) : EReal) := by
  unfold pnum
  rw [sum_range_add]
  exact congrArg (fun t => (∑ k ∈ range K, Ideal.exp (((f k : ℝ) : EReal) - m) * ((g k : ℝ) : EReal)) + t)
    (Finset.sum_range fun j => Ideal.exp (((f (K + j) : ℝ) : EReal) - m) * ((g (K + j) : ℝ) : EReal))

/-- Rescaling the denominator from its own maximum to a real `M'`: with no position both sides are zero; otherwise the
    old maximum is a real `M` and `exp (M − M') · exp (f k − M) = exp (f k − M')` term by term. -/
theorem rescale_den (f : ℕ → ℝ) (K : ℕ) (M' : ℝ) :
    Ideal.exp (pmax f K - (M' : EReal)) * pden f K (pmax f K) = pden f K (M' : EReal) := by
  rcases Nat.eq_zero_or_pos K with rfl | hK
  · rw [pden_zero, pden_zero, mul_zero]
  · obtain ⟨M, hM⟩ := pmax_real f hK
    rw [hM, pden_coe, pden_coe, ← EReal.coe_sub, Ideal.exp_coe, ← EReal.coe_mul, Finset.mul_sum]
    refine congrArg (fun r : ℝ => (r : EReal)) (Finset.sum_congr rfl fun k _ => ?_)
    rw [← Real.exp_add]
    exact congrArg Real.exp (by ring)

/-- Rescaling the numerator from its own maximum to a real `M'`, in the same way. -/
theorem rescale_num (f g : ℕ → ℝ) (K : ℕ) (M' : ℝ) :
    Ideal.exp (pmax f K - (M' : EReal)) * pnum f g K (pmax f K) = pnum f g K (M' : EReal) := by
  rcases Nat.eq_zero_or_pos K with rfl | hK
  · rw [pnum_zero, pnum_zero, mul_zero]
  · obtain ⟨M, hM⟩ := pmax_real f hK
    rw [hM, pnum_coe, pnum_coe, ← EReal.coe_sub, Ideal.exp_coe, ← EReal.coe_mul, Finset.mul_sum]
    refine congrArg (fun r : ℝ => (r : EReal)) (Finset.sum_congr rfl fun k _ => ?_)
    rw [← mul_assoc, ← Real.exp_add]
    exact congrArg (fun t => Real.exp t * g k) (by ring)

/-- ONE BLOCK. From the invariant's state over the first `K` positions, folding in the next `J > 0` positions gives the
    invariant's state over `K + J` positions. -/
theorem step_pref (f g : ℕ → ℝ) (K : ℕ) {J : ℕ} (hJ : 0 < J) :
    step (fun j : Fin J => ((f (K + j.val) : ℝ) : EReal)) (fun j : Fin J => ((g (K + j.val) : ℝ) : EReal))
        (pmax f K, pden f K (pmax f K), pnum f g K (pmax f K))
      = (pmax f (K + J), pden f (K + J) (pmax f (K + J)), pnum f g (K + J) (pmax f (K + J))) := by
  obtain ⟨M', hM'⟩ := pmax_real f (Nat.add_pos_right K hJ)
  unfold step
  dsimp only
  rw [← pmax_add, hM', pden_add, pnum_add, rescale_den, rescale_num]

/-! ## A row of `N = B · J` columns listed along the naturals -/

/-- A function of the `N` columns continued by zero past them. -/
def ext {N : ℕ} (s : Fin N → ℝ) : ℕ → ℝ := fun k => if h : k < N then s ⟨k, h⟩ else 0

/-- At a column's own position the continuation is the function. -/
theorem ext_val {N : ℕ} (s : Fin N → ℝ) (y : Fin N) : ext s y.val = s y := by
  unfold ext; rw [dif_pos y.isLt]

/-- Column `j` of block `b` sits at position `b · J + j`. -/
theorem ext_flat {B J N : ℕ} (hN : B * J = N) (s : Fin N → ℝ) (b : Fin B) (j : Fin J) :
    s (flat hN b j) = ext s (b.val * J + j.val) := (ext_val s (flat hN b j)).symm

/-- The maximum over all `N` positions of the continuation is the supremum over the columns. -/
theorem pmax_ext {N : ℕ} (s : Fin N → ℝ) : pmax (ext s) N = univ.sup fun y : Fin N => ((s y : ℝ) : EReal) := by
  unfold pmax
  apply le_antisymm
  · refine Finset.sup_le fun k hk => ?_
    have e : ext s k = s ⟨k, mem_range.1 hk⟩ := ext_val s ⟨k, mem_range.1 hk⟩
    rw [e]
    exact Finset.le_sup (f := fun y : Fin N => ((s y : ℝ) : EReal)) (mem_univ (⟨k, mem_range.1 hk⟩ : Fin N))
  · refine Finset.sup_le fun y _ => ?_
    rw [← ext_val s y]
    exact Finset.le_sup (f := fun k => ((ext s k : ℝ) : EReal)) (mem_range.2 y.isLt)

/-- THE INVARIANT. After the first `n` blocks the state is (maximum, denominator, numerator) of the first `n · J` positions. -/
theorem run_pref {B J N : ℕ} (hN : B * J = N) (hJ : 0 < J) (s v : Fin N → ℝ) :
    ∀ (n : ℕ) (h : n ≤ B),
      run (fun b j => ((s (flat hN b j) : ℝ) : EReal)) (fun b j => ((v (flat hN b j) : ℝ) : EReal)) n h
        = (pmax (ext s) (n * J), pden (ext s) (n * J) (pmax (ext s) (n * J)),
            pnum (ext s) (ext v) (n * J) (pmax (ext s) (n * J)))
  | 0, _ => by
    rw [Nat.zero_mul, pmax_zero, pden_zero, pnum_zero]; rfl
  | n + 1, h => by
    show step (fun j : Fin J => ((s (flat hN ⟨n, h⟩ j) : ℝ) : EReal)) (fun j : Fin J => ((v (flat hN ⟨n, h⟩ j) : ℝ) : EReal))
        (run (fun b j => ((s (flat hN b j) : ℝ) : EReal)) (fun b j => ((v (flat hN b j) : ℝ) : EReal)) n (Nat.le_of_succ_le h)) = _
    have e1 : (fun j : Fin J => ((s (flat hN ⟨n, h⟩ j) : ℝ) : EReal))
        = fun j : Fin J => ((ext s (n * J + j.val) : ℝ) : EReal) := funext fun j => by rw [ext_flat hN s ⟨n, h⟩ j]
    have e2 : (fun j : Fin J => ((v (flat hN ⟨n, h⟩ j) : ℝ) : EReal))
        = fun j : Fin J => ((ext v (n * J + j.val) : ℝ) : EReal) := funext fun j => by rw [ext_flat hN v ⟨n, h⟩ j]
    rw [e1, e2, run_pref hN hJ s v n (Nat.le_of_succ_le h), Nat.succ_mul]
    exact step_pref (ext s) (ext v) (n * J) hJ

/-- THE RESULT. After all `B` blocks of `J` columns (`B, J > 0`), numerator over denominator is the softmax-weighted mean
    of all `N = B · J` values: each value weighted by `exp (s_x − max s) / Σ_y exp (s_y − max s)`. -/
theorem run_div {B J N : ℕ} (hB : 0 < B) (hJ : 0 < J) (hN : B * J = N) (s v : Fin N → ℝ) :
    Ideal.div (run (fun b j => ((s (flat hN b j) : ℝ) : EReal)) (fun b j => ((v (flat hN b j) : ℝ) : EReal)) B le_rfl).2.2
              (run (fun b j => ((s (flat hN b j) : ℝ) : EReal)) (fun b j => ((v (flat hN b j) : ℝ) : EReal)) B le_rfl).2.1
      = ∑ x : Fin N, Ideal.div (Ideal.exp ((s x : EReal) - Finset.univ.sup fun y : Fin N => ((s y : ℝ) : EReal)))
                               (∑ y : Fin N, Ideal.exp ((s y : EReal) - Finset.univ.sup fun y' : Fin N => ((s y' : ℝ) : EReal))) * (v x : EReal) := by
  have hNpos : 0 < N := hN ▸ Nat.mul_pos hB hJ
  rw [run_pref hN hJ s v B le_rfl, hN, ← pmax_ext s]
  dsimp only
  obtain ⟨M, hM⟩ := pmax_real (ext s) hNpos
  rw [hM]
  have hden : (∑ y : Fin N, Ideal.exp (((s y : ℝ) : EReal) - (M : EReal))) = pden (ext s) N (M : EReal) := by
    unfold pden
    rw [Finset.sum_range fun k => Ideal.exp (((ext s k : ℝ) : EReal) - (M : EReal))]
    exact Finset.sum_congr rfl fun y _ => by rw [ext_val]
  have hD0 : pden (ext s) N (M : EReal) ≠ 0 := by
    rw [pden_coe]
    exact fun h0 => (ne_of_gt (Finset.sum_pos (fun k _ => Real.exp_pos (ext s k - M)) ⟨0, mem_range.2 hNpos⟩))
      (EReal.coe_eq_zero.1 h0)
  rw [hden]
  unfold pnum
  rw [div_sum_mul (range N) (fun k => Ideal.exp (((ext s k : ℝ) : EReal) - (M : EReal))) (fun k => ((ext v k : ℝ) : EReal))
      (pden (ext s) N (M : EReal))
      (fun k => by rw [← EReal.coe_sub, Ideal.exp_coe]; exact fin'_coe _) (fun k => fin'_coe _) hD0,
    Finset.sum_range fun k => Ideal.div (Ideal.exp (((ext s k : ℝ) : EReal) - (M : EReal))) (pden (ext s) N (M : EReal)) * ((ext v k : ℝ) : EReal)]
  exact Finset.sum_congr rfl fun x _ => by rw [ext_val, ext_val]

end OnlineSoftmax

end
-- ==== Proof.KI.FlashValue.lean ====
/-
  The value of the attention region. After a batch's last key block the output block is numerator over denominator, and the
  recurrence run over all 8·256 = 2048 key positions ends at Σ_j (exp (s_j − max s) / Σ_j' exp (s_j' − max s))·v_j, the
  softmax-weighted mean of the value rows. Every index (b, n, e) of the output array lies in the block written back at point
  8·b + 7, so the array ends holding the attention of its three input arrays.
-/
import proofs.«171383_j9698036154819_2_alg».proof.Proof.KI.FlashInv
import proofs.«171383_j9698036154819_2_alg».proof.Proof.LibOnlineSoftmax
import proofs.«171383_j9698036154819_2_alg».proof.Proof.LibRealSums
import Idealize.ShloMosaic.Lib.Pipeline.Value

set_option maxRecDepth 16384

noncomputable section

open scoped BigOperators

namespace Cert.KernelIdeal.HV

open Cert.KernelIdeal Cert.KernelIdeal.Gen Cert.KernelIdeal.H Idealize.ShloMosaic Idealize.ShloMosaic.ValueIdx Idealize.ShloMosaic.TcCoe

variable (V : (c : Dev nD) → (b : Ref sig .tc) → Buf (Elt Ideal) ((c : Thread nD τ).loc b))

/-- AFTER A BATCH'S LAST KEY BLOCK numerator over denominator is the attention output: with real inputs the logits of a query
    row are reals, and the recurrence run over all eight key blocks of 256 positions ends at the softmax-weighted mean of the
    2048 value rows. -/
theorem attn_of_run (c : Dev nD)
    (hq : ∀ i, ∃ x : ℝ, (V c main_v3 : S8x2048x512.Idx → EReal) i = (x : EReal))
    (hk : ∀ i, ∃ x : ℝ, (V c main_v7 : S8x2048x512.Idx → EReal) i = (x : EReal))
    (hv : ∀ i, ∃ x : ℝ, (V c main_v11 : S8x2048x512.Idx → EReal) i = (x : EReal))
    (b : Fin 8) (r : Fin 2048) (e : Fin 512) :
    Ideal.div (OnlineSoftmax.run (Sblk V c b r) (Vblk V c b e) 8 le_rfl).2.2
        (OnlineSoftmax.run (Sblk V c b r) (Vblk V c b e) 8 le_rfl).2.1
      = Cert.Attn.attn (Qa V c) (Ka V c) (Va V c) b r e := by
  choose q' hq' using hq
  choose k' hk' using hk
  choose v' hv' using hv
  obtain ⟨s, hs⟩ : ∃ s : Fin 2048 → ℝ, ∀ x, ((s x : ℝ) : EReal) = Cert.Attn.score (Qa V c) (Ka V c) b r x :=
    ⟨fun x => ∑ d : Fin 512, q' (ix3 b r d) * k' (ix3 b x d), fun x => by
      unfold Cert.Attn.score
      rw [Cert.Lib.RealSums.coe_sum]
      refine Finset.sum_congr rfl fun d _ => ?_
      rw [EReal.coe_mul, ← hq', ← hk']⟩
  obtain ⟨vv, hvv⟩ : ∃ vv : Fin 2048 → ℝ, ∀ x, ((vv x : ℝ) : EReal) = Va V c b x e :=
    ⟨fun x => v' (ix3 b x e), fun x => (hv' _).symm⟩
  have hS : (fun (kb : Fin 8) (j : Fin 256) => ((s (kpos kb j) : ℝ) : EReal)) = Sblk V c b r := by
    funext kb j; unfold Sblk; exact hs _
  have hV : (fun (kb : Fin 8) (j : Fin 256) => ((vv (kpos kb j) : ℝ) : EReal)) = Vblk V c b e := by
    funext kb j; unfold Vblk; exact hvv _
  have h := OnlineSoftmax.run_div (B := 8) (J := 256) (N := 2048) (by omega) (by omega) rfl s vv
  refine ((congrArg₂ (fun S Vv => Ideal.div (OnlineSoftmax.run (B := 8) (J := 256) S Vv 8 le_rfl).2.2
      (OnlineSoftmax.run (B := 8) (J := 256) S Vv 8 le_rfl).2.1) hS hV).symm.trans h).trans ?_
  unfold Cert.Attn.attn Cert.Attn.wgt Cert.Attn.rowMax
  simp only [hs, hvv]

/-- WHAT A BATCH'S LAST POINT WRITES BACK is its block of the attention output: the output block there is numerator over
    denominator of the scratch entries, which hold the recurrence run over all eight key blocks of the batch. -/
theorem flushed3_eq (c : Dev nD)
    (hq : ∀ i, ∃ x : ℝ, (V c main_v3 : S8x2048x512.Idx → EReal) i = (x : EReal))
    (hk : ∀ i, ∃ x : ℝ, (V c main_v7 : S8x2048x512.Idx → EReal) i = (x : EReal))
    (hv : ∀ i, ∃ x : ℝ, (V c main_v11 : S8x2048x512.Idx → EReal) i = (x : EReal))
    (t : Fin cfg3.N) (hf : (cfg3.win 3).flush t = true) :
    (dat3 (F := Ideal) V c).flushed 3 t
      = ((cfg3.win 3).blk t).view.read (Elt Ideal)
          (fun i : S8x2048x512.Idx => Cert.Attn.attn (Qa V c) (Ka V c) (Va V c) (i 0) (i 1) (i 2)) := by
  have h7 : t.val % 8 = 7 := (flush3_3 t).mp hf
  have hN : cfg3.N = 64 := N3
  have htl : t.val < 64 := hN ▸ t.isLt
  obtain ⟨b, hb⟩ : ∃ b : Fin 8, b.val = t.val / 8 := ⟨⟨t.val / 8, by omega⟩, rfl⟩
  show (cfg3.win 3).cut (grid3.coords t) ((dat3 (F := Ideal) V c).after 3 t) = _
  rw [after3_3]
  refine funext fun (y : S1x2048x512.Idx) => ?_
  obtain ⟨u, r, e, rfl⟩ : ∃ (u : Fin 1) (r : Fin 2048) (e : Fin 512), y = ix3 u r e := ⟨y 0, y 1, y 2, eq_ix3 y⟩
  show (outOf (scrAt (F := Ideal) V c t.val t.isLt) (ix3 u r e) : EReal)
      = (fun i : S8x2048x512.Idx => Cert.Attn.attn (Qa V c) (Ka V c) (Va V c) (i 0) (i 1) (i 2))
          (((cfg3.win 3).blk t).view.emb (ix3 u r e))
  rw [emb3_3 t b hb u r e, outOf_apply]
  have hrun := scrAt_run V c hq hk b r e 7 (by omega) t.val t.isLt (by omega)
  show Ideal.div (ent (scrAt (F := Ideal) V c t.val t.isLt) r e).2.2 (ent (scrAt (F := Ideal) V c t.val t.isLt) r e).2.1 = _
  rw [hrun]
  exact attn_of_run V c hq hk hv b r e

/-- THE ATTENTION REGION'S OUTPUT ARRAY after the last grid point: at (b, n, e) the softmax-weighted mean of the value rows of
    batch b, the weights those of query row n against all 2048 key rows. Each batch's block is written back once, at
    the batch's last key block, and those eight blocks cover the array. -/
theorem final3 (c : Dev nD)
    (hq : ∀ i, ∃ x : ℝ, (V c main_v3 : S8x2048x512.Idx → EReal) i = (x : EReal))
    (hk : ∀ i, ∃ x : ℝ, (V c main_v7 : S8x2048x512.Idx → EReal) i = (x : EReal))
    (hv : ∀ i, ∃ x : ℝ, (V c main_v11 : S8x2048x512.Idx → EReal) i = (x : EReal)) :
    (dat3 (F := Ideal) V c).arrAt 3 cfg3.N
      = fun i : S8x2048x512.Idx => Cert.Attn.attn
          (fun b n d => (V c main_v3 : S8x2048x512.Idx → EReal) (ix3 b n d))
          (fun b n d => (V c main_v7 : S8x2048x512.Idx → EReal) (ix3 b n d))
          (fun b n d => (V c main_v11 : S8x2048x512.Idx → EReal) (ix3 b n d)) (i 0) (i 1) (i 2) :=
  (dat3 (F := Ideal) V c).arrAt_eq_of_cover 3
    (fun i : S8x2048x512.Idx => Cert.Attn.attn (Qa V c) (Ka V c) (Va V c) (i 0) (i 1) (i 2))
    (fun t hf => flushed3_eq V c hq hk hv t hf) cover3

end Cert.KernelIdeal.HV

end
-- ==== Proof.KI.Chain.lean ====
/-
  The value of the program's result through the host operations between its four regions. The three projections read a
  [8, 2048, 512] argument reshaped to [16384, 512] (row `2048·b + n` is position `(b, n)`) and a transposed
  [512, 512] weight, and each product is reshaped back to [8, 2048, 512]: at `(b, n, e)` it is the sum over `d` of the
  argument at `(b, n, d)` times the weight at `(e, d)`. Those three arrays are what the attention region reads, and its
  output array is the program's result.
-/
import proofs.«171383_j9698036154819_2_alg».proof.Proof.KI.MatValue
import proofs.«171383_j9698036154819_2_alg».proof.Proof.KI.FlashValue
import proofs.«171383_j9698036154819_2_alg».proof.Proof.Gen.KernelIdeal.Regions
import proofs.«171383_j9698036154819_2_alg».proof.Proof.Spec
import proofs.«171383_j9698036154819_2_alg».proof.Proof.LibRealSums
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.HV

open Cert.KernelIdeal Cert.KernelIdeal.Gen Cert.KernelIdeal.H Idealize.ShloMosaic Idealize.ShloMosaic.ValueIdx
open Idealize.ShloMosaic.TcCoe Idealize.SL.Sem
open Idealize.ShloMosaic.Pipeline (Dat)

/-! ## The layout operations at an entry -/

/-- Row `2048·b + n` of a [16384, 512] array. -/
abbrev row (b : Fin 8) (n : Fin 2048) : Fin 16384 := ⟨2048 * b.val + n.val, by have := b.isLt; have := n.isLt; omega⟩

/-- A [8, 2048, 512] array reshaped to [16384, 512], read at row `2048·b + n`. -/
theorem reshape_in_apply (x : S8x2048x512.Idx → EReal) (b : Fin 8) (n : Fin 2048) (d : Fin 512) :
    shapeCast S16384x512 x shapeCasts_S8x2048x512_S16384x512 (ix2 (row b n) d) = x (ix3 b n d) := by
  refine shapeCast_apply x _ (ix2 (row b n) d) (ix3 b n d) ?_
  rw [Shape.rowMajor_val_three, Shape.rowMajor_val_two]
  show (b.val * 2048 + n.val) * 512 + d.val = (2048 * b.val + n.val) * 512 + d.val
  omega

/-- A [16384, 512] array reshaped to [8, 2048, 512], read at `(b, n, e)`. -/
theorem reshape_out_apply (y : S16384x512.Idx → EReal) (b : Fin 8) (n : Fin 2048) (e : Fin 512) :
    shapeCast S8x2048x512 y shapeCasts_S16384x512_S8x2048x512 (ix3 b n e) = y (ix2 (row b n) e) := by
  refine shapeCast_apply y _ (ix3 b n e) (ix2 (row b n) e) ?_
  rw [Shape.rowMajor_val_three, Shape.rowMajor_val_two]
  show (2048 * b.val + n.val) * 512 + e.val = (b.val * 2048 + n.val) * 512 + e.val
  omega

/-- A transposed [512, 512] matrix at `(d, e)` is the matrix at `(e, d)`. -/
theorem transpose_apply' (w : S512x512.Idx → EReal) (d e : Fin 512) :
    transpose S512x512 [1, 0] w transposes_S512x512_S512x512_1_0 (ix2 d e) = w (ix2 e d) := by
  refine transpose_apply [1, 0] w _ (ix2 d e) (ix2 e d) fun a => ?_
  match a with
  | ⟨0, _⟩ => rfl
  | ⟨1, _⟩ => rfl

/-- One projection through its layout operations: the product of the reshaped argument and the transposed weight, reshaped
    back, is the projection of the specification. -/
theorem proj_through (x : S8x2048x512.Idx → EReal) (w : S512x512.Idx → EReal) (b : Fin 8) (n : Fin 2048) (e : Fin 512) :
    shapeCast S8x2048x512 (mm (shapeCast S16384x512 x shapeCasts_S8x2048x512_S16384x512)
        (transpose S512x512 [1, 0] w transposes_S512x512_S512x512_1_0)) shapeCasts_S16384x512_S8x2048x512 (ix3 b n e)
      = Cert.Attn.proj x w b n e := by
  rw [reshape_out_apply, mm_apply]
  unfold Cert.Attn.proj
  refine Finset.sum_congr rfl fun d _ => ?_
  rw [reshape_in_apply, transpose_apply']

/-! ## What the host operations between the regions write -/

section Host
variable (W : Valuation τ sig (Elt Ideal))

theorem host0_v0 : (StableHlo.after hostOps0 W main_v0 : S512x512.Idx → EReal)
    = transpose S512x512 [1, 0] (W main_arg3) transposes_S512x512_S512x512_1_0 := by
  show StableHlo.after hostOps0 W (Proc.devRef .tc main_v0) = _
  after_results
theorem host0_v1 : (StableHlo.after hostOps0 W main_v1 : S16384x512.Idx → EReal)
    = shapeCast S16384x512 (W main_arg0) shapeCasts_S8x2048x512_S16384x512 := by
  show StableHlo.after hostOps0 W (Proc.devRef .tc main_v1) = _
  after_results; rfl
theorem host1_v3 : (StableHlo.after hostOps1 W main_v3 : S8x2048x512.Idx → EReal)
    = shapeCast S8x2048x512 (W main_v2) shapeCasts_S16384x512_S8x2048x512 := by
  show StableHlo.after hostOps1 W (Proc.devRef .tc main_v3) = _
  after_results; rfl
theorem host1_v4 : (StableHlo.after hostOps1 W main_v4 : S512x512.Idx → EReal)
    = transpose S512x512 [1, 0] (W main_arg4) transposes_S512x512_S512x512_1_0 := by
  show StableHlo.after hostOps1 W (Proc.devRef .tc main_v4) = _
  after_results
theorem host1_v5 : (StableHlo.after hostOps1 W main_v5 : S16384x512.Idx → EReal)
    = shapeCast S16384x512 (W main_arg1) shapeCasts_S8x2048x512_S16384x512 := by
  show StableHlo.after hostOps1 W (Proc.devRef .tc main_v5) = _
  after_results; rfl
theorem host2_v7 : (StableHlo.after hostOps2 W main_v7 : S8x2048x512.Idx → EReal)
    = shapeCast S8x2048x512 (W main_v6) shapeCasts_S16384x512_S8x2048x512 := by
  show StableHlo.after hostOps2 W (Proc.devRef .tc main_v7) = _
  after_results; rfl
theorem host2_v8 : (StableHlo.after hostOps2 W main_v8 : S512x512.Idx → EReal)
    = transpose S512x512 [1, 0] (W main_arg5) transposes_S512x512_S512x512_1_0 := by
  show StableHlo.after hostOps2 W (Proc.devRef .tc main_v8) = _
  after_results
theorem host2_v9 : (StableHlo.after hostOps2 W main_v9 : S16384x512.Idx → EReal)
    = shapeCast S16384x512 (W main_arg2) shapeCasts_S8x2048x512_S16384x512 := by
  show StableHlo.after hostOps2 W (Proc.devRef .tc main_v9) = _
  after_results; rfl
theorem host3_v11 : (StableHlo.after hostOps3 W main_v11 : S8x2048x512.Idx → EReal)
    = shapeCast S8x2048x512 (W main_v10) shapeCasts_S16384x512_S8x2048x512 := by
  show StableHlo.after hostOps3 W (Proc.devRef .tc main_v11) = _
  after_results; rfl

end Host

/-! ## The arrays between the regions -/

section Chain
variable (m : (ℓ : Loc nD τ sig) → Buf (Elt Ideal) ℓ) (o : Gen.Outs (F := Ideal)) (c : Dev nD)

/-- The first projection as the attention region finds it. -/
theorem v3_apply (h2 : o 2 main_v2 c = (dat0 (F := Ideal) (fun c b => Gen.V1 m c b) c).arrAt 2 cfg0.N)
    (b : Fin 8) (n : Fin 2048) (e : Fin 512) :
    (Gen.V7 m o c main_v3 : S8x2048x512.Idx → EReal) (ix3 b n e)
      = Cert.Attn.proj (m ((c : Thread nD τ).loc main_arg0)) (m ((c : Thread nD τ).loc main_arg3)) b n e := by
  have e1 : Gen.V7 m o c main_v3 = Gen.V3 m o c main_v3 :=
    (V7_of m o c main_v3 (by decide)).trans <| (V6_of m o c main_v3 (by decide)).trans <|
      (V5_of m o c main_v3 (by decide)).trans (V4_of m o c main_v3 (by decide))
  have e2 : (Gen.V2 m o c main_v2 : S16384x512.Idx → EReal) = o 2 main_v2 c := by
    show Function.update (Gen.V1 m c) (Proc.devRef .tc main_v2) (o 2 main_v2 c) (Proc.devRef .tc main_v2) = _
    rw [Function.update_self]
  have e3 : (Gen.V3 m o c main_v3 : S8x2048x512.Idx → EReal)
      = shapeCast S8x2048x512 (Gen.V2 m o c main_v2) shapeCasts_S16384x512_S8x2048x512 := host1_v3 (Gen.V2 m o c)
  rw [e1, e3, e2, h2, final0_mm]
  show shapeCast S8x2048x512 (mm (StableHlo.after hostOps0 (Gen.V0 m c) main_v1) (StableHlo.after hostOps0 (Gen.V0 m c) main_v0)) _ _ = _
  rw [host0_v1, host0_v0]
  exact proj_through _ _ b n e

/-- The second projection as the attention region finds it. -/
theorem v7_apply (h4 : o 4 main_v6 c = (dat1 (F := Ideal) (fun c b => Gen.V3 m o c b) c).arrAt 2 cfg1.N)
    (b : Fin 8) (n : Fin 2048) (e : Fin 512) :
    (Gen.V7 m o c main_v7 : S8x2048x512.Idx → EReal) (ix3 b n e)
      = Cert.Attn.proj (m ((c : Thread nD τ).loc main_arg1)) (m ((c : Thread nD τ).loc main_arg4)) b n e := by
  have e1 : Gen.V7 m o c main_v7 = Gen.V5 m o c main_v7 :=
    (V7_of m o c main_v7 (by decide)).trans (V6_of m o c main_v7 (by decide))
  have e2 : (Gen.V4 m o c main_v6 : S16384x512.Idx → EReal) = o 4 main_v6 c := by
    show Function.update (Gen.V3 m o c) (Proc.devRef .tc main_v6) (o 4 main_v6 c) (Proc.devRef .tc main_v6) = _
    rw [Function.update_self]
  have e3 : (Gen.V5 m o c main_v7 : S8x2048x512.Idx → EReal)
      = shapeCast S8x2048x512 (Gen.V4 m o c main_v6) shapeCasts_S16384x512_S8x2048x512 := host2_v7 (Gen.V4 m o c)
  have a1 : Gen.V2 m o c main_arg1 = m ((c : Thread nD τ).loc main_arg1) :=
    (V2_of m o c main_arg1 (by decide)).trans ((V1_of m c main_arg1 (by decide)).trans rfl)
  have a4 : Gen.V2 m o c main_arg4 = m ((c : Thread nD τ).loc main_arg4) :=
    (V2_of m o c main_arg4 (by decide)).trans ((V1_of m c main_arg4 (by decide)).trans rfl)
  rw [e1, e3, e2, h4, final1_mm]
  show shapeCast S8x2048x512 (mm (StableHlo.after hostOps1 (Gen.V2 m o c) main_v5) (StableHlo.after hostOps1 (Gen.V2 m o c) main_v4)) _ _ = _
  rw [host1_v5, host1_v4, a1, a4]
  exact proj_through _ _ b n e

/-- The third projection as the attention region finds it. -/
theorem v11_apply (h6 : o 6 main_v10 c = (dat2 (F := Ideal) (fun c b => Gen.V5 m o c b) c).arrAt 2 cfg2.N)
    (b : Fin 8) (n : Fin 2048) (e : Fin 512) :
    (Gen.V7 m o c main_v11 : S8x2048x512.Idx → EReal) (ix3 b n e)
      = Cert.Attn.proj (m ((c : Thread nD τ).loc main_arg2)) (m ((c : Thread nD τ).loc main_arg5)) b n e := by
  have e2 : (Gen.V6 m o c main_v10 : S16384x512.Idx → EReal) = o 6 main_v10 c := by
    show Function.update (Gen.V5 m o c) (Proc.devRef .tc main_v10) (o 6 main_v10 c) (Proc.devRef .tc main_v10) = _
    rw [Function.update_self]
  have e3 : (Gen.V7 m o c main_v11 : S8x2048x512.Idx → EReal)
      = shapeCast S8x2048x512 (Gen.V6 m o c main_v10) shapeCasts_S16384x512_S8x2048x512 := host3_v11 (Gen.V6 m o c)
  have a2 : Gen.V4 m o c main_arg2 = m ((c : Thread nD τ).loc main_arg2) :=
    (V4_of m o c main_arg2 (by decide)).trans <| (V3_of m o c main_arg2 (by decide)).trans <|
      (V2_of m o c main_arg2 (by decide)).trans ((V1_of m c main_arg2 (by decide)).trans rfl)
  have a5 : Gen.V4 m o c main_arg5 = m ((c : Thread nD τ).loc main_arg5) :=
    (V4_of m o c main_arg5 (by decide)).trans <| (V3_of m o c main_arg5 (by decide)).trans <|
      (V2_of m o c main_arg5 (by decide)).trans ((V1_of m c main_arg5 (by decide)).trans rfl)
  rw [e3, e2, h6, final2_mm]
  show shapeCast S8x2048x512 (mm (StableHlo.after hostOps2 (Gen.V4 m o c) main_v9) (StableHlo.after hostOps2 (Gen.V4 m o c) main_v8)) _ _ = _
  rw [host2_v9, host2_v8, a2, a5]
  exact proj_through _ _ b n e

end Chain

/-! ## The result -/

/-- A projection of real-valued arrays is real-valued: a finite sum of products of reals. -/
theorem proj_real (x : S8x2048x512.Idx → EReal) (w : S512x512.Idx → EReal)
    (hx : ∀ i, ∃ r : ℝ, x i = (r : EReal)) (hw : ∀ i, ∃ r : ℝ, w i = (r : EReal)) (b : Fin 8) (n : Fin 2048) (e : Fin 512) :
    ∃ r : ℝ, Cert.Attn.proj x w b n e = (r : EReal) := by
  choose x' hx' using hx
  choose w' hw' using hw
  refine ⟨∑ d : Fin 512, x' (ix3 b n d) * w' (ix2 e d), ?_⟩
  unfold Cert.Attn.proj
  rw [Cert.Lib.RealSums.coe_sum]
  refine Finset.sum_congr rfl fun d _ => ?_
  rw [hx', hw', EReal.coe_mul]

section Result
variable (m : (ℓ : Loc nD τ sig) → Buf (Elt Ideal) ℓ) (o : Gen.Outs (F := Ideal)) (c : Dev nD)

/-- The first projection is real-valued when its argument and weight are. -/
theorem v3_real (h2 : o 2 main_v2 c = (dat0 (F := Ideal) (fun c b => Gen.V1 m c b) c).arrAt 2 cfg0.N)
    (hr0 : ∀ i, ∃ r : ℝ, m ((c : Thread nD τ).loc main_arg0) i = (r : EReal))
    (hr3 : ∀ i, ∃ r : ℝ, m ((c : Thread nD τ).loc main_arg3) i = (r : EReal)) :
    ∀ i, ∃ r : ℝ, (Gen.V7 m o c main_v3 : S8x2048x512.Idx → EReal) i = (r : EReal) := by
  intro i
  obtain ⟨b, n, e, rfl⟩ : ∃ (b : Fin 8) (n : Fin 2048) (e : Fin 512), i = ix3 b n e := ⟨i 0, i 1, i 2, eq_ix3 i⟩
  rw [v3_apply m o c h2]
  exact proj_real _ _ hr0 hr3 b n e

/-- The second projection is real-valued when its argument and weight are. -/
theorem v7_real (h4 : o 4 main_v6 c = (dat1 (F := Ideal) (fun c b => Gen.V3 m o c b) c).arrAt 2 cfg1.N)
    (hr1 : ∀ i, ∃ r : ℝ, m ((c : Thread nD τ).loc main_arg1) i = (r : EReal))
    (hr4 : ∀ i, ∃ r : ℝ, m ((c : Thread nD τ).loc main_arg4) i = (r : EReal)) :
    ∀ i, ∃ r : ℝ, (Gen.V7 m o c main_v7 : S8x2048x512.Idx → EReal) i = (r : EReal) := by
  intro i
  obtain ⟨b, n, e, rfl⟩ : ∃ (b : Fin 8) (n : Fin 2048) (e : Fin 512), i = ix3 b n e := ⟨i 0, i 1, i 2, eq_ix3 i⟩
  rw [v7_apply m o c h4]
  exact proj_real _ _ hr1 hr4 b n e

/-- The third projection is real-valued when its argument and weight are. -/
theorem v11_real (h6 : o 6 main_v10 c = (dat2 (F := Ideal) (fun c b => Gen.V5 m o c b) c).arrAt 2 cfg2.N)
    (hr2 : ∀ i, ∃ r : ℝ, m ((c : Thread nD τ).loc main_arg2) i = (r : EReal))
    (hr5 : ∀ i, ∃ r : ℝ, m ((c : Thread nD τ).loc main_arg5) i = (r : EReal)) :
    ∀ i, ∃ r : ℝ, (Gen.V7 m o c main_v11 : S8x2048x512.Idx → EReal) i = (r : EReal) := by
  intro i
  obtain ⟨b, n, e, rfl⟩ : ∃ (b : Fin 8) (n : Fin 2048) (e : Fin 512), i = ix3 b n e := ⟨i 0, i 1, i 2, eq_ix3 i⟩
  rw [v11_apply m o c h6]
  exact proj_real _ _ hr2 hr5 b n e

/-- The program's result, given the attention region's output array as the attention of the three arrays it reads: the
    attention of the three projections. -/
theorem chain_of
    (h2 : o 2 main_v2 c = (dat0 (F := Ideal) (fun c b => Gen.V1 m c b) c).arrAt 2 cfg0.N)
    (h4 : o 4 main_v6 c = (dat1 (F := Ideal) (fun c b => Gen.V3 m o c b) c).arrAt 2 cfg1.N)
    (h6 : o 6 main_v10 c = (dat2 (F := Ideal) (fun c b => Gen.V5 m o c b) c).arrAt 2 cfg2.N)
    (h8 : o 8 main_v12 c = (dat3 (F := Ideal) (fun c b => Gen.V7 m o c b) c).arrAt 3 cfg3.N)
    (h3 : (dat3 (F := Ideal) (fun c b => Gen.V7 m o c b) c).arrAt 3 cfg3.N
      = fun i : S8x2048x512.Idx => Cert.Attn.attn (fun b n d => Gen.V7 m o c main_v3 (ix3 b n d))
          (fun b n d => Gen.V7 m o c main_v7 (ix3 b n d)) (fun b n d => Gen.V7 m o c main_v11 (ix3 b n d)) (i 0) (i 1) (i 2)) :
    (Gen.V8 m o c main_v12 : S8x2048x512.Idx → EReal)
      = Cert.Attn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e8 : (Gen.V8 m o c main_v12 : S8x2048x512.Idx → EReal) = o 8 main_v12 c := by
    show Function.update (Gen.V7 m o c) (Proc.devRef .tc main_v12) (o 8 main_v12 c) (Proc.devRef .tc main_v12) = _
    rw [Function.update_self]
  have p3 : (fun b n d => Gen.V7 m o c main_v3 (ix3 b n d) : Cert.Attn.Arr3)
      = Cert.Attn.proj (m ((c : Thread nD τ).loc main_arg0)) (m ((c : Thread nD τ).loc main_arg3)) :=
    funext fun b => funext fun n => funext fun d => v3_apply m o c h2 b n d
  have p7 : (fun b n d => Gen.V7 m o c main_v7 (ix3 b n d) : Cert.Attn.Arr3)
      = Cert.Attn.proj (m ((c : Thread nD τ).loc main_arg1)) (m ((c : Thread nD τ).loc main_arg4)) :=
    funext fun b => funext fun n => funext fun d => v7_apply m o c h4 b n d
  have p11 : (fun b n d => Gen.V7 m o c main_v11 (ix3 b n d) : Cert.Attn.Arr3)
      = Cert.Attn.proj (m ((c : Thread nD τ).loc main_arg2)) (m ((c : Thread nD τ).loc main_arg5)) :=
    funext fun b => funext fun n => funext fun d => v11_apply m o c h6 b n d
  rw [e8, h8, h3, p3, p7, p11]
  rfl

end Result

/-- The program's result is the specification's function of the six argument arrays, when those are real-valued. -/
theorem chain (m : (ℓ : Loc nD τ sig) → Buf (Elt Ideal) ℓ) (o : Gen.Outs (F := Ideal)) (c : Dev nD)
    (h2 : o 2 main_v2 c = (dat0 (F := Ideal) (fun c b => Gen.V1 m c b) c).arrAt 2 cfg0.N)
    (h4 : o 4 main_v6 c = (dat1 (F := Ideal) (fun c b => Gen.V3 m o c b) c).arrAt 2 cfg1.N)
    (h6 : o 6 main_v10 c = (dat2 (F := Ideal) (fun c b => Gen.V5 m o c b) c).arrAt 2 cfg2.N)
    (h8 : o 8 main_v12 c = (dat3 (F := Ideal) (fun c b => Gen.V7 m o c b) c).arrAt 3 cfg3.N)
    (hr0 : ∀ i, ∃ r : ℝ, m ((c : Thread nD τ).loc main_arg0) i = (r : EReal))
    (hr1 : ∀ i, ∃ r : ℝ, m ((c : Thread nD τ).loc main_arg1) i = (r : EReal))
    (hr2 : ∀ i, ∃ r : ℝ, m ((c : Thread nD τ).loc main_arg2) i = (r : EReal))
    (hr3 : ∀ i, ∃ r : ℝ, m ((c : Thread nD τ).loc main_arg3) i = (r : EReal))
    (hr4 : ∀ i, ∃ r : ℝ, m ((c : Thread nD τ).loc main_arg4) i = (r : EReal))
    (hr5 : ∀ i, ∃ r : ℝ, m ((c : Thread nD τ).loc main_arg5) i = (r : EReal)) :
    (Gen.V8 m o c main_v12 : S8x2048x512.Idx → EReal)
      = Cert.Attn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  chain_of m o c h2 h4 h6 h8
    (final3 (fun c b => Gen.V7 m o c b) c (v3_real m o c h2 hr0 hr3) (v7_real m o c h4 hr1 hr4) (v11_real m o c h6 hr2 hr5))

end Cert.KernelIdeal.HV

end
-- ==== Proof.Assemble.lean ====
/-
  The five claims, assembled.

  What the kernel computes: three linear projections q = query·Wqᵀ, k = key·Wkᵀ, v = value·Wvᵀ, each one block of
  2048 rows per grid point against the whole weight, and then attention one batch at a time: for each batch the key
  and value rows come in 8 blocks of 256, and three carried buffers hold, per query row, the running maximum of the
  logits seen so far, the running sum of exp (logit − maximum), and the running sum of exp (logit − maximum) · value
  row; a new block rescales the two sums by exp (old maximum − new maximum) and adds its own terms; after the last
  block the output row is the second sum divided by the first. The logits q·kᵀ are taken as three products of bf16
  halves, hi·hi + hi·lo + lo·hi with lo = x − hi.

  Which laws join it to the reference (three einsum projections, logits, a row softmax, a product with v), all on
  the extended reals:
  * the block-by-block recurrence ends at the softmax-weighted mean of all 2048 value rows: rescaling is
    exp (m − m') · exp (s − m) = exp (s − m') on real numbers (LibOnlineSoftmax.lean);
  * at the ideal instance hi = x, so lo = x − x, which is 0 for a real x: the two cross products vanish and the
    logits are the plain inner products;
  * a row normalised AFTER its product with v equals the row normalised BEFORE it: (Σ_j w_j · v_j) / D =
    Σ_j (w_j / D) · v_j for real terms and a nonzero real D (LibRealSums.lean).
  Where finiteness is used: each of the three laws is false at an infinity (x − x is not 0 at ±∞; a factor does not
  move across a sum holding both infinities; exp (m − m') · exp (s − m) needs m real). The precondition gives every
  input entry real (Finite.lean), hence every projection, logit and weight real.

  The reference's composed term is the same function `Cert.Attn.G` of the six argument arrays (RefValue.lean); the
  kernel's result buffer after its last region is `G` of the launch contents (the chain through the four regions); the
  two runs are then stated at one witness. The frames are the runs with the result dropped; the idealisation removed
  two round trips f32 → bf16 → f32, which are the identity at the ideal instance.
-/
import proofs.«171383_j9698036154819_2_alg».proof.Defs
import proofs.«171383_j9698036154819_2_alg».proof.Proof.Gen.Kernel
import proofs.«171383_j9698036154819_2_alg».proof.Proof.Gen.KernelIdeal
import proofs.«171383_j9698036154819_2_alg».proof.Proof.Gen.KernelIdeal.Regions
import proofs.«171383_j9698036154819_2_alg».proof.Proof.Gen.ReferenceIdeal
import proofs.«171383_j9698036154819_2_alg».proof.Proof.Gen.Pre_finite_inputs
import proofs.«171383_j9698036154819_2_alg».proof.Proof.Gen.ReferenceIdeal.Run
import proofs.«171383_j9698036154819_2_alg».proof.Proof.Gen.ReferenceIdeal.Read
import proofs.«171383_j9698036154819_2_alg».proof.Proof.RefValue
import proofs.«171383_j9698036154819_2_alg».proof.Proof.Finite
import proofs.«171383_j9698036154819_2_alg».proof.Proof.KI.Run
import proofs.«171383_j9698036154819_2_alg».proof.Proof.K.Run
import proofs.«171383_j9698036154819_2_alg».proof.Proof.KI.Chain

noncomputable section

namespace Cert.Proof.Assemble

open Idealize.ShloMosaic Idealize.ShloMosaic.TcCoe Idealize.SL.Sem

/-! ## The frames and the idealisation -/

/-- The word-level kernel runs and leaves its six arguments as launched. -/
theorem frame_k : Cert.frame_Kernel := fun m ρ _ => Cert.Kernel.H.frame_all (F := Bits) m ρ

/-- The idealised kernel runs and leaves its six arguments as launched. -/
theorem frame_ki : Cert.frame_KernelIdeal := fun m ρ _ => Cert.KernelIdeal.H.frame_all (F := Ideal) m ρ

/-- The reference runs and leaves its six arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealisation: a value narrowed to bf16 and widened back is itself at the ideal instance,
    and the rounding through bf16 at the word level. -/
theorem preserves : Cert.preserves_Kernel_KernelIdeal :=
  ⟨IdealRules.truncf_extf.statement _ .f32 .bf16, IdealRules.truncf_extf.statement _ .f32 .bf16⟩

/-! ## The kernel's result is the specification -/

section KernelValue

open Cert.KernelIdeal Cert.KernelIdeal.Gen Cert.KernelIdeal.H

/-- Under the precondition, the result buffer after the last region is `G` of the six arguments' launch contents:
    each region's output array is read back as that region's closed form over the buffers it was entered with, and the
    chain through the four regions needs every input entry real. -/
theorem kernel_value (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Gen.V8 m (outs m) c main_v12
      = Cert.Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨hr0, hr1, hr2, hr3, hr4, hr5⟩ := Cert.Finite.real_of_pre _ _ _ _ _ _ hpre
  have e3 : (fun (c : Dev nD) (b : Ref sig .tc) => Gen.V3 m (outs m) c b) = fun (c : Dev nD) (b : Ref sig .tc) => Gen.V3 m (oA m) c b :=
    funext fun c => funext fun b => congrFun (V3_outs m c) b
  have e5 : (fun (c : Dev nD) (b : Ref sig .tc) => Gen.V5 m (outs m) c b) = fun (c : Dev nD) (b : Ref sig .tc) => Gen.V5 m (oB m) c b :=
    funext fun c => funext fun b => congrFun (V5_outs m c) b
  have e7 : (fun (c : Dev nD) (b : Ref sig .tc) => Gen.V7 m (outs m) c b) = fun (c : Dev nD) (b : Ref sig .tc) => Gen.V7 m (oC m) c b :=
    funext fun c => funext fun b => congrFun (V7_outs m c) b
  refine Cert.KernelIdeal.HV.chain m (outs m) c (outs_2 m c) ?_ ?_ ?_ hr0 hr1 hr2 hr3 hr4 hr5
  · rw [e3]; exact outs_4 m c
  · rw [e5]; exact outs_6 m c
  · rw [e7]; exact outs_8 m c

end KernelValue

/-! ## The two programs agree -/

/-- From memories agreeing on the arguments both programs run, end with their result buffers at `G` of the arguments,
    and leave the arguments as launched. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel: every unscoped buffer ends at the last valuation; read the result and the six arguments off it
    refine (θ_run Cert.KernelIdeal.defs _ _).mono (fun r h c => ?_) (Cert.KernelIdeal.H.run_all (F := Ideal) m ρ)
    have hv := kernel_value m c (hpre c)
    exact ⟨(h c (Proc.devRef .tc Cert.KernelIdeal.main_v12)
          (Finset.mem_filter.mpr ⟨StableHlo.devRef_mem_tcRefs Cert.KernelIdeal.main_v12, by decide⟩)).trans hv,
      (h c (Proc.devRef .tc Cert.KernelIdeal.main_arg0)
          (Finset.mem_filter.mpr ⟨StableHlo.devRef_mem_tcRefs Cert.KernelIdeal.main_arg0, by decide⟩)).trans
        (Cert.KernelIdeal.Gen.V8_main_arg0 m _ c),
      (h c (Proc.devRef .tc Cert.KernelIdeal.main_arg1)
          (Finset.mem_filter.mpr ⟨StableHlo.devRef_mem_tcRefs Cert.KernelIdeal.main_arg1, by decide⟩)).trans
        (Cert.KernelIdeal.Gen.V8_main_arg1 m _ c),
      (h c (Proc.devRef .tc Cert.KernelIdeal.main_arg2)
          (Finset.mem_filter.mpr ⟨StableHlo.devRef_mem_tcRefs Cert.KernelIdeal.main_arg2, by decide⟩)).trans
        (Cert.KernelIdeal.Gen.V8_main_arg2 m _ c),
      (h c (Proc.devRef .tc Cert.KernelIdeal.main_arg3)
          (Finset.mem_filter.mpr ⟨StableHlo.devRef_mem_tcRefs Cert.KernelIdeal.main_arg3, by decide⟩)).trans
        (Cert.KernelIdeal.Gen.V8_main_arg3 m _ c),
      (h c (Proc.devRef .tc Cert.KernelIdeal.main_arg4)
          (Finset.mem_filter.mpr ⟨StableHlo.devRef_mem_tcRefs Cert.KernelIdeal.main_arg4, by decide⟩)).trans
        (Cert.KernelIdeal.Gen.V8_main_arg4 m _ c),
      (h c (Proc.devRef .tc Cert.KernelIdeal.main_arg5)
          (Finset.mem_filter.mpr ⟨StableHlo.devRef_mem_tcRefs Cert.KernelIdeal.main_arg5, by decide⟩)).trans
        (Cert.KernelIdeal.Gen.V8_main_arg5 m _ c)⟩
  · -- the reference: its composed term is `G` of ITS arguments, which are the kernel's
    refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.RefValue.ref_eq, (hagree c).1, (hagree c).2.1,
      (hagree c).2.2.1, (hagree c).2.2.2.1, (hagree c).2.2.2.2.1, (hagree c).2.2.2.2.2]

end Cert.Proof.Assemble

end
-- ==== Proof.lean ====
/-
  The proof of `Cert.Claim`: the three programs run and leave their arguments as launched, the idealised kernel is the
  kernel's sanctioned idealisation, and at the ideal instance the idealised kernel and the reference end with equal
  results.

  The kernel is single-head attention over three linear projections, with the softmax taken block by block: per
  batch, the 2048 key positions come in 8 blocks of 256, and per query row a running maximum, a running denominator
  and a running numerator are carried across the blocks and rescaled whenever the maximum grows; the output row is
  numerator over denominator after the last block. The reference takes the softmax of each whole row of logits and
  multiplies by the projected values. Over the extended reals the two are one function of the six argument arrays
  (Proof/Spec.lean, `Cert.Attn.G`), by three laws, each of which needs the entries to be real numbers:
  the block-by-block recurrence ends at the softmax-weighted mean of all the values (exp (m − m') · exp (s − m) =
  exp (s − m')); the logits' split into bf16 halves adds two cross products with x − x, which is 0 for a real x;
  and a row divided by its sum after the product with the values equals the row divided before it
  ((Σ w_j · v_j) / D = Σ (w_j / D) · v_j for a nonzero real D). The precondition says every input entry is a real,
  and that is the only place it is used. Proof/Assemble.lean puts the pieces together; the witnesses of the
  programs' stated side conditions come first.
-/
import proofs.«171383_j9698036154819_2_alg».proof.Defs
import proofs.«171383_j9698036154819_2_alg».proof.Proof.Gen.Kernel
import proofs.«171383_j9698036154819_2_alg».proof.Proof.Gen.Kernel.Skeleton
import proofs.«171383_j9698036154819_2_alg».proof.Proof.Gen.Kernel.Launch
import proofs.«171383_j9698036154819_2_alg».proof.Proof.Gen.Kernel.Regions
import proofs.«171383_j9698036154819_2_alg».proof.Proof.Gen.Kernel.Points
import proofs.«171383_j9698036154819_2_alg».proof.Proof.Gen.KernelIdeal
import proofs.«171383_j9698036154819_2_alg».proof.Proof.Gen.KernelIdeal.Skeleton
import proofs.«171383_j9698036154819_2_alg».proof.Proof.Gen.KernelIdeal.Launch
import proofs.«171383_j9698036154819_2_alg».proof.Proof.Gen.KernelIdeal.Regions
import proofs.«171383_j9698036154819_2_alg».proof.Proof.Gen.KernelIdeal.Points
import proofs.«171383_j9698036154819_2_alg».proof.Proof.Gen.ReferenceIdeal
import proofs.«171383_j9698036154819_2_alg».proof.Proof.Gen.Pre_finite_inputs
import proofs.«171383_j9698036154819_2_alg».proof.Proof.Gen.ReferenceIdeal.Run
import proofs.«171383_j9698036154819_2_alg».proof.Proof.Gen.ReferenceIdeal.Read
import proofs.«171383_j9698036154819_2_alg».proof.Proof.Assemble
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves, Assemble.algebraic⟩

end Cert.Proof

end
